-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S10x128 : Shape := ⟨2, ![10, 128]⟩
abbrev S128 : Shape := ⟨1, ![128]⟩
abbrev S128x128 : Shape := ⟨2, ![128, 128]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S4096x16384 .f32) (main_arg1 : FVec F S10x128 .f32) (main_arg2 : FVec F S128 .f32) (main_arg3 : FVec F S128 .f32) (main_arg4 : FVec F S128 .f32) (main_arg5 : FVec F S128x128 .f32) (main_arg6 : FVec F S128 .f32) (main_arg7 : FVec F S128 .f32) (main_arg8 : FVec F S128 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S10x128 .f32 := Host.absf main_arg1
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S4096x16384 : Shape := ⟨2, ![4096, 16384]⟩
abbrev S10x128 : Shape := ⟨2, ![10, 128]⟩
abbrev S128 : Shape := ⟨1, ![128]⟩
abbrev S128x128 : Shape := ⟨2, ![128, 128]⟩
abbrev S_ : Shape := ⟨0, ![]⟩
abbrev S1 : Shape := ⟨1, ![1]⟩
abbrev S1x128 : Shape := ⟨2, ![1, 128]⟩
abbrev S4096x128 : Shape := ⟨2, ![4096, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x118 : Shape := ⟨2, ![512, 118]⟩

abbrev nBuf : Space → Nat
  | .hbm => 21
  | .vmem => 13
  | .smem => 0
  | _ => 0

abbrev bufTy : (tb : Table) → Fin (tcTables nBuf tb) → BufTy
  | .hbm, ⟨0, _⟩ => ⟨S4096x16384, .f32⟩
  | .hbm, ⟨1, _⟩ => ⟨S10x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128x128, .f32⟩
  | .hbm, ⟨11, _⟩ => ⟨S_, .i32⟩
  | .hbm, ⟨12, _⟩ => ⟨S1, .i32⟩
  | .hbm, ⟨13, _⟩ => ⟨S128x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S4096x128, .f32⟩
  | .local _ .vmem, ⟨0, _⟩ => ⟨S512x2048, .f32⟩
  | .local _ .vmem, ⟨1, _⟩ => ⟨S512x2048, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v91 : BitVec 1 := Scalar.cmpi .eq arg1 c7_i32
  let v92 : BitVec 32 := Scalar.extui v91
  let c0_i32_29 : BitVec 32 := 0#32
  let v93 : BitVec 1 := Scalar.cmpi .ne v92 c0_i32_29
  v93

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bcast_S_S128x128 : S_.BroadcastsInDim S128x128 (![] : Fin 0 → Fin S128x128.rank)
  bcast_S_S1 : S_.BroadcastsInDim S1 (![] : Fin 0 → Fin S1.rank)
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x2048_S512x2048_0_0 : ∀ a, (![0, 0] : Fin 2 → Nat) a + S512x2048.size a ≤ S512x2048.size a
  h_S512x2048 : 0 < S512x2048.numel
  natLt_1_32 : 1 < 32
  reduces_S512x2048_S512 : S512x2048.Reduces [1] S512
  shapeCasts_S512_S512x1 : S512.ShapeCasts S512x1
  concatenates_S512x1_S512x1_S512x1_S512x1_S512x1_S512x1_S512x1_S512x1_S512x1_S512x1_S512x118_S512x128_d1 : Shape.Concatenates [S512x1, S512x1, S512x1, S512x1, S512x1, S512x1, S512x1, S512x1, S512x1, S512x1, S512x118] S512x128 1
  reduces_S512x128_S512 : S512x128.Reduces [1] S512
  broadcasts_S512x1_S512x128 : S512x1.Broadcasts S512x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  scatter_S128x128_S1_S10x128_01_n_0_0_wf : ScatterDims.WF S128x128 S1 S10x128 [0, 1] [] [0] 0
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x16384.size a
  hwx0_0 : ∀ i : grid0.Coords, EltTy.bits .f32 = 32 ∨ (Rect.block (s := S4096x16384) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S4096x128.size a
  hwx0_9 : ∀ i : grid0.Coords, EltTy.bits .f32 = 32 ∨ (Rect.block (s := S4096x128) S512x128.size (cc0_transform_9 i) (hinb0_9 i)).WholeWords (EltTy.packing .f32)

variable [Facts₀]

def scatter_S128x128_S1_S10x128_01_n_0_0 : ScatterDims S128x128 S1 S10x128 where
  updateWindowDims := [0, 1]
  insertedWindowDims := []
  scatterDimsToOperandDims := [0]
  indexVectorDim := 0
  wf := scatter_S128x128_S1_S10x128_01_n_0_0_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S512x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4096x16384 : Shape := ⟨2, ![4096, 16384]⟩
abbrev S10x128 : Shape := ⟨2, ![10, 128]⟩
abbrev S128 : Shape := ⟨1, ![128]⟩
abbrev S128x128 : Shape := ⟨2, ![128, 128]⟩
abbrev S_ : Shape := ⟨0, ![]⟩
abbrev S4096 : Shape := ⟨1, ![4096]⟩
abbrev S4096x1 : Shape := ⟨2, ![4096, 1]⟩
abbrev S67108864 : Shape := ⟨1, ![67108864]⟩
abbrev S40960 : Shape := ⟨1, ![40960]⟩
abbrev S67108864x1 : Shape := ⟨2, ![67108864, 1]⟩
abbrev S4096x10 : Shape := ⟨2, ![4096, 10]⟩
abbrev S4096x128 : Shape := ⟨2, ![4096, 128]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S10x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S4096x16384, .f32⟩
  | .hbm, ⟨11, _⟩ => ⟨S4096x16384, .i1⟩
  | .hbm, ⟨12, _⟩ => ⟨S_, .f32⟩
  | .hbm, ⟨13, _⟩ => ⟨S4096x16384, .f32⟩
  | .hbm, ⟨14, _⟩ => ⟨S4096x16384, .i1⟩
  | .hbm, ⟨15, _⟩ => ⟨S4096x16384, .i1⟩
  | .hbm, ⟨16, _⟩ => ⟨S4096x16384, .f32⟩
  | .hbm, ⟨17, _⟩ => ⟨S4096x16384, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S4096x16384, .i32⟩
  | .hbm, ⟨22, _⟩ => ⟨S4096x16384, .i32⟩
  | .hbm, ⟨23, _⟩ => ⟨S_, .i32⟩
  | .hbm, ⟨24, _⟩ => ⟨S4096x16384, .i32⟩
  | .hbm, ⟨25, _⟩ => ⟨S4096x16384, .i32⟩
  | .hbm, ⟨26, _⟩ => ⟨S4096, .i32⟩
  | .hbm, ⟨27, _⟩ => ⟨S4096x1, .i32⟩
  | .hbm, ⟨28, _⟩ => ⟨S_, .i32⟩
  | .hbm, ⟨29, _⟩ => ⟨S4096x1, .i32⟩
  | .hbm, ⟨30, _⟩ => ⟨S4096x1, .i32⟩
  | .hbm, ⟨31, _⟩ => ⟨S4096x16384, .i32⟩
  | .hbm, ⟨32, _⟩ => ⟨S4096x16384, .i32⟩
  | .hbm, ⟨33, _⟩ => ⟨S67108864, .i32⟩
  | .hbm, ⟨34, _⟩ => ⟨S4096x16384, .f32⟩
  | .hbm, ⟨35, _⟩ => ⟨S67108864, .f32⟩
  | .hbm, ⟨36, _⟩ => ⟨S_, .f32⟩
  | .hbm, ⟨37, _⟩ => ⟨S40960, .f32⟩
  | .hbm, ⟨38, _⟩ => ⟨S67108864x1, .i32⟩
  | .hbm, ⟨39, _⟩ => ⟨S40960, .f32⟩
  | .hbm, ⟨40, _⟩ => ⟨S4096x10, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x10, .f32⟩
  | .hbm, ⟨48, _⟩ => ⟨S4096x10, .f32⟩
  | .hbm, ⟨49, _⟩ => ⟨S4096x128, .f32⟩
  | .hbm, ⟨50, _⟩ => ⟨S1x128, .f32⟩
  | .hbm, ⟨51, _⟩ => ⟨S4096x128, .f32⟩
  | .hbm, ⟨52, _⟩ => ⟨S4096x128, .f32⟩
  | .hbm, ⟨53, _⟩ => ⟨S_, .f32⟩
  | .hbm, ⟨54, _⟩ => ⟨S4096x128, .f32⟩
  | .hbm, ⟨55, _⟩ => ⟨S4096x128, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x128, .f32⟩
  | .hbm, ⟨63, _⟩ => ⟨S4096x128, .f32⟩
  | .hbm, ⟨64, _⟩ => ⟨S4096x128, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x128, .f32⟩
  | .hbm, ⟨72, _⟩ => ⟨S4096x128, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x128, .f32⟩
  | .hbm, ⟨78, _⟩ => ⟨S4096x128, .f32⟩
  | .hbm, ⟨79, _⟩ => ⟨S1x128, .f32⟩
  | .hbm, ⟨80, _⟩ => ⟨S4096x128, .f32⟩
  | .hbm, ⟨81, _⟩ => ⟨S4096x128, .f32⟩
  | .hbm, ⟨82, _⟩ => ⟨S1x128, .f32⟩
  | .hbm, ⟨83, _⟩ => ⟨S4096x128, .f32⟩
  | .hbm, ⟨84, _⟩ => ⟨S4096x128, .f32⟩
  | .hbm, ⟨85, _⟩ => ⟨S4096x128, .f32⟩
  | .hbm, ⟨86, _⟩ => ⟨S1x128, .f32⟩
  | .hbm, ⟨87, _⟩ => ⟨S4096x128, .f32⟩
  | .hbm, ⟨88, _⟩ => ⟨S4096x128, .f32⟩
  | .hbm, ⟨89, _⟩ => ⟨S_, .f32⟩
  | .hbm, ⟨90, _⟩ => ⟨S4096x128, .f32⟩
  | .hbm, ⟨91, _⟩ => ⟨S4096x128, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S4096x128, .f32⟩
  | .hbm, ⟨99, _⟩ => ⟨S4096x128, .f32⟩
  | .hbm, ⟨100, _⟩ => ⟨S4096x128, .f32⟩
  | .hbm, ⟨101, _⟩ => ⟨S_, .f32⟩
  | .hbm, ⟨102, _⟩ => ⟨S4096, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S4096x128, .f32⟩
  | .hbm, ⟨108, _⟩ => ⟨S4096x128, .f32⟩
  | .hbm, ⟨109, _⟩ => ⟨S_, .f32⟩
  | .hbm, ⟨110, _⟩ => ⟨S4096x1, .f32⟩
  | .hbm, ⟨111, _⟩ => ⟨S4096x1, .f32⟩
  | .hbm, ⟨112, _⟩ => ⟨S4096x1, .f32⟩
  | .hbm, ⟨113, _⟩ => ⟨S4096x128, .f32⟩
  | .hbm, ⟨114, _⟩ => ⟨S4096x128, .f32⟩
  | .hbm, ⟨115, _⟩ => ⟨S1x128, .f32⟩
  | .hbm, ⟨116, _⟩ => ⟨S4096x128, .f32⟩
  | .hbm, ⟨117, _⟩ => ⟨S4096x128, .f32⟩
  | .hbm, ⟨118, _⟩ => ⟨S1x128, .f32⟩
  | .hbm, ⟨119, _⟩ => ⟨S4096x128, .f32⟩
  | .hbm, ⟨120, _⟩ => ⟨S4096x128, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call1_cst : Ref sig .tc := ⟨.hbm, 53, rfl⟩
abbrev main_call1_v0 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call2_cst : Ref sig .tc := ⟨.hbm, 89, rfl⟩
abbrev main_call2_v0 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]

class Facts₀ : Prop where
  bcast_S_S4096x16384 : S_.BroadcastsInDim S4096x16384 (![] : Fin 0 → Fin S4096x16384.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x16384_0_1 : S4096x1.BroadcastsInDim S4096x16384 (![0, 1] : Fin 2 → Fin S4096x16384.rank)
  shapeCasts_S4096x16384_S67108864 : S4096x16384.ShapeCasts S67108864
  bcast_S_S40960 : S_.BroadcastsInDim S40960 (![] : Fin 0 → Fin S40960.rank)
  bcast_S67108864_S67108864x1_0 : S67108864.BroadcastsInDim S67108864x1 (![0] : Fin 1 → Fin S67108864x1.rank)
  shapeCasts_S40960_S4096x10 : S40960.ShapeCasts S4096x10
  reducesTo_S4096x10_S4096_d1 : S4096x10.ReducesTo [1] S4096
  h_S_ : 0 < S_.numel
  bcast_S4096x1_S4096x10_0_1 : S4096x1.BroadcastsInDim S4096x10 (![0, 1] : Fin 2 → Fin S4096x10.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  reducesTo_S4096x128_S4096_d1 : S4096x128.ReducesTo [1] S4096
  bcast_S4096x1_S4096x128_0_1 : S4096x1.BroadcastsInDim S4096x128 (![0, 1] : Fin 2 → Fin S4096x128.rank)
  scatter_S40960_S67108864x1_S67108864_n_0_0_1_wf : ScatterDims.WF S40960 S67108864x1 S67108864 [] [0] [0] 1
  dot_S4096x10_S10x128_S4096x128_1_0_0_1_n_n_wf : DotDims.WF S4096x10 S10x128 S4096x128 [1] [0] [0] [1] [] []
  dot_S4096x128_S128x128_S4096x128_1_0_0_1_n_n_wf : DotDims.WF S4096x128 S128x128 S4096x128 [1] [0] [0] [1] [] []

variable [Facts₀]

def scatter_S40960_S67108864x1_S67108864_n_0_0_1 : ScatterDims S40960 S67108864x1 S67108864 where
  updateWindowDims := []
  insertedWindowDims := [0]
  scatterDimsToOperandDims := [0]
  indexVectorDim := 1
  wf := scatter_S40960_S67108864x1_S67108864_n_0_0_1_wf
def dot_S4096x10_S10x128_S4096x128_1_0_0_1_n_n : DotDims S4096x10 S10x128 S4096x128 where
  lhsContracting := [1]
  rhsContracting := [0]
  lhsNonContracting := [0]
  rhsNonContracting := [1]
  lhsBatch := []
  rhsBatch := []
  wf := dot_S4096x10_S10x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.KernelTerms.lean ====
/-
  Names for two terms of the kernel body that several modules speak about.
-/
import proofs.«126141_j10033043603497_2_alg».proof.Proof.Gen.KernelIdeal.Skeleton

noncomputable section

namespace Cert.KernelIdeal.HistValue

open Cert.KernelIdeal Cert.KernelIdeal.Gen Idealize.ShloMosaic

/-- The counts one [512, 2048] tile contributes to the [512, 128] block of lanes: the body's term. -/
abbrev tileCounts {F : FTy → Type} [FloatOps F] (x0 : Vec F S512x2048 .f32) : FVec F S512x128 .f32 :=
  k0_pay13 x0 (k0_pay7 x0) (k0_pay8 x0) (k0_pay9 x0) (k0_pay10 x0) (k0_pay11 x0) (k0_pay12 x0)

end Cert.KernelIdeal.HistValue

end
-- ==== Proof.KernelReads.lean ====
/-
  The blocks the kernel's windows read, as entries of the arrays the region finds: at position `8 I + k` of the grid the
  first window shows rows `512 I … 512 I + 511`, columns `2048 k … 2048 k + 2047` of the first argument; the eight
  parameter windows always show their whole array.
-/
import proofs.«126141_j10033043603497_2_alg».proof.Proof.Gen.KernelIdeal.Frame.Runs
import Idealize.ShloMosaic.Lib.Pipeline.Value
import Idealize.ShloMosaic.Lib.ValueIdx

noncomputable section

namespace Cert.KernelIdeal.HistValue

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Position `8 I + k` of the grid: row block `I`, column tile `k`. -/
abbrev pt (I : Fin 8) (k : ℕ) (hk : k < 8) : Fin cfg0.N :=
  ⟨8 * I.val + k, by rw [show cfg0.N = 64 from N_0]; have := I.isLt; omega⟩

/-- The tile read through window 0 at position `8 I + k` is rows `512 I …`, columns `2048 k …` of the first argument
    as the region finds it. -/
theorem iblk0_apply (c : Dev nD) (I : Fin 8) (k : ℕ) (hk : k < 8) (p : Fin 512) (s : Fin 2048) :
    (iblk m c 0 (pt I k hk) : Vec F S512x2048 .f32) (ix2 p s)
      = V m c main_arg0 (ix2 (⟨512 * I.val + p.val, by have := I.isLt; have := p.isLt; omega⟩ : Fin 4096)
          (⟨2048 * k + s.val, by have := s.isLt; omega⟩ : Fin 16384) : S4096x16384.Idx) := by
  have hi : ∀ t : Fin cfg0.N, win0_0.index t 0 = t.val / 8 ∧ win0_0.index t 1 = t.val % 8 :=
    (by decide +kernel : ∀ t : Fin grid0.N, win0_0.index t 0 = t.val / 8 ∧ win0_0.index t 1 = t.val % 8)
  unfold iblk
  rw [View.read_apply]
  show V m c main_arg0 _ = V m c main_arg0 _
  refine congrArg (V m c main_arg0) (funext fun a => Fin.ext ?_)
  have hI := I.isLt
  match a with
  | ⟨0, _⟩ =>
    show win0_0.index (pt I k hk) 0 * 512 + 1 * p.val = 512 * I.val + p.val
    rw [(hi _).1]; show (8 * I.val + k) / 8 * 512 + 1 * p.val = 512 * I.val + p.val; omega
  | ⟨1, _⟩ =>
    show win0_0.index (pt I k hk) 1 * 2048 + 1 * s.val = 2048 * k + s.val
    rw [(hi _).2]; show (8 * I.val + k) % 8 * 2048 + 1 * s.val = 2048 * k + s.val; omega

/-- The parameter windows never move: each block is the whole array. -/
theorem iblk1_apply (c : Dev nD) (t : Fin cfg0.N) (l j : Fin 128) :
    (iblk m c 1 t : Vec F S128x128 .f32) (ix2 l j) = V m c main_v2 (ix2 l j : S128x128.Idx) := by
  have hi : ∀ t : Fin cfg0.N, win0_1.index t 0 = 0 ∧ win0_1.index t 1 = 0 :=
    (by decide +kernel : ∀ t : Fin grid0.N, win0_1.index t 0 = 0 ∧ win0_1.index t 1 = 0)
  unfold iblk
  rw [View.read_apply]
  show V m c main_v2 _ = V m c main_v2 _
  refine congrArg (V m c main_v2) (funext fun a => Fin.ext ?_)
  match a with
  | ⟨0, _⟩ =>
    show win0_1.index t 0 * 128 + 1 * l.val = l.val
    rw [(hi _).1]; omega
  | ⟨1, _⟩ =>
    show win0_1.index t 1 * 128 + 1 * j.val = j.val
    rw [(hi _).2]; omega
theorem iblk2_apply (c : Dev nD) (t : Fin cfg0.N) (j : Fin 128) :
    (iblk m c 2 t : Vec F S1x128 .f32) (ix2 (0 : Fin 1) j) = V m c main_v3 (ix2 (0 : Fin 1) j : S1x128.Idx) := by
  have hi : ∀ t : Fin cfg0.N, win0_2.index t 0 = 0 ∧ win0_2.index t 1 = 0 :=
    (by decide +kernel : ∀ t : Fin grid0.N, win0_2.index t 0 = 0 ∧ win0_2.index t 1 = 0)
  unfold iblk
  rw [View.read_apply]
  show V m c main_v3 _ = V m c main_v3 _
  refine congrArg (V m c main_v3) (funext fun a => Fin.ext ?_)
  match a with
  | ⟨0, _⟩ =>
    show win0_2.index t 0 * 1 + 1 * (0 : Fin 1).val = (0 : Fin 1).val
    rw [(hi _).1]; omega
  | ⟨1, _⟩ =>
    show win0_2.index t 1 * 128 + 1 * j.val = j.val
    rw [(hi _).2]; omega
theorem iblk3_apply (c : Dev nD) (t : Fin cfg0.N) (j : Fin 128) :
    (iblk m c 3 t : Vec F S1x128 .f32) (ix2 (0 : Fin 1) j) = V m c main_v4 (ix2 (0 : Fin 1) j : S1x128.Idx) := by
  have hi : ∀ t : Fin cfg0.N, win0_3.index t 0 = 0 ∧ win0_3.index t 1 = 0 :=
    (by decide +kernel : ∀ t : Fin grid0.N, win0_3.index t 0 = 0 ∧ win0_3.index t 1 = 0)
  unfold iblk
  rw [View.read_apply]
  show V m c main_v4 _ = V m c main_v4 _
  refine congrArg (V m c main_v4) (funext fun a => Fin.ext ?_)
  match a with
  | ⟨0, _⟩ =>
    show win0_3.index t 0 * 1 + 1 * (0 : Fin 1).val = (0 : Fin 1).val
    rw [(hi _).1]; omega
  | ⟨1, _⟩ =>
    show win0_3.index t 1 * 128 + 1 * j.val = j.val
    rw [(hi _).2]; omega
theorem iblk4_apply (c : Dev nD) (t : Fin cfg0.N) (j : Fin 128) :
    (iblk m c 4 t : Vec F S1x128 .f32) (ix2 (0 : Fin 1) j) = V m c main_v5 (ix2 (0 : Fin 1) j : S1x128.Idx) := by
  have hi : ∀ t : Fin cfg0.N, win0_4.index t 0 = 0 ∧ win0_4.index t 1 = 0 :=
    (by decide +kernel : ∀ t : Fin grid0.N, win0_4.index t 0 = 0 ∧ win0_4.index t 1 = 0)
  unfold iblk
  rw [View.read_apply]
  show V m c main_v5 _ = V m c main_v5 _
  refine congrArg (V m c main_v5) (funext fun a => Fin.ext ?_)
  match a with
  | ⟨0, _⟩ =>
    show win0_4.index t 0 * 1 + 1 * (0 : Fin 1).val = (0 : Fin 1).val
    rw [(hi _).1]; omega
  | ⟨1, _⟩ =>
    show win0_4.index t 1 * 128 + 1 * j.val = j.val
    rw [(hi _).2]; omega
theorem iblk5_apply (c : Dev nD) (t : Fin cfg0.N) (l j : Fin 128) :
    (iblk m c 5 t : Vec F S128x128 .f32) (ix2 l j) = V m c main_arg5 (ix2 l j : S128x128.Idx) := by
  have hi : ∀ t : Fin cfg0.N, win0_5.index t 0 = 0 ∧ win0_5.index t 1 = 0 :=
    (by decide +kernel : ∀ t : Fin grid0.N, win0_5.index t 0 = 0 ∧ win0_5.index t 1 = 0)
  unfold iblk
  rw [View.read_apply]
  show V m c main_arg5 _ = V m c main_arg5 _
  refine congrArg (V m c main_arg5) (funext fun a => Fin.ext ?_)
  match a with
  | ⟨0, _⟩ =>
    show win0_5.index t 0 * 128 + 1 * l.val = l.val
    rw [(hi _).1]; omega
  | ⟨1, _⟩ =>
    show win0_5.index t 1 * 128 + 1 * j.val = j.val
    rw [(hi _).2]; omega
theorem iblk6_apply (c : Dev nD) (t : Fin cfg0.N) (j : Fin 128) :
    (iblk m c 6 t : Vec F S1x128 .f32) (ix2 (0 : Fin 1) j) = V m c main_v6 (ix2 (0 : Fin 1) j : S1x128.Idx) := by
  have hi : ∀ t : Fin cfg0.N, win0_6.index t 0 = 0 ∧ win0_6.index t 1 = 0 :=
    (by decide +kernel : ∀ t : Fin grid0.N, win0_6.index t 0 = 0 ∧ win0_6.index t 1 = 0)
  unfold iblk
  rw [View.read_apply]
  show V m c main_v6 _ = V m c main_v6 _
  refine congrArg (V m c main_v6) (funext fun a => Fin.ext ?_)
  match a with
  | ⟨0, _⟩ =>
    show win0_6.index t 0 * 1 + 1 * (0 : Fin 1).val = (0 : Fin 1).val
    rw [(hi _).1]; omega
  | ⟨1, _⟩ =>
    show win0_6.index t 1 * 128 + 1 * j.val = j.val
    rw [(hi _).2]; omega
theorem iblk7_apply (c : Dev nD) (t : Fin cfg0.N) (j : Fin 128) :
    (iblk m c 7 t : Vec F S1x128 .f32) (ix2 (0 : Fin 1) j) = V m c main_v7 (ix2 (0 : Fin 1) j : S1x128.Idx) := by
  have hi : ∀ t : Fin cfg0.N, win0_7.index t 0 = 0 ∧ win0_7.index t 1 = 0 :=
    (by decide +kernel : ∀ t : Fin grid0.N, win0_7.index t 0 = 0 ∧ win0_7.index t 1 = 0)
  unfold iblk
  rw [View.read_apply]
  show V m c main_v7 _ = V m c main_v7 _
  refine congrArg (V m c main_v7) (funext fun a => Fin.ext ?_)
  match a with
  | ⟨0, _⟩ =>
    show win0_7.index t 0 * 1 + 1 * (0 : Fin 1).val = (0 : Fin 1).val
    rw [(hi _).1]; omega
  | ⟨1, _⟩ =>
    show win0_7.index t 1 * 128 + 1 * j.val = j.val
    rw [(hi _).2]; omega
theorem iblk8_apply (c : Dev nD) (t : Fin cfg0.N) (j : Fin 128) :
    (iblk m c 8 t : Vec F S1x128 .f32) (ix2 (0 : Fin 1) j) = V m c main_v8 (ix2 (0 : Fin 1) j : S1x128.Idx) := by
  have hi : ∀ t : Fin cfg0.N, win0_8.index t 0 = 0 ∧ win0_8.index t 1 = 0 :=
    (by decide +kernel : ∀ t : Fin grid0.N, win0_8.index t 0 = 0 ∧ win0_8.index t 1 = 0)
  unfold iblk
  rw [View.read_apply]
  show V m c main_v8 _ = V m c main_v8 _
  refine congrArg (V m c main_v8) (funext fun a => Fin.ext ?_)
  match a with
  | ⟨0, _⟩ =>
    show win0_8.index t 0 * 1 + 1 * (0 : Fin 1).val = (0 : Fin 1).val
    rw [(hi _).1]; omega
  | ⟨1, _⟩ =>
    show win0_8.index t 1 * 128 + 1 * j.val = j.val
    rw [(hi _).2]; omega

end Cert.KernelIdeal.HistValue

end
-- ==== Proof.KernelPieceCases.lean ====
/-
  What one pass of the kernel body leaves behind, case by case. At the first tile of a row block the scratch lanes are
  reset to zero and then gain the tile's counts; at every later tile they gain the tile's counts over what they held; at
  the last tile the two-layer network of the freshly accumulated counts is stored into the output block.
-/
import proofs.«126141_j10033043603497_2_alg».proof.Proof.Gen.KernelIdeal.Frame
import proofs.«126141_j10033043603497_2_alg».proof.Proof.KernelTerms
import Idealize.ShloMosaic.Lib.Pipeline.Value
import Idealize.ShloMosaic.Lib.ValueIdx
import Idealize.ShloMosaic.Lib.Tactic

noncomputable section

namespace Cert.KernelIdeal.HistValue

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-- The zero offset of a whole-block access. -/
theorem hz : (![0, 0] : Fin 2 → Nat) = fun _ => 0 := funext fun a => by fin_cases a <;> rfl

/-- First tile: the scratch is reset to zero, read back, and left at zero plus the tile's counts. -/
theorem scratch_first (c : Dev nD) (i : grid0.Coords) (arg2 : Memref sig .tc .vmem S512x2048 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i) (x0 : Vec F S512x2048 .f32) (x1 : Vec F S128x128 .f32) (x2 : Vec F S1x128 .f32) (x3 : Vec F S1x128 .f32) (x4 : Vec F S1x128 .f32) (x5 : Vec F S128x128 .f32) (x6 : Vec F S1x128 .f32) (x7 : Vec F S1x128 .f32) (x8 : Vec F S1x128 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k0_pay1 (tileCounts x0) k0_pay6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  rw [View.canon_cons_unit_zero (S := S512x128) hz, View.readCov_unit_zero (S := S512x128) _ hz]
  simp only [View.readAt_eq_ld, harg2.read_unread, View.ld_unit_zero (S := S512x2048) hz, shapeCast_self]

/-- A tile strictly between the first and the last: the scratch gains the tile's counts over what it held. -/
theorem scratch_middle (c : Dev nD) (i : grid0.Coords) (arg2 : Memref sig .tc .vmem S512x2048 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (x0 : Vec F S512x2048 .f32) (x1 : Vec F S128x128 .f32) (x2 : Vec F S1x128 .f32) (x3 : Vec F S1x128 .f32) (x4 : Vec F S1x128 .f32) (x5 : Vec F S128x128 .f32) (x6 : Vec F S1x128 .f32) (x7 : Vec F S1x128 .f32) (x8 : Vec F S1x128 .f32) (xs0 : Vec F S512x128 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay1 (tileCounts x0) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  sl_unfold_words
  rw [View.canon_unit_zero hz]
  simp only [View.readAt_eq_ld, harg2.read_unread, harg12.read_unread, View.ld_unit_zero (S := S512x2048) hz, View.ld_unit_zero (S := S512x128) hz, shapeCast_self]

/-- Last tile: the scratch gains the tile's counts over what it held, as at any later tile. -/
theorem scratch_last (c : Dev nD) (i : grid0.Coords) (arg2 : Memref sig .tc .vmem S512x2048 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (x0 : Vec F S512x2048 .f32) (x1 : Vec F S128x128 .f32) (x2 : Vec F S1x128 .f32) (x3 : Vec F S1x128 .f32) (x4 : Vec F S1x128 .f32) (x5 : Vec F S128x128 .f32) (x6 : Vec F S1x128 .f32) (x7 : Vec F S1x128 .f32) (x8 : Vec F S1x128 .f32) (xs0 : Vec F S512x128 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay1 (tileCounts x0) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz]
  simp only [View.readAt_eq_ld, harg2.read_unread, harg12.read_unread, View.ld_unit_zero (S := S512x2048) hz, View.ld_unit_zero (S := S512x128) hz, shapeCast_self]

/-- Last tile: the output block receives the network's term over the scratch as just updated and the parameter blocks. -/
theorem output_last (c : Dev nD) (i : grid0.Coords) (arg2 : Memref sig .tc .vmem S512x2048 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (x0 : Vec F S512x2048 .f32) (x1 : Vec F S128x128 .f32) (x2 : Vec F S1x128 .f32) (x3 : Vec F S1x128 .f32) (x4 : Vec F S1x128 .f32) (x5 : Vec F S128x128 .f32) (x6 : Vec F S1x128 .f32) (x7 : Vec F S1x128 .f32) (x8 : Vec F S1x128 .f32) (xs0 : Vec F S512x128 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay2 (k0_pay3 x4) (k0_pay4 (k0_pay1 (tileCounts x0) xs0) x1 x2) (k0_pay5 x3) x5 x6 x7 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz, View.readCov_unit_zero (S := S512x128) _ hz]
  simp only [View.readAt_eq_ld, harg2.read_unread, harg3.read_unread, harg4.read_unread, harg5.read_unread, harg6.read_unread, harg7.read_unread, harg8.read_unread, harg9.read_unread, harg10.read_unread, harg12.read_unread, View.ld_unit_zero (S := S512x2048) hz, View.ld_unit_zero (S := S512x128) hz, View.ld_unit_zero (S := S128x128) hz, View.ld_unit_zero (S := S1x128) hz, shapeCast_self]

end Cert.KernelIdeal.HistValue

end
-- ==== Proof.KernelPiecePoints.lean ====
/-
  What the scratch lanes and the output block hold after each position of the grid, in terms of what the position
  before left: the first tile of a row block starts from zero, every later tile adds its counts to what was there, and
  the last tile also stores the network's term over the updated counts into the output block.
-/
import proofs.«126141_j10033043603497_2_alg».proof.Proof.KernelPieceCases

noncomputable section

namespace Cert.KernelIdeal.HistValue

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- What is held after a position depends on the position only, not on how it is written. -/
theorem outsAt0_congr (c : Dev nD) (n n' : ℕ) (h : n < cfg0.N) (h' : n' < cfg0.N) (e : n = n') :
    outsAt0 m c n h = outsAt0 m c n' h' := by
  subst e; rfl

/-- After the first tile of a row block the scratch holds zero plus that tile's counts. -/
theorem scratch_at_first (c : Dev nD) (t : Fin cfg0.N) (h0 : t.val % 8 = 0) (h1 : ¬t.val % 8 = 7) :
    (outsAt0 m c t.val t.isLt).2 = k0_pay1 (tileCounts (iblk m c 0 t : Vec F S512x2048 .f32)) k0_pay6 := by
  rw [outsAt0_A m c t h0 h1]
  dsimp only
  exact (scratch_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t))

/-- After any later tile the scratch holds that tile's counts added to what the tile before left. -/
theorem scratch_at_later (c : Dev nD) (t : Fin cfg0.N) (h0 : ¬t.val % 8 = 0) :
    (outsAt0 m c t.val t.isLt).2
      = k0_pay1 (tileCounts (iblk m c 0 t : Vec F S512x2048 .f32)) (outsAt0 m c (t.val - 1) (Nat.lt_of_le_of_lt (Nat.sub_le _ _) t.isLt)).2 := by
  by_cases h1 : t.val % 8 = 7
  · rw [outsAt0_C m c t h0 h1]
    dsimp only
    exact (scratch_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2)
  · rw [outsAt0_B m c t h0 h1]
    dsimp only
    exact (scratch_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2)

/-- After the last tile the output block holds the network's term over the counts accumulated through that tile. -/
theorem output_at_last (c : Dev nD) (t : Fin cfg0.N) (h0 : ¬t.val % 8 = 0) (h1 : t.val % 8 = 7) :
    (outsAt0 m c t.val t.isLt).1
      = k0_pay2 (k0_pay3 (iblk m c 4 t : Vec F S1x128 .f32))
          (k0_pay4 (k0_pay1 (tileCounts (iblk m c 0 t : Vec F S512x2048 .f32)) (outsAt0 m c (t.val - 1) (Nat.lt_of_le_of_lt (Nat.sub_le _ _) t.isLt)).2)
            (iblk m c 1 t : Vec F S128x128 .f32) (iblk m c 2 t : Vec F S1x128 .f32))
          (k0_pay5 (iblk m c 3 t : Vec F S1x128 .f32))
          (iblk m c 5 t : Vec F S128x128 .f32) (iblk m c 6 t : Vec F S1x128 .f32)
          (iblk m c 7 t : Vec F S1x128 .f32) (iblk m c 8 t : Vec F S1x128 .f32) := by
  rw [outsAt0_C m c t h0 h1]
  dsimp only
  exact (output_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2)

end Cert.KernelIdeal.HistValue

end
-- ==== Proof.KernelBlocks.lean ====
/-
  The kernel's run read back as values. The grid has 8 row blocks times 8 column tiles, visited row block by row
  block; position `8 I + k` handles tile `k` of row block `I`. A scratch block of 128 lanes per row is reset at tile 0,
  gains each tile's counts, and at tile 7 the two-layer network of the accumulated counts is stored into the output
  block, which is written back to rows `512 I … 512 I + 511` of the result only then.
-/
import proofs.«126141_j10033043603497_2_alg».proof.Proof.Gen.KernelIdeal.Value
import proofs.«126141_j10033043603497_2_alg».proof.Proof.KernelTerms
import proofs.«126141_j10033043603497_2_alg».proof.Proof.KernelReads
import proofs.«126141_j10033043603497_2_alg».proof.Proof.KernelPiecePoints
import Idealize.ShloMosaic.Lib.Pipeline.Value
import Idealize.ShloMosaic.Lib.ValueIdx
import Idealize.ShloMosaic.Lib.Tactic

noncomputable section

namespace Cert.KernelIdeal.HistValue

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- What the scratch lanes of row block `I` hold after tile `k`: zero plus the counts of tiles `0 … k`, in order. -/
def accBlk (c : Dev nD) (I : Fin 8) : (k : ℕ) → k < 8 → Vec F S512x128 .f32
  | 0, h => k0_pay1 (tileCounts (iblk m c 0 (pt I 0 h) : Vec F S512x2048 .f32)) k0_pay6
  | k + 1, h => k0_pay1 (tileCounts (iblk m c 0 (pt I (k + 1) h) : Vec F S512x2048 .f32)) (accBlk c I k (Nat.lt_of_succ_lt h))

/-- After position `8 I + k` the scratch holds the counts accumulated over tiles `0 … k` of row block `I`: by
    induction on the tile, the first starting from zero and every later one adding to what the one before left. -/
theorem scratch_eq (c : Dev nD) (I : Fin 8) :
    ∀ (k : ℕ) (hk : k < 8), (outsAt0 m c (pt I k hk).val (pt I k hk).isLt).2 = accBlk m c I k hk
  | 0, hk => by
    have hI := I.isLt
    have h0 : (pt I 0 hk).val % 8 = 0 := by show (8 * I.val + 0) % 8 = 0; omega
    have h1 : ¬(pt I 0 hk).val % 8 = 7 := by show ¬(8 * I.val + 0) % 8 = 7; omega
    exact scratch_at_first m c (pt I 0 hk) h0 h1
  | k + 1, hk => by
    have hI := I.isLt
    have h0 : ¬(pt I (k + 1) hk).val % 8 = 0 := by show ¬(8 * I.val + (k + 1)) % 8 = 0; omega
    have hp : (pt I (k + 1) hk).val - 1 = (pt I k (Nat.lt_of_succ_lt hk)).val := by
      show 8 * I.val + (k + 1) - 1 = 8 * I.val + k; omega
    rw [scratch_at_later m c (pt I (k + 1) hk) h0,
      outsAt0_congr m c ((pt I (k + 1) hk).val - 1) (pt I k (Nat.lt_of_succ_lt hk)).val _ (pt I k (Nat.lt_of_succ_lt hk)).isLt hp,
      scratch_eq c I k (Nat.lt_of_succ_lt hk)]
    rfl

/-- The output block of row block `I`: the network's term over the counts accumulated through the last tile and the
    parameter blocks at the last position. -/
def outBlk (c : Dev nD) (I : Fin 8) : Vec F S512x128 .f32 :=
  k0_pay2 (k0_pay3 (iblk m c 4 (pt I 7 (by omega)) : Vec F S1x128 .f32))
    (k0_pay4 (accBlk m c I 7 (by omega)) (iblk m c 1 (pt I 7 (by omega)) : Vec F S128x128 .f32)
      (iblk m c 2 (pt I 7 (by omega)) : Vec F S1x128 .f32))
    (k0_pay5 (iblk m c 3 (pt I 7 (by omega)) : Vec F S1x128 .f32))
    (iblk m c 5 (pt I 7 (by omega)) : Vec F S128x128 .f32) (iblk m c 6 (pt I 7 (by omega)) : Vec F S1x128 .f32)
    (iblk m c 7 (pt I 7 (by omega)) : Vec F S1x128 .f32) (iblk m c 8 (pt I 7 (by omega)) : Vec F S1x128 .f32)

/-- After the last position of row block `I` the output block holds `outBlk`. -/
theorem output_eq (c : Dev nD) (I : Fin 8) :
    (outsAt0 m c (pt I 7 (by omega)).val (pt I 7 (by omega)).isLt).1 = outBlk m c I := by
  have hI := I.isLt
  have h0 : ¬(pt I 7 (by omega)).val % 8 = 0 := by show ¬(8 * I.val + 7) % 8 = 0; omega
  have h1 : (pt I 7 (by omega)).val % 8 = 7 := by show (8 * I.val + 7) % 8 = 7; omega
  have hp : (pt I 7 (by omega)).val - 1 = (pt I 6 (by omega)).val := by
    show 8 * I.val + 7 - 1 = 8 * I.val + 6; omega
  rw [output_at_last m c (pt I 7 (by omega)) h0 h1,
    outsAt0_congr m c ((pt I 7 (by omega)).val - 1) (pt I 6 (by omega)).val _ (pt I 6 (by omega)).isLt hp,
    scratch_eq m c I 6 (by omega)]
  rfl

/-- The whole result array: row `r` is row `r % 512` of the output block of row block `r / 512`. -/
def resultArr (c : Dev nD) : S4096x128.Idx → Elt F .f32 := fun i =>
  outBlk m c ⟨(i 0).val / 512, by have := idx2_lt0 i; omega⟩
    (ix2 (⟨(i 0).val % 512, Nat.mod_lt _ (by decide)⟩ : Fin 512) (⟨(i 1).val, idx2_lt1 i⟩ : Fin 128))

/-- An entry of the result array by the coordinates of its row inside its row block. -/
theorem resultArr_of_coords (c : Dev nD) (i : S4096x128.Idx) (I : Fin 8) (y : S512x128.Idx)
    (h0 : (i 0).val = 512 * I.val + (y 0).val) (h1 : (i 1).val = (y 1).val) :
    resultArr m c i = outBlk m c I y := by
  have hy0 := idx2_lt0 y
  have hI : ∀ (h : (i 0).val / 512 < 8), (⟨(i 0).val / 512, h⟩ : Fin 8) = I :=
    fun h => Fin.ext (by show (i 0).val / 512 = I.val; omega)
  unfold resultArr
  rw [hI]
  refine congrArg (outBlk m c I) ?_
  funext a
  match a with
  | ⟨0, _⟩ => exact Fin.ext (by show (i 0).val % 512 = (y 0).val; omega)
  | ⟨1, _⟩ => exact Fin.ext h1

/-- The output window's block index at a position: the row block on the rows, always 0 on the lanes. -/
theorem idx9 : ∀ t : Fin cfg0.N, win0_9.index t (0 : Fin 2) = t.val / 8 ∧ win0_9.index t (1 : Fin 2) = 0 :=
  (by decide +kernel : ∀ t : Fin grid0.N, win0_9.index t (0 : Fin 2) = t.val / 8 ∧ win0_9.index t (1 : Fin 2) = 0)

/-- What the last position of a row block writes back is that row block's rows of the result array. -/
theorem flushed_eq (c : Dev nD) (t : Fin cfg0.N) (hf : (cfg0.win 9).flush t = true) :
    (dats m 0 c).flushed 9 t = ((cfg0.win 9).blk t).view.read (Elt F) (resultArr m c) := by
  have ht : t.val < 64 := lt_of_lt_of_eq t.isLt N_0
  have h7 : t.val % 8 = 7 := (flush0_9 t).mp hf
  obtain ⟨I, rfl⟩ : ∃ I : Fin 8, t = pt I 7 (by decide) :=
    ⟨⟨t.val / 8, by omega⟩, Fin.ext (by show t.val = 8 * (t.val / 8) + 7; omega)⟩
  rw [Value.flushed9, output_eq]
  obtain ⟨e0, e1⟩ := idx9 (pt I 7 (by omega))
  funext j
  rw [View.read_apply]
  refine (resultArr_of_coords m c _ I _ ?_ ?_).symm
  · show win0_9.index (pt I 7 (by omega)) (0 : Fin 2) * 512 + 1 * (j 0).val = 512 * I.val + (j 0).val
    rw [e0]
    show (8 * I.val + 7) / 8 * 512 + 1 * (j 0).val = 512 * I.val + (j 0).val
    omega
  · show win0_9.index (pt I 7 (by omega)) (1 : Fin 2) * 128 + 1 * (j 1).val = (j 1).val
    rw [e1]
    omega

/-- An index of the array lies in a position's block iff each coordinate lies in the block's range on its axis. -/
theorem mem_blk9 (t : Fin cfg0.N) (i : S4096x128.Idx) :
    i ∈ ((cfg0.win 9).blk t).view.set ↔ ∀ a : Fin 2, win0_9.index t a * S512x128.size a ≤ (i a).val ∧ (i a).val < win0_9.index t a * S512x128.size a + S512x128.size a := by
  show i ∈ ((View.whole main_v9).slice (win0_9.rect t)).set ↔ _
  rw [View.set_slice_whole, Rect.mem_set_unit]
  exact Iff.rfl

/-- Every row of the result lies in the block written back at the last position of its row block. -/
theorem cover9 (i : S4096x128.Idx) :
    ∃ t : Fin cfg0.N, (cfg0.win 9).flush t = true ∧ i ∈ ((cfg0.win 9).blk t).view.set := by
  have hi0 := idx2_lt0 i
  have hi1 := idx2_lt1 i
  have hq : (i 0).val / 512 < 8 := by omega
  obtain ⟨e0, e1⟩ := idx9 (pt ⟨(i 0).val / 512, hq⟩ 7 (by omega))
  refine ⟨pt ⟨(i 0).val / 512, hq⟩ 7 (by omega), (flush0_9 _).mpr (by show (8 * ((i 0).val / 512) + 7) % 8 = 7; omega), ?_⟩
  rw [mem_blk9]
  intro a
  match a with
  | ⟨0, _⟩ =>
    show win0_9.index (pt ⟨(i 0).val / 512, hq⟩ 7 (by omega)) (0 : Fin 2) * 512 ≤ (i 0).val ∧ (i 0).val < win0_9.index (pt ⟨(i 0).val / 512, hq⟩ 7 (by omega)) (0 : Fin 2) * 512 + 512
    rw [e0]
    show (8 * ((i 0).val / 512) + 7) / 8 * 512 ≤ (i 0).val ∧ (i 0).val < (8 * ((i 0).val / 512) + 7) / 8 * 512 + 512
    omega
  | ⟨1, _⟩ =>
    show win0_9.index (pt ⟨(i 0).val / 512, hq⟩ 7 (by omega)) (1 : Fin 2) * 128 ≤ (i 1).val ∧ (i 1).val < win0_9.index (pt ⟨(i 0).val / 512, hq⟩ 7 (by omega)) (1 : Fin 2) * 128 + 128
    rw [e1]
    omega

/-- So the result array ends holding `resultArr`. -/
theorem final9 (c : Dev nD) : (dats m 0 c).arrAt 9 cfg0.N = resultArr m c :=
  (dats m 0 c).arrAt_eq_of_cover 9 (resultArr m c) (flushed_eq m c) cover9

/-- Rows `512 I + p` of the result array after the run: the network's term over the accumulated counts of row block
    `I` and the parameter blocks at the row block's last position. -/
theorem final9_apply (c : Dev nD) (I : Fin 8) (p : Fin 512) (j : Fin 128) :
    (dats m 0 c).arrAt 9 cfg0.N (ix2 (⟨512 * I.val + p.val, by have := I.isLt; have := p.isLt; omega⟩ : Fin 4096) j : S4096x128.Idx)
      = k0_pay2 (k0_pay3 (iblk m c 4 (pt I 7 (by omega)) : Vec F S1x128 .f32))
          (k0_pay4 (accBlk m c I 7 (by omega)) (iblk m c 1 (pt I 7 (by omega)) : Vec F S128x128 .f32)
            (iblk m c 2 (pt I 7 (by omega)) : Vec F S1x128 .f32))
          (k0_pay5 (iblk m c 3 (pt I 7 (by omega)) : Vec F S1x128 .f32))
          (iblk m c 5 (pt I 7 (by omega)) : Vec F S128x128 .f32) (iblk m c 6 (pt I 7 (by omega)) : Vec F S1x128 .f32)
          (iblk m c 7 (pt I 7 (by omega)) : Vec F S1x128 .f32) (iblk m c 8 (pt I 7 (by omega)) : Vec F S1x128 .f32)
          (ix2 p j) := by
  refine (congrFun (final9 m c) _).trans ?_
  exact resultArr_of_coords m c _ I (ix2 p j) rfl rfl

end Cert.KernelIdeal.HistValue

end
-- ==== Proof.Spec.lean ====
/-
  What both programs compute, stated once over the extended reals, row by row.

  A row of 16384 numbers is binned into ten unit bins of [0, 10] (the last bin closed on the right); the ten counts are
  divided by their total plus a small constant; the result goes through two layers, each an affine map, a clamp below
  at zero and a normalisation of the 128 lanes to mean 0 and variance 1 (then a scale and a shift per lane).
  One program normalises by dividing by a square root, the other by multiplying by the reciprocal square root; one
  carries 128 lanes of counts of which only the first ten can be non-zero, against weights whose rows from the tenth on
  are zero.
-/
import Idealize.ShloMosaic.PureOps.Ideal
import Idealize.ShloMosaic.PureOps.Ideal.Laws
import Idealize.ShloMosaic.Lib.ValueIdx

noncomputable section

namespace Cert.HistMlp

open Idealize.ShloMosaic Idealize.ShloMosaic.ValueIdx
open scoped BigOperators

/-- The four float constants both programs spell, as the extended reals their patterns denote. -/
abbrev z32 : EReal := Ideal.ofBits .f32 0x00000000#32
abbrev c128 : EReal := Ideal.ofBits .f32 0x43000000#32
abbrev eps5 : EReal := Ideal.ofBits .f32 0x3727C5AC#32
abbrev eps8 : EReal := Ideal.ofBits .f32 0x322BCC77#32

/-- The indicator of a proposition, as an extended real. -/
def ind (p : Prop) : EReal := by classical exact if p then 1 else 0

theorem ind_pos {p : Prop} (h : p) : ind p = 1 := by unfold ind; exact if_pos h
theorem ind_neg {p : Prop} (h : ¬p) : ind p = 0 := by unfold ind; exact if_neg h

/-- `x` lies in bin `b`: `[b, b+1)` for `b < 9`, and `[9, 10]` for the last bin. -/
def inBin (b : Fin 10) (x : EReal) : Prop :=
  (((b.val : ℝ) : EReal) ≤ x) ∧ (if b.val = 9 then x ≤ ((10 : ℝ) : EReal) else x < (((b.val : ℝ) + 1 : ℝ) : EReal))

/-- How many entries of a row lie in bin `b`. -/
def cnt (row : Fin 16384 → EReal) (b : Fin 10) : EReal := ∑ s : Fin 16384, ind (inBin b (row s))

/-- The eleven thresholds 0, 1, … 10 as the programs spell them. -/
def thr : Fin 11 → EReal
  | ⟨0, _⟩ => Ideal.ofBits .f32 0x00000000#32
  | ⟨1, _⟩ => Ideal.ofBits .f32 0x3F800000#32
  | ⟨2, _⟩ => Ideal.ofBits .f32 0x40000000#32
  | ⟨3, _⟩ => Ideal.ofBits .f32 0x40400000#32
  | ⟨4, _⟩ => Ideal.ofBits .f32 0x40800000#32
  | ⟨5, _⟩ => Ideal.ofBits .f32 0x40A00000#32
  | ⟨6, _⟩ => Ideal.ofBits .f32 0x40C00000#32
  | ⟨7, _⟩ => Ideal.ofBits .f32 0x40E00000#32
  | ⟨8, _⟩ => Ideal.ofBits .f32 0x41000000#32
  | ⟨9, _⟩ => Ideal.ofBits .f32 0x41100000#32
  | ⟨10, _⟩ => Ideal.ofBits .f32 0x41200000#32

/-- In one tile of 2048 entries of a row: how many lie below a threshold, and how many lie in `[0, 10]`
    (each a sum from zero of indicators). -/
def below (tile : Fin 2048 → EReal) (t : EReal) : EReal := z32 + ∑ s : Fin 2048, ind (tile s < t)
def nvalid (tile : Fin 2048 → EReal) : EReal := z32 + ∑ s : Fin 2048, ind (thr 0 ≤ tile s ∧ tile s ≤ thr 10)

/-- One tile's contribution to the 128 lanes of counts: lane `l < 9` is the difference of two threshold counts,
    lane 9 is the count of `[0, 10]` minus the count below 9 plus the count below 0, the other lanes are zero. -/
def kTile (tile : Fin 2048 → EReal) (l : Fin 128) : EReal :=
  if h : l.val < 9 then below tile (thr ⟨l.val + 1, by omega⟩) - below tile (thr ⟨l.val, by omega⟩)
  else if l.val = 9 then nvalid tile - below tile (thr 9) + below tile (thr 0)
  else z32

/-- The 128 lanes of counts accumulated over the tiles `0 … k` of a row, starting from zero, in tile order. -/
def accK (tiles : ℕ → Fin 2048 → EReal) : ℕ → Fin 128 → EReal
  | 0, l => z32 + kTile (tiles 0) l
  | k + 1, l => accK tiles k l + kTile (tiles (k + 1)) l

/-- Mean and variance of 128 lanes, each a sum from zero divided by 128. -/
def mean (z : Fin 128 → EReal) : EReal := Ideal.div (z32 + ∑ k : Fin 128, z k) c128
def var (z : Fin 128 → EReal) : EReal :=
  Ideal.div (z32 + ∑ k : Fin 128, (z k - mean z) * (z k - mean z)) c128

/-- The normalisation written with a division by the square root. -/
def lnDiv (z g b : Fin 128 → EReal) (j : Fin 128) : EReal :=
  Ideal.div (z j - mean z) (Ideal.sqrt (var z + eps5)) * g j + b j

/-- The normalisation written with a product by the reciprocal square root. -/
def lnRsqrt (z g b : Fin 128 → EReal) (j : Fin 128) : EReal :=
  (z j - mean z) * Ideal.rsqrt (var z + eps5) * g j + b j

/-- The network on a ten-bin row of counts, normalising by division. -/
def netR (h : Fin 10 → EReal) (w1 : Fin 10 → Fin 128 → EReal) (b1 g1 be1 : Fin 128 → EReal)
    (w2 : Fin 128 → Fin 128 → EReal) (b2 g2 be2 : Fin 128 → EReal) : Fin 128 → EReal :=
  lnDiv (fun j => max ((∑ k : Fin 128,
      lnDiv (fun j' => max ((∑ b : Fin 10, Ideal.div (h b) ((z32 + ∑ b' : Fin 10, h b') + eps8) * w1 b j') + b1 j') z32)
        g1 be1 k * w2 k j) + b2 j) z32) g2 be2

/-- The network on a 128-lane row of counts against 128 rows of first-layer weights, normalising by the
    reciprocal square root. -/
def netK (hp : Fin 128 → EReal) (w1p : Fin 128 → Fin 128 → EReal) (b1 g1 be1 : Fin 128 → EReal)
    (w2 : Fin 128 → Fin 128 → EReal) (b2 g2 be2 : Fin 128 → EReal) : Fin 128 → EReal :=
  lnRsqrt (fun j => max ((∑ k : Fin 128,
      lnRsqrt (fun j' => max ((∑ l : Fin 128, Ideal.div (hp l) ((z32 + ∑ l' : Fin 128, hp l') + eps8) * w1p l j') + b1 j') z32)
        g1 be1 k * w2 k j) + b2 j) z32) g2 be2

/-- A ten-bin row padded with zeros to 128 lanes, and ten rows of weights padded with zero rows to 128. -/
def padRow (h : Fin 10 → EReal) (l : Fin 128) : EReal := if hl : l.val < 10 then h ⟨l.val, hl⟩ else 0
def padW (w : Fin 10 → Fin 128 → EReal) (l j : Fin 128) : EReal := if hl : l.val < 10 then w ⟨l.val, hl⟩ j else 0

/-- The whole function: entry `(r, j)` of the result from the nine argument arrays. -/
def G (x : (⟨2, ![4096, 16384]⟩ : Shape).Idx → EReal) (w1 : (⟨2, ![10, 128]⟩ : Shape).Idx → EReal)
    (b1 g1 be1 : (⟨1, ![128]⟩ : Shape).Idx → EReal) (w2 : (⟨2, ![128, 128]⟩ : Shape).Idx → EReal)
    (b2 g2 be2 : (⟨1, ![128]⟩ : Shape).Idx → EReal) : (⟨2, ![4096, 128]⟩ : Shape).Idx → EReal :=
  fun i => netR (cnt (fun s => x (ix2 (i 0) s))) (fun b j => w1 (ix2 b j)) (fun j => b1 (ix1 j)) (fun j => g1 (ix1 j))
    (fun j => be1 (ix1 j)) (fun k j => w2 (ix2 k j)) (fun j => b2 (ix1 j)) (fun j => g2 (ix1 j)) (fun j => be2 (ix1 j)) (i 1)

end Cert.HistMlp

end
-- ==== Proof.LibBroadcastColumn.lean ====
/-
  A column broadcast along its rows, read at an index: an `[a, 1]` array broadcast to `[a, b]` holds, at `(p, c)`, the
  column's entry of row `p` — the companion of the row form `[1, b] → [a, b]`, which holds the row's entry of column `c`.
  This is how a per-row quantity kept with a trailing unit axis (a row sum, a row norm, a row maximum) meets a matrix.
-/
import Idealize.ShloMosaic.Lib.Pipeline.Value
import Idealize.ShloMosaic.Lib.ValueIdx

namespace Cert.Lib

open Idealize.ShloMosaic Idealize.ShloMosaic.ValueIdx

/-- An `[a, 1]` array broadcast to `[a, b]` reads, at `(p, c)`, the operand's one column at row `p`. On axis 0 the
    operand's coordinate is the result's (or `0` when `a = 1`, where `p` is `0` anyway); on axis 1 it is `0`, the axis
    having extent one. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.PayloadIdx.lean ====
/-
  The kernel body's arithmetic read at one index, at the ideal instance: the counts one tile contributes to the 128
  lanes, the accumulation step, and the two-layer network applied to a block of accumulated counts.
-/
import proofs.«126141_j10033043603497_2_alg».proof.Proof.KernelTerms
import proofs.«126141_j10033043603497_2_alg».proof.Proof.Spec
import proofs.«126141_j10033043603497_2_alg».proof.Proof.LibBroadcastColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HistValue

open Cert.KernelIdeal Cert.KernelIdeal.Gen Cert.HistMlp
open Idealize.ShloMosaic Idealize.ShloMosaic.ValueIdx
open scoped BigOperators

/-- The accumulation step adds the tile's counts to what the lanes held. -/
theorem pay1_apply (v85 : FVec Ideal S512x128 .f32) (v86 : Vec Ideal S512x128 .f32) (i : S512x128.Idx) :
    k0_pay1 (F := Ideal) v85 v86 i = v86 i + v85 i := by
  unfold k0_pay1
  rw [shapeCast_self]
  rfl

/-- The block the lanes are reset to is zero everywhere. -/
theorem pay6_apply (i : S512x128.Idx) : k0_pay6 (F := Ideal) i = z32 := by
  unfold k0_pay6
  rw [shapeCast_self]
  rfl

/-- A row sum over 2048 lanes kept with a trailing unit axis, read at a row. -/
theorem rowSum2048 (v : FVec Ideal S512x2048 .f32) (p : Fin 512) :
    shapeCast S512x1 (multiReduction (F := Ideal) .add [1] S512 v 0x00000000#32 reduces_S512x2048_S512 (.inl rfl) rfl)
        shapeCasts_S512_S512x1 (ix2 p (0 : Fin 1))
      = ∑ s : Fin 2048, v (ix2 p s) := by
  refine (shapeCast_apply _ shapeCasts_S512_S512x1 (ix2 p (0 : Fin 1)) (ix1 p) (by
    rw [Shape.rowMajor_val_two, Shape.rowMajor_val_one]; show p.val = p.val * 1 + 0; omega)).trans ?_
  refine (Ideal.multiReduction_add_single (s := S512x2048) (t := S512) (a := 1) v 0x00000000#32 reduces_S512x2048_S512 (.inl rfl) rfl (ix1 p)).trans ?_
  refine Finset.sum_congr rfl fun k _ => ?_
  exact congrArg v (funext fun a => Fin.ext (by match a with | ⟨0, _⟩ => rfl | ⟨1, _⟩ => rfl))

/-- A row sum over 128 lanes kept with a trailing unit axis, read at a row. -/
theorem rowSum128 (v : FVec Ideal S512x128 .f32) (p : Fin 512) :
    shapeCast S512x1 (multiReduction (F := Ideal) .add [1] S512 v 0x00000000#32 reduces_S512x128_S512 (.inl rfl) rfl)
        shapeCasts_S512_S512x1 (ix2 p (0 : Fin 1))
      = ∑ s : Fin 128, v (ix2 p s) := by
  refine (shapeCast_apply _ shapeCasts_S512_S512x1 (ix2 p (0 : Fin 1)) (ix1 p) (by
    rw [Shape.rowMajor_val_two, Shape.rowMajor_val_one]; show p.val = p.val * 1 + 0; omega)).trans ?_
  refine (Ideal.multiReduction_add_single (s := S512x128) (t := S512) (a := 1) v 0x00000000#32 reduces_S512x128_S512 (.inl rfl) rfl (ix1 p)).trans ?_
  refine Finset.sum_congr rfl fun k _ => ?_
  exact congrArg v (funext fun a => Fin.ext (by match a with | ⟨0, _⟩ => rfl | ⟨1, _⟩ => rfl))

/-- The 0/1 word of a strict comparison, widened and converted, is the indicator of the comparison. -/
theorem ind_olt (x t : Ideal .f32) :
    FloatOps.sitofp (F := Ideal) .f32 ((FloatOps.cmpf (F := Ideal) .olt x t).setWidth 32) = ind (x < t) := by
  show ((((Ideal.cmp .olt x t).setWidth 32).toInt : ℝ) : EReal) = _
  by_cases h : x < t
  · rw [ind_pos h]; simp [Ideal.cmp, h]
  · rw [ind_neg h]; simp [Ideal.cmp, h]

/-- The 0/1 word of membership in a closed interval, widened and converted, is its indicator. -/
theorem ind_range (x lo hi : Ideal .f32) :
    FloatOps.sitofp (F := Ideal) .f32
      ((IntOp.andi (FloatOps.cmpf (F := Ideal) .oge x lo) (FloatOps.cmpf (F := Ideal) .ole x hi)).setWidth 32)
      = ind (lo ≤ x ∧ x ≤ hi) := by
  show ((((Ideal.cmp .oge x lo &&& Ideal.cmp .ole x hi).setWidth 32).toInt : ℝ) : EReal) = _
  by_cases h1 : lo ≤ x <;> by_cases h2 : x ≤ hi
  · rw [ind_pos ⟨h1, h2⟩]; simp [Ideal.cmp, h1, h2]
  · rw [ind_neg (fun h => h2 h.2)]; simp [Ideal.cmp, h1, h2]
  · rw [ind_neg (fun h => h1 h.1)]; simp [Ideal.cmp, h1, h2]
  · rw [ind_neg (fun h => h1 h.1)]; simp [Ideal.cmp, h1, h2]

/-- The column of per-row counts of entries below the threshold whose pattern is `b`. -/
def ltCol (x0 : Vec Ideal S512x2048 .f32) (b : BitVec 32) : FVec Ideal S512x1 .f32 :=
  shapeCast S512x1 (multiReduction (F := Ideal) .add [1] S512
    (sitofp .f32 (extui 32 (cmpf .olt x0 (broadcast S512x2048 (Scalar.ofBits (F := Ideal) .f32 b))) natLt_1_32))
    0x00000000#32 reduces_S512x2048_S512 (.inl rfl) rfl) shapeCasts_S512_S512x1

/-- Such a column at row `p` is the count of that row's entries below the threshold. -/
theorem ltCol_apply (x0 : Vec Ideal S512x2048 .f32) (b : BitVec 32) (p : Fin 512) :
    ltCol x0 b (ix2 p (0 : Fin 1)) = below (fun s => x0 (ix2 p s)) (Ideal.ofBits .f32 b) := by
  unfold ltCol below
  refine (rowSum2048 _ p).trans ?_
  rw [show z32 = 0 from Ideal.ofBits_zero_f32, zero_add]
  exact Finset.sum_congr rfl fun s _ => ind_olt (x0 (ix2 p s)) (Ideal.ofBits .f32 b)

/-- The column of per-row counts of entries in `[0, 10]`, at row `p`. -/
theorem pay7_apply (x0 : Vec Ideal S512x2048 .f32) (p : Fin 512) :
    k0_pay7 (F := Ideal) x0 (ix2 p (0 : Fin 1)) = nvalid (fun s => x0 (ix2 p s)) := by
  unfold k0_pay7 nvalid
  refine (rowSum2048 _ p).trans ?_
  rw [show z32 = 0 from Ideal.ofBits_zero_f32, zero_add]
  exact Finset.sum_congr rfl fun s _ => ind_range (x0 (ix2 p s)) (Ideal.ofBits .f32 0x00000000#32) (Ideal.ofBits .f32 0x41200000#32)

/-- The four columns of counts computed ahead of the concatenation are such columns. -/
theorem pay8_eq (x0 : Vec Ideal S512x2048 .f32) : k0_pay8 (F := Ideal) x0 = ltCol x0 0x00000000#32 := rfl
theorem pay9_eq (x0 : Vec Ideal S512x2048 .f32) : k0_pay9 (F := Ideal) x0 = ltCol x0 0x3F800000#32 := rfl
theorem pay10_eq (x0 : Vec Ideal S512x2048 .f32) : k0_pay10 (F := Ideal) x0 = ltCol x0 0x40000000#32 := rfl
theorem pay11_eq (x0 : Vec Ideal S512x2048 .f32) : k0_pay11 (F := Ideal) x0 = ltCol x0 0x40400000#32 := rfl

/-- The body's concatenation with its columns named. -/
theorem pay13_eq (x0 : Vec Ideal S512x2048 .f32) :
    k0_pay13 (F := Ideal) x0 (k0_pay7 x0) (k0_pay8 x0) (k0_pay9 x0) (k0_pay10 x0) (k0_pay11 x0) (k0_pay12 x0)
      = concatenate S512x128 1
        [⟨S512x1, subf (ltCol x0 0x3F800000#32) (ltCol x0 0x00000000#32)⟩,
         ⟨S512x1, subf (ltCol x0 0x40000000#32) (ltCol x0 0x3F800000#32)⟩,
         ⟨S512x1, subf (ltCol x0 0x40400000#32) (ltCol x0 0x40000000#32)⟩,
         ⟨S512x1, subf (ltCol x0 0x40800000#32) (ltCol x0 0x40400000#32)⟩,
         ⟨S512x1, subf (ltCol x0 0x40A00000#32) (ltCol x0 0x40800000#32)⟩,
         ⟨S512x1, subf (ltCol x0 0x40C00000#32) (ltCol x0 0x40A00000#32)⟩,
         ⟨S512x1, subf (ltCol x0 0x40E00000#32) (ltCol x0 0x40C00000#32)⟩,
         ⟨S512x1, subf (ltCol x0 0x41000000#32) (ltCol x0 0x40E00000#32)⟩,
         ⟨S512x1, subf (ltCol x0 0x41100000#32) (ltCol x0 0x41000000#32)⟩,
         ⟨S512x1, addf (subf (k0_pay7 (F := Ideal) x0) (ltCol x0 0x41100000#32)) (ltCol x0 0x00000000#32)⟩,
         ⟨S512x118, broadcast S512x118 (Scalar.ofBits (F := Ideal) .f32 0x00000000#32)⟩]
        concatenates_S512x1_S512x1_S512x1_S512x1_S512x1_S512x1_S512x1_S512x1_S512x1_S512x1_S512x118_S512x128_d1 := rfl

/-- A concatenation along the lanes read at a lane that falls in a one-lane piece: that piece's column. -/
theorem concat_piece_col (xs : List ((s : Shape) × (s.Idx → EReal))) (h : Shape.Concatenates (xs.map (·.1)) S512x128 1)
    (p : Fin 512) (k : Nat) (hk128 : k < 128) (hk : k < xs.length) (c : S512x1.Idx → EReal) (hxk : xs[k] = ⟨S512x1, c⟩)
    (hpre : (((xs.take k).map (·.1)).map fun s => if h : s.rank = S512x128.rank then s.size ((1 : Fin S512x128.rank).cast h.symm) else 0).sum = k) :
    concatenate S512x128 1 xs h (ix2 p (⟨k, hk128⟩ : Fin 128)) = c (ix2 p (0 : Fin 1)) := by
  refine concatenate_apply_piece (1 : Fin S512x128.rank) xs h (ix2 p (⟨k, hk128⟩ : Fin 128)) k hk S512x1 c hxk rfl k hpre (ix2 p (0 : Fin 1)) ?_ ?_
  · intro b hb
    match b with
    | ⟨0, _⟩ => rfl
    | ⟨1, _⟩ => exact absurd rfl hb
  · show k + 0 = k
    rfl

/-- The body's concatenation at row `p`, lane `l`. -/
theorem pay13_apply (x0 : Vec Ideal S512x2048 .f32) (p : Fin 512) (l : Fin 128) :
    k0_pay13 (F := Ideal) x0 (k0_pay7 x0) (k0_pay8 x0) (k0_pay9 x0) (k0_pay10 x0) (k0_pay11 x0) (k0_pay12 x0) (ix2 p l)
      = kTile (fun s => x0 (ix2 p s)) l := by
  rw [pay13_eq]
  obtain ⟨lv, hl⟩ := l
  by_cases h10 : lv < 10
  · interval_cases lv
    · refine (concat_piece_col _ _ p 0 hl (by show (0 : ℕ) < 11; omega) _ rfl rfl).trans ?_
      rw [subf_apply, ltCol_apply, ltCol_apply]
      unfold kTile
      rw [dif_pos (show (0 : ℕ) < 9 by omega)]
      rfl
    · refine (concat_piece_col _ _ p 1 hl (by show (1 : ℕ) < 11; omega) _ rfl rfl).trans ?_
      rw [subf_apply, ltCol_apply, ltCol_apply]
      unfold kTile
      rw [dif_pos (show (1 : ℕ) < 9 by omega)]
      rfl
    · refine (concat_piece_col _ _ p 2 hl (by show (2 : ℕ) < 11; omega) _ rfl rfl).trans ?_
      rw [subf_apply, ltCol_apply, ltCol_apply]
      unfold kTile
      rw [dif_pos (show (2 : ℕ) < 9 by omega)]
      rfl
    · refine (concat_piece_col _ _ p 3 hl (by show (3 : ℕ) < 11; omega) _ rfl rfl).trans ?_
      rw [subf_apply, ltCol_apply, ltCol_apply]
      unfold kTile
      rw [dif_pos (show (3 : ℕ) < 9 by omega)]
      rfl
    · refine (concat_piece_col _ _ p 4 hl (by show (4 : ℕ) < 11; omega) _ rfl rfl).trans ?_
      rw [subf_apply, ltCol_apply, ltCol_apply]
      unfold kTile
      rw [dif_pos (show (4 : ℕ) < 9 by omega)]
      rfl
    · refine (concat_piece_col _ _ p 5 hl (by show (5 : ℕ) < 11; omega) _ rfl rfl).trans ?_
      rw [subf_apply, ltCol_apply, ltCol_apply]
      unfold kTile
      rw [dif_pos (show (5 : ℕ) < 9 by omega)]
      rfl
    · refine (concat_piece_col _ _ p 6 hl (by show (6 : ℕ) < 11; omega) _ rfl rfl).trans ?_
      rw [subf_apply, ltCol_apply, ltCol_apply]
      unfold kTile
      rw [dif_pos (show (6 : ℕ) < 9 by omega)]
      rfl
    · refine (concat_piece_col _ _ p 7 hl (by show (7 : ℕ) < 11; omega) _ rfl rfl).trans ?_
      rw [subf_apply, ltCol_apply, ltCol_apply]
      unfold kTile
      rw [dif_pos (show (7 : ℕ) < 9 by omega)]
      rfl
    · refine (concat_piece_col _ _ p 8 hl (by show (8 : ℕ) < 11; omega) _ rfl rfl).trans ?_
      rw [subf_apply, ltCol_apply, ltCol_apply]
      unfold kTile
      rw [dif_pos (show (8 : ℕ) < 9 by omega)]
      rfl
    · refine (concat_piece_col _ _ p 9 hl (by show (9 : ℕ) < 11; omega) _ rfl rfl).trans ?_
      rw [addf_apply, subf_apply, pay7_apply, ltCol_apply, ltCol_apply]
      unfold kTile
      rw [dif_neg (show ¬(9 : ℕ) < 9 by omega), if_pos rfl]
      rfl
  · refine (concatenate_apply_piece (1 : Fin S512x128.rank) _ _ (ix2 p (⟨lv, hl⟩ : Fin 128)) 10 (by show (10 : ℕ) < 11; omega) S512x118 _ rfl rfl 10 rfl
      (ix2 p (⟨lv - 10, by omega⟩ : Fin 118)) ?_ ?_).trans ?_
    · intro b hb
      match b with
      | ⟨0, _⟩ => rfl
      | ⟨1, _⟩ => exact absurd rfl hb
    · show 10 + (lv - 10) = lv
      omega
    · unfold kTile
      rw [dif_neg (show ¬lv < 9 by omega), if_neg (show ¬lv = 9 by omega)]
      rfl

/-- Row `p`, lane `l` of a tile's counts depends on row `p` of the tile only, and is `kTile` of that row. -/
theorem tileCounts_apply (x0 : Vec Ideal S512x2048 .f32) (p : Fin 512) (l : Fin 128) :
    tileCounts (F := Ideal) x0 (ix2 p l) = kTile (fun s => x0 (ix2 p s)) l :=
  pay13_apply x0 p l

/-- The same row sum read as a sum from zero. -/
theorem rowSum128z (v : FVec Ideal S512x128 .f32) (p : Fin 512) :
    shapeCast S512x1 (multiReduction (F := Ideal) .add [1] S512 v 0x00000000#32 reduces_S512x128_S512 (.inl rfl) rfl)
        shapeCasts_S512_S512x1 (ix2 p (0 : Fin 1))
      = z32 + ∑ s : Fin 128, v (ix2 p s) := by
  rw [show z32 = 0 from Ideal.ofBits_zero_f32, zero_add]
  exact rowSum128 v p

/-- One row broadcast over the 512 rows, read at `(p, j)`: the row's entry of lane `j`. -/
theorem rowBcast_apply (x : Vec Ideal S1x128 .f32) (p : Fin 512) (j : Fin 128) :
    broadcastTo S512x128 (shapeCast S1x128 x shapeCasts_S1x128_S1x128) broadcasts_S1x128_S512x128 (ix2 p j)
      = x (ix2 (0 : Fin 1) j) := by
  rw [shapeCast_self]
  exact broadcastTo_1b_ab_apply x _ p j

/-- The left operand's row coordinate at an output index is the output's row. -/
theorem lhsIdx0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl

/-- The right operand's lane coordinate at an output index is the output's lane. -/
theorem rhsIdx1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The matrix product into a zero accumulator, read at `(p, j)`: the sum over the 128 contracted lanes. -/
theorem matmul128_apply (a : FVec Ideal S512x128 .bf16) (w : FVec Ideal S128x128 .bf16) (p : Fin 512) (j : Fin 128) :
    matmul (F := Ideal) dot_S512x128_S128x128_S512x128_1_0_0_1_n_n none a w (constant S512x128 .f32 0x00000000#32) (ix2 p j)
      = ∑ k : Fin 128, a (ix2 p k) * w (ix2 k j) := by
  refine (Ideal.matmul_constant_zero_apply dot_S512x128_S128x128_S512x128_1_0_0_1_n_n none a w (ix2 p j)).trans ?_
  rw [← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 p j) ((ValueIdx.contrEquiv1 dot_S512x128_S128x128_S512x128_1_0_0_1_n_n 128 rfl rfl).symm k) = ix2 p k := funext fun a => Fin.ext (by
    match a with
    | ⟨0, _⟩ => exact lhsIdx0 _ _
    | ⟨1, _⟩ => exact (dot_S512x128_S128x128_S512x128_1_0_0_1_n_n.lhsIdx_val_of_single rfl _ _).trans hk)
  have er : dot_S512x128_S128x128_S512x128_1_0_0_1_n_n.rhsIdx (ix2 p j) ((ValueIdx.contrEquiv1 dot_S512x128_S128x128_S512x128_1_0_0_1_n_n 128 rfl rfl).symm k) = ix2 k j := funext fun a => Fin.ext (by
    match a with
    | ⟨0, _⟩ => exact (dot_S512x128_S128x128_S512x128_1_0_0_1_n_n.rhsIdx_val_of_single rfl _ _).trans hk
    | ⟨1, _⟩ => exact rhsIdx1 _ _)
  rw [el, er]

/-- One layer before its normalisation: the product with the weights into a zero accumulator, the bias row added, the
    clamp below at zero. -/
def dense (a : FVec Ideal S512x128 .f32) (w : FVec Ideal S128x128 .f32) (b : Vec Ideal S1x128 .f32) : FVec Ideal S512x128 .f32 :=
  maximumf
    (addf (matmul (F := Ideal) dot_S512x128_S128x128_S512x128_1_0_0_1_n_n none (truncf .bf16 a bitsLt_bf16_f32) (truncf .bf16 w bitsLt_bf16_f32)
        (constant S512x128 .f32 0x00000000#32))
      (broadcastTo S512x128 (shapeCast S1x128 b shapeCasts_S1x128_S1x128) broadcasts_S1x128_S512x128))
    (broadcast S512x128 (Scalar.ofBits (F := Ideal) .f32 0x00000000#32))

theorem dense_apply (a : FVec Ideal S512x128 .f32) (w : FVec Ideal S128x128 .f32) (b : Vec Ideal S1x128 .f32)
    (p : Fin 512) (j : Fin 128) :
    dense a w b (ix2 p j) = max ((∑ k : Fin 128, a (ix2 p k) * w (ix2 k j)) + b (ix2 (0 : Fin 1) j)) z32 := by
  unfold dense
  rw [maximumf_apply, addf_apply, matmul128_apply, rowBcast_apply]
  rfl

/-- The per-row mean of a block, kept with a trailing unit axis. -/
def rowMean (v : FVec Ideal S512x128 .f32) : FVec Ideal S512x1 .f32 :=
  divf (shapeCast S512x1 (multiReduction (F := Ideal) .add [1] S512 v 0x00000000#32 reduces_S512x128_S512 (.inl rfl) rfl)
      shapeCasts_S512_S512x1)
    (broadcast S512x1 (Scalar.ofBits (F := Ideal) .f32 0x43000000#32))

theorem rowMean_apply (v : FVec Ideal S512x128 .f32) (p : Fin 512) :
    rowMean v (ix2 p (0 : Fin 1)) = Ideal.div (z32 + ∑ k : Fin 128, v (ix2 p k)) c128 := by
  unfold rowMean
  rw [divf_apply, rowSum128z]
  rfl

/-- A block less its per-row mean. -/
def centred (v : FVec Ideal S512x128 .f32) : FVec Ideal S512x128 .f32 :=
  subf v (broadcastTo S512x128 (rowMean v) broadcasts_S512x1_S512x128)

theorem centred_apply (v : FVec Ideal S512x128 .f32) (p : Fin 512) (j : Fin 128) :
    centred v (ix2 p j) = v (ix2 p j) - mean (fun k => v (ix2 p k)) := by
  unfold centred mean
  rw [subf_apply, Cert.Lib.broadcastTo_a1_ab_apply, rowMean_apply]

/-- The per-row mean of the squared deviations is the row's variance. -/
theorem rowVar_apply (v : FVec Ideal S512x128 .f32) (p : Fin 512) :
    rowMean (mulf (centred v) (centred v)) (ix2 p (0 : Fin 1)) = var (fun k => v (ix2 p k)) := by
  unfold var
  rw [rowMean_apply]
  refine congrArg (fun t => Ideal.div (z32 + t) c128) (Finset.sum_congr rfl fun k _ => ?_)
  rw [mulf_apply, centred_apply]

/-- The normalisation of each row of a block to mean 0 and variance 1, by the reciprocal square root, before the scale
    and the shift. -/
def normCore (v : FVec Ideal S512x128 .f32) : FVec Ideal S512x128 .f32 :=
  mulf (centred v)
    (broadcastTo S512x128
      (rsqrt (addf (rowMean (mulf (centred v) (centred v))) (broadcast S512x1 (Scalar.ofBits (F := Ideal) .f32 0x3727C5AC#32))))
      broadcasts_S512x1_S512x128)

theorem normCore_apply (v : FVec Ideal S512x128 .f32) (p : Fin 512) (j : Fin 128) :
    normCore v (ix2 p j)
      = (v (ix2 p j) - mean (fun k => v (ix2 p k))) * Ideal.rsqrt (var (fun k => v (ix2 p k)) + eps5) := by
  unfold normCore
  rw [mulf_apply, centred_apply, Cert.Lib.broadcastTo_a1_ab_apply]
  refine congrArg (fun t => _ * Ideal.rsqrt (t + eps5)) (rowVar_apply v p)

/-- The counts of a block divided by their per-row total plus a small constant. -/
def normIn (acc : Vec Ideal S512x128 .f32) : FVec Ideal S512x128 .f32 :=
  divf acc (broadcastTo S512x128
    (addf (shapeCast S512x1 (multiReduction (F := Ideal) .add [1] S512 acc 0x00000000#32 reduces_S512x128_S512 (.inl rfl) rfl)
        shapeCasts_S512_S512x1)
      (broadcast S512x1 (Scalar.ofBits (F := Ideal) .f32 0x322BCC77#32)))
    broadcasts_S512x1_S512x128)

theorem normIn_apply (acc : Vec Ideal S512x128 .f32) (p : Fin 512) (l : Fin 128) :
    normIn acc (ix2 p l) = Ideal.div (acc (ix2 p l)) ((z32 + ∑ l' : Fin 128, acc (ix2 p l')) + eps8) := by
  unfold normIn
  rw [divf_apply, Cert.Lib.broadcastTo_a1_ab_apply, addf_apply, rowSum128z]
  rfl

/-- The first layer's term is the normalisation of its affine map and clamp applied to the scaled counts. -/
theorem pay4_eq (acc : Vec Ideal S512x128 .f32) (x1 : Vec Ideal S128x128 .f32) (x2 : Vec Ideal S1x128 .f32) :
    k0_pay4 (F := Ideal) acc x1 x2
      = normCore (dense (normIn acc) (shapeCast S128x128 x1 shapeCasts_S128x128_S128x128) x2) := rfl

/-- The second layer's term: the first layer's scale and shift, then the affine map, clamp, normalisation, scale and
    shift of the second. -/
theorem pay2_eq (v115 : FVec Ideal S1x128 .f32) (v133 v134 : FVec Ideal S512x128 .f32) (x5 : Vec Ideal S128x128 .f32)
    (x6 x7 x8 : Vec Ideal S1x128 .f32) :
    k0_pay2 (F := Ideal) v115 v133 v134 x5 x6 x7 x8
      = addf (mulf (normCore (dense (addf (mulf v133 v134) (broadcastTo S512x128 v115 broadcasts_S1x128_S512x128)) x5 x6))
            (broadcastTo S512x128 (shapeCast S1x128 x7 shapeCasts_S1x128_S1x128) broadcasts_S1x128_S512x128))
          (broadcastTo S512x128 (shapeCast S1x128 x8 shapeCasts_S1x128_S1x128) broadcasts_S1x128_S512x128) := rfl

/-- Row `p` of the first layer before its normalisation. -/
theorem layer1_row (acc : Vec Ideal S512x128 .f32) (x1 : Vec Ideal S128x128 .f32) (x2 : Vec Ideal S1x128 .f32) (p : Fin 512) :
    (fun j' => dense (normIn acc) (shapeCast S128x128 x1 shapeCasts_S128x128_S128x128) x2 (ix2 p j'))
      = (fun j' => max ((∑ l : Fin 128, Ideal.div (acc (ix2 p l)) ((z32 + ∑ l' : Fin 128, acc (ix2 p l')) + eps8) * x1 (ix2 l j')) + x2 (ix2 (0 : Fin 1) j')) z32) := by
  funext j'
  rw [dense_apply, shapeCast_self]
  refine congrArg (fun t => max (t + _) z32) (Finset.sum_congr rfl fun l _ => congrArg (· * _) ?_)
  exact normIn_apply acc p l

/-- Row `p`, lane `k` of the first layer after its normalisation, scale and shift. -/
theorem layer1_out (acc : Vec Ideal S512x128 .f32) (x1 : Vec Ideal S128x128 .f32) (x2 x3 x4 : Vec Ideal S1x128 .f32)
    (p : Fin 512) (k : Fin 128) :
    addf (mulf (k0_pay4 (F := Ideal) acc x1 x2) (k0_pay5 x3)) (broadcastTo S512x128 (k0_pay3 (F := Ideal) x4) broadcasts_S1x128_S512x128) (ix2 p k)
      = lnRsqrt (fun j' => max ((∑ l : Fin 128, Ideal.div (acc (ix2 p l)) ((z32 + ∑ l' : Fin 128, acc (ix2 p l')) + eps8) * x1 (ix2 l j')) + x2 (ix2 (0 : Fin 1) j')) z32) (fun j' => x3 (ix2 (0 : Fin 1) j')) (fun j' => x4 (ix2 (0 : Fin 1) j')) k := by
  have e5 : k0_pay5 (F := Ideal) x3 (ix2 p k) = x3 (ix2 (0 : Fin 1) k) := rowBcast_apply x3 p k
  have e3 : broadcastTo S512x128 (k0_pay3 (F := Ideal) x4) broadcasts_S1x128_S512x128 (ix2 p k) = x4 (ix2 (0 : Fin 1) k) :=
    rowBcast_apply x4 p k
  have ek : dense (normIn acc) (shapeCast S128x128 x1 shapeCasts_S128x128_S128x128) x2 (ix2 p k) = _ :=
    congrFun (layer1_row acc x1 x2 p) k
  rw [addf_apply, mulf_apply, pay4_eq, normCore_apply, e5, e3, layer1_row, ek]
  rfl

/-- Row `p`, lane `j` of the stored result is the 128-lane network of row `p` of the accumulated counts, against
    the whole weight blocks and the one-row bias, scale and shift blocks. -/
theorem mlp_apply (acc : Vec Ideal S512x128 .f32) (x1 : Vec Ideal S128x128 .f32) (x2 x3 x4 : Vec Ideal S1x128 .f32)
    (x5 : Vec Ideal S128x128 .f32) (x6 x7 x8 : Vec Ideal S1x128 .f32) (p : Fin 512) (j : Fin 128) :
    k0_pay2 (F := Ideal) (k0_pay3 x4) (k0_pay4 acc x1 x2) (k0_pay5 x3) x5 x6 x7 x8 (ix2 p j)
      = netK (fun l => acc (ix2 p l)) (fun l j' => x1 (ix2 l j')) (fun j' => x2 (ix2 (0 : Fin 1) j'))
          (fun j' => x3 (ix2 (0 : Fin 1) j')) (fun j' => x4 (ix2 (0 : Fin 1) j')) (fun k j' => x5 (ix2 k j'))
          (fun j' => x6 (ix2 (0 : Fin 1) j')) (fun j' => x7 (ix2 (0 : Fin 1) j')) (fun j' => x8 (ix2 (0 : Fin 1) j')) j := by
  rw [pay2_eq, addf_apply, mulf_apply, normCore_apply, rowBcast_apply, rowBcast_apply]
  unfold netK
  refine Eq.trans (b := lnRsqrt (fun k => dense (addf (mulf (k0_pay4 (F := Ideal) acc x1 x2) (k0_pay5 x3))
      (broadcastTo S512x128 (k0_pay3 (F := Ideal) x4) broadcasts_S1x128_S512x128)) x5 x6 (ix2 p k))
      (fun j' => x7 (ix2 (0 : Fin 1) j')) (fun j' => x8 (ix2 (0 : Fin 1) j')) j) rfl ?_
  refine congrArg (fun z => lnRsqrt z _ _ j) ?_
  funext j2
  rw [dense_apply]
  refine congrArg (fun t => max (t + _) z32) (Finset.sum_congr rfl fun k _ => congrArg (· * _) ?_)
  exact layer1_out acc x1 x2 x3 x4 p k

end Cert.KernelIdeal.HistValue

end
-- ==== Proof.LibScatterSet.lean ====
/-
  The host's overwriting scatter (`x.at[:N, :].set(u)`: a `stablehlo.scatter` whose body returns the update) read at
  one element.

  Such a scatter is a left fold, over the update's elements in row-major order, of point updates: each update element
  lands at one operand element, or nowhere, and replaces what is there. Read at one operand element the fold is therefore
  the operand's value when no update element lands there, and the update element's value when exactly one does.

  The dimension numbers treated are the ones `x.at[:N, :].set(u)` is written with on an `R × K` operand and an
  `N × K` update (`N ≤ R`): ONE start index with a single component, which names the operand's row axis and is zero;
  both update axes are window axes (`update_window_dims = [0, 1]`), no operand axis is inserted. Update element
  `(p, c)` then lands at operand element `(p, c)`, so element `(l, k)` of the result is `u (l, k)` for `l < N` and
  `x (l, k)` otherwise.
-/
import Idealize.ShloMosaic.PureOps.Ideal
import Idealize.ShloMosaic.Lib.ValueIdx

noncomputable section

namespace Cert.LibScatterSet

open Idealize.ShloMosaic Idealize.ShloMosaic.ValueIdx

/-! ### A scatter that overwrites, read at one element -/

section Fold
variable {ι κ α : Type}

/-- A left fold of steps none of which touches element `i'` leaves it as it started. -/
theorem foldl_step_miss (step : (ι → α) → κ → (ι → α)) (g : κ → Option ι) (i' : ι)
    (hmiss : ∀ r n, g n ≠ some i' → step r n i' = r i') :
    ∀ (L : List κ) (x : ι → α), (∀ n ∈ L, g n ≠ some i') → L.foldl step x i' = x i'
  | [], _, _ => rfl
  | n :: L, x, h => by
    rw [List.foldl_cons, foldl_step_miss step g i' hmiss L _ (fun n' hn' => h n' (List.mem_cons_of_mem _ hn'))]
    exact hmiss x n (h n List.mem_cons_self)

/-- A left fold of steps exactly one of which, `n₀`, writes element `i'` leaves there what that step wrote. -/
theorem foldl_step_hit (step : (ι → α) → κ → (ι → α)) (g : κ → Option ι) (v : κ → α) (i' : ι)
    (hmiss : ∀ r n, g n ≠ some i' → step r n i' = r i')
    (hhit : ∀ r n, g n = some i' → step r n i' = v n) (n₀ : κ) (h₀ : g n₀ = some i') :
    ∀ (L : List κ) (x : ι → α), n₀ ∈ L → (∀ n ∈ L, g n = some i' → n = n₀) → L.foldl step x i' = v n₀
  | [], _, hmem, _ => absurd hmem List.not_mem_nil
  | n :: L, x, hmem, huniq => by
    rw [List.foldl_cons]
    by_cases hL : n₀ ∈ L
    · exact foldl_step_hit step g v i' hmiss hhit n₀ h₀ L _ hL (fun n' hn' => huniq n' (List.mem_cons_of_mem _ hn'))
    · have hn : n₀ = n := by
        rcases List.mem_cons.mp hmem with h | h
        · exact h
        · exact absurd h hL
      subst hn
      rw [foldl_step_miss step g i' hmiss L _ (fun n' hn' hg => hL ((huniq n' (List.mem_cons_of_mem _ hn') hg) ▸ hn'))]
      exact hhit x n₀ h₀

end Fold

section Scatter
variable {s si u : Shape} {α : Type} {w : Nat}

/-- The step of the host's overwriting scatter leaves an element no update lands on as it was. -/
theorem scatter_step_miss (d : ScatterDims s si u) (idx : IVec si w) (upd : u.Idx → α) (i' : s.Idx)
    (r : s.Idx → α) (n : Fin u.numel) (h : d.resultIdx? (u.rowMajor.symm n) idx ≠ some i') :
    (match d.resultIdx? (u.rowMajor.symm n) idx with
      | some i => fun i' => if i' = i then (fun _ b => b) (r i) (upd (u.rowMajor.symm n)) else r i'
      | none => r) i' = r i' := by
  generalize d.resultIdx? (u.rowMajor.symm n) idx = o at h
  cases o with
  | none => rfl
  | some i =>
    show (if i' = i then _ else r i') = r i'
    exact if_neg fun e => h (congrArg some e.symm)

/-- The step of the host's overwriting scatter writes the update's element where it lands. -/
theorem scatter_step_hit (d : ScatterDims s si u) (idx : IVec si w) (upd : u.Idx → α) (i' : s.Idx)
    (r : s.Idx → α) (n : Fin u.numel) (h : d.resultIdx? (u.rowMajor.symm n) idx = some i') :
    (match d.resultIdx? (u.rowMajor.symm n) idx with
      | some i => fun i' => if i' = i then (fun _ b => b) (r i) (upd (u.rowMajor.symm n)) else r i'
      | none => r) i' = upd (u.rowMajor.symm n) := by
  generalize d.resultIdx? (u.rowMajor.symm n) idx = o at h
  cases o with
  | none => exact absurd h.symm (Option.some_ne_none _)
  | some i =>
    show (if i' = i then upd (u.rowMajor.symm n) else r i') = upd (u.rowMajor.symm n)
    exact if_pos (Option.some.inj h).symm

/-- An element no update lands on keeps the operand's value. -/
theorem scatter_set_miss (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  unfold Host.scatter
  exact foldl_step_miss _ (fun n => d.resultIdx? (u.rowMajor.symm n) idx) i'
    (fun r n hn => scatter_step_miss d idx upd i' r n hn) _ x (fun n _ => h _)

/-- An element exactly one update element lands on takes that element's value. -/
theorem scatter_set_hit (d : ScatterDims s si u) (x : s.Idx → α) (idx : IVec si w) (upd : u.Idx → α) (i' : s.Idx)
    (j₀ : u.Idx) (h₀ : d.resultIdx? j₀ idx = some i') (huniq : ∀ j : u.Idx, d.resultIdx? j idx = some i' → j = j₀) :
    Host.scatter d (fun _ b => b) x idx upd i' = upd j₀ := by
  unfold Host.scatter
  have hsymm : u.rowMajor.symm (u.rowMajor j₀) = j₀ := Equiv.symm_apply_apply _ _
  refine (foldl_step_hit _ (fun n => d.resultIdx? (u.rowMajor.symm n) idx) (fun n => upd (u.rowMajor.symm n)) i'
    (fun r n hn => scatter_step_miss d idx upd i' r n hn) (fun r n hn => scatter_step_hit d idx upd i' r n hn)
    (u.rowMajor j₀) (by show d.resultIdx? (u.rowMajor.symm (u.rowMajor j₀)) idx = some i'; rw [hsymm]; exact h₀)
    _ x (List.mem_finRange _) (fun n _ hn => ?_)).trans (congrArg upd hsymm)
  exact (Equiv.symm_apply_eq _).mp (huniq _ hn)

end Scatter

/-! ### The dimension numbers of a block of rows written at one start index -/

section SetDims
variable {R N K : Nat}

/-- The dimension numbers of a scatter that writes an `N × K` update as a window of an `R × K` operand at ONE start
    index with a single component, which names the operand's row axis: both update axes are window axes, no operand
    axis is inserted. -/
abbrev setDims (wf : ScatterDims.WF (⟨2, ![R, K]⟩ : Shape) (⟨1, ![1]⟩ : Shape) (⟨2, ![N, K]⟩ : Shape) [0, 1] [] [0] 0) :
    ScatterDims (⟨2, ![R, K]⟩ : Shape) (⟨1, ![1]⟩ : Shape) (⟨2, ![N, K]⟩ : Shape) where
  updateWindowDims := [0, 1]
  insertedWindowDims := []
  scatterDimsToOperandDims := [0]
  indexVectorDim := 0
  wf := wf

set_option maxHeartbeats 400000 in
/-- With every scatter index zero the window starts at row `0`. -/
theorem set_start_zero (wf) {w : Nat} (idx : IVec (⟨1, ![1]⟩ : Shape) w) (hidx : ∀ i, idx i = 0#w)
    (j : (⟨2, ![N, K]⟩ : Shape).Idx) : (setDims (R := R) wf).start j idx 0 = 0 := by
  unfold ScatterDims.start
  rw [dif_pos (show (0 : Fin 2) ∈ (setDims (R := R) (N := N) (K := K) wf).scatterDimsToOperandDims from List.mem_singleton.mpr rfl),
    hidx]
  exact BitVec.toInt_zero

set_option maxHeartbeats 400000 in
/-- The scatter indices do not name the operand's column axis: the window starts at `0` on it. -/
theorem set_start_one (wf) {w : Nat} (idx : IVec (⟨1, ![1]⟩ : Shape) w) (j : (⟨2, ![N, K]⟩ : Shape).Idx) :
    (setDims (R := R) wf).start j idx 1 = 0 := by
  unfold ScatterDims.start
  rw [dif_neg (show (1 : Fin 2) ∉ [(0 : Fin 2)] from by decide)]

set_option maxHeartbeats 400000 in
/-- The window coordinate on the operand's row axis is the update element's row. -/
theorem set_window_zero (wf) (j : (⟨2, ![N, K]⟩ : Shape).Idx) :
    (setDims (R := R) wf).window j 0 = (j 0).val := by
  unfold ScatterDims.window
  exact (dif_pos (show (0 : Fin 2) ∈ (List.finRange 2).filter (fun a => a ∉ ([] : List (Fin 2))) from by decide)).trans rfl

set_option maxHeartbeats 400000 in
/-- The window coordinate on the operand's column axis is the update element's column. -/
theorem set_window_one (wf) (j : (⟨2, ![N, K]⟩ : Shape).Idx) :
    (setDims (R := R) wf).window j 1 = (j 1).val := by
  unfold ScatterDims.window
  exact (dif_pos (show (1 : Fin 2) ∈ (List.finRange 2).filter (fun a => a ∉ ([] : List (Fin 2))) from by decide)).trans rfl

set_option maxHeartbeats 400000 in
/-- With every scatter index zero, update element `(p, c)` lands at operand element `(p, c)`. -/
theorem set_resultIdx? (wf) (hNR : N ≤ R) {w : Nat} (idx : IVec (⟨1, ![1]⟩ : Shape) w) (hidx : ∀ i, idx i = 0#w)
    (p : Fin N) (c : Fin K) :
    (setDims (R := R) wf).resultIdx? (ix2 p c) idx = some (ix2 (⟨p.val, lt_of_lt_of_le p.isLt hNR⟩ : Fin R) c) := by
  have h0 : (setDims (R := R) wf).start (ix2 p c) idx 0 + ((setDims (R := R) wf).window (ix2 p c) 0 : Int)
      = (p.val : Int) := by
    rw [set_start_zero wf idx hidx, set_window_zero]; exact Int.zero_add _
  have h1 : (setDims (R := R) wf).start (ix2 p c) idx 1 + ((setDims (R := R) wf).window (ix2 p c) 1 : Int)
      = (c.val : Int) := by
    rw [set_start_one, set_window_one]; exact Int.zero_add _
  unfold ScatterDims.resultIdx?
  split
  · rename_i h
    rw [Option.some.injEq]
    funext a
    refine Fin.ext ?_
    match a with
    | ⟨0, _⟩ =>
      show ((setDims (R := R) wf).start (ix2 p c) idx 0
        + ((setDims (R := R) wf).window (ix2 p c) 0 : Int)).toNat = p.val
      rw [h0]; exact Int.toNat_natCast _
    | ⟨1, _⟩ =>
      show ((setDims (R := R) wf).start (ix2 p c) idx 1
        + ((setDims (R := R) wf).window (ix2 p c) 1 : Int)).toNat = c.val
      rw [h1]; exact Int.toNat_natCast _
  · rename_i h
    exfalso; apply h
    intro a
    match a with
    | ⟨0, _⟩ =>
      show 0 ≤ (setDims (R := R) wf).start (ix2 p c) idx 0 + ((setDims (R := R) wf).window (ix2 p c) 0 : Int)
        ∧ (setDims (R := R) wf).start (ix2 p c) idx 0 + ((setDims (R := R) wf).window (ix2 p c) 0 : Int) < (R : Int)
      rw [h0]; have := p.isLt; omega
    | ⟨1, _⟩ =>
      show 0 ≤ (setDims (R := R) wf).start (ix2 p c) idx 1 + ((setDims (R := R) wf).window (ix2 p c) 1 : Int)
        ∧ (setDims (R := R) wf).start (ix2 p c) idx 1 + ((setDims (R := R) wf).window (ix2 p c) 1 : Int) < (K : Int)
      rw [h1]; have := c.isLt; omega

set_option maxHeartbeats 400000 in
/-- An update written as rows `0 … N - 1` of the operand, read at one element, for the literal dimension numbers: a row
    below `N` shows the update's row, the others keep the operand's. -/
theorem scatter_setDims_apply (wf) (hNR : N ≤ R) {w : Nat} {α : Type} (x : (⟨2, ![R, K]⟩ : Shape).Idx → α)
    (idx : IVec (⟨1, ![1]⟩ : Shape) w) (hidx : ∀ i, idx i = 0#w) (upd : (⟨2, ![N, K]⟩ : Shape).Idx → α)
    (l : Fin R) (k : Fin K) :
    Host.scatter (setDims wf) (fun _ b => b) x idx upd (ix2 l k)
      = if hl : l.val < N then upd (ix2 (⟨l.val, hl⟩ : Fin N) k) else x (ix2 l k) := by
  by_cases hl : l.val < N
  · rw [dif_pos hl]
    refine scatter_set_hit (setDims wf) x idx upd (ix2 l k) (ix2 (⟨l.val, hl⟩ : Fin N) k)
      (set_resultIdx? wf hNR idx hidx ⟨l.val, hl⟩ k) (fun j hj => ?_)
    obtain ⟨p, c, rfl⟩ : ∃ (p : Fin N) (c : Fin K), j = ix2 p c := ⟨j 0, j 1, eq_ix2 j⟩
    rw [set_resultIdx? wf hNR idx hidx p c] at hj
    have e := Option.some.inj hj
    have e0 : p.val = l.val := congrArg (fun f : (⟨2, ![R, K]⟩ : Shape).Idx => (f 0).val) e
    have e1 : c.val = k.val := congrArg (fun f : (⟨2, ![R, K]⟩ : Shape).Idx => (f 1).val) e
    have hp : p = ⟨l.val, hl⟩ := Fin.ext e0
    have hc : c = k := Fin.ext e1
    rw [hp, hc]
  · rw [dif_neg hl]
    refine scatter_set_miss (setDims wf) x idx upd (ix2 l k) (fun j hj => ?_)
    obtain ⟨p, c, rfl⟩ : ∃ (p : Fin N) (c : Fin K), j = ix2 p c := ⟨j 0, j 1, eq_ix2 j⟩
    rw [set_resultIdx? wf hNR idx hidx p c] at hj
    have e := Option.some.inj hj
    have e0 : p.val = l.val := congrArg (fun f : (⟨2, ![R, K]⟩ : Shape).Idx => (f 0).val) e
    have := p.isLt
    omega

/-- The same for any record with these dimension numbers. -/
theorem scatter_set_apply (d : ScatterDims (⟨2, ![R, K]⟩ : Shape) (⟨1, ![1]⟩ : Shape) (⟨2, ![N, K]⟩ : Shape))
    (huw : d.updateWindowDims = [0, 1]) (hiw : d.insertedWindowDims = []) (hsd : d.scatterDimsToOperandDims = [0])
    (hiv : d.indexVectorDim = 0) (hNR : N ≤ R) {w : Nat} {α : Type} (x : (⟨2, ![R, K]⟩ : Shape).Idx → α)
    (idx : IVec (⟨1, ![1]⟩ : Shape) w) (hidx : ∀ i, idx i = 0#w) (upd : (⟨2, ![N, K]⟩ : Shape).Idx → α)
    (l : Fin R) (k : Fin K) :
    Host.scatter d (fun _ b => b) x idx upd (ix2 l k)
      = if hl : l.val < N then upd (ix2 (⟨l.val, hl⟩ : Fin N) k) else x (ix2 l k) := by
  obtain ⟨uw, iw, sd, iv, wf⟩ := d
  dsimp only at huw hiw hsd hiv
  subst huw hiw hsd hiv
  exact scatter_setDims_apply wf hNR x idx hidx upd l k

end SetDims

end Cert.LibScatterSet

end
-- ==== Proof.HostPrelude.lean ====
/-
  The arrays the kernel's parameter windows show, as the region finds them, in terms of the program's arguments: the
  first-layer weights are written into rows 0 … 9 of a 128 × 128 array of zeros; each of the six vectors of 128 is
  laid out as one row.
-/
import proofs.«126141_j10033043603497_2_alg».proof.Proof.Gen.KernelIdeal.Frame.Runs
import proofs.«126141_j10033043603497_2_alg».proof.Proof.Spec
import proofs.«126141_j10033043603497_2_alg».proof.Proof.LibScatterSet
import Idealize.ShloMosaic.Lib.StableHlo.Run
import Idealize.ShloMosaic.Lib.Pipeline.Value
import Idealize.ShloMosaic.Lib.ValueIdx

noncomputable section

namespace Cert.KernelIdeal.HistValue

open Cert.KernelIdeal Cert.KernelIdeal.Gen Cert.HistMlp
open Idealize.ShloMosaic Idealize.ShloMosaic.TcCoe Idealize.SL.Sem Idealize.ShloMosaic.ValueIdx

variable (m : (ℓ : Loc nD τ sig) → Buf (Elt Ideal) ℓ)

/-- The padded first-layer weights: rows below 10 are the argument's rows, the others are zero. -/
theorem V_v2_apply (c : Dev nD) (l j : Fin 128) :
    V m c main_v2 (ix2 l j : S128x128.Idx)
      = padW (fun b j' => m ((c : Thread nD τ).loc main_arg1) (ix2 b j' : S10x128.Idx)) l j := by
  have e : (V m c main_v2 : S128x128.Idx → EReal)
      = Host.scatter scatter_S128x128_S1_S10x128_01_n_0_0 (fun _ b => b)
          (broadcastInDim S128x128 ![] bcast_S_S128x128 (constant (F := Ideal) S_ .f32 0x00000000#32))
          (broadcastInDim S1 ![] bcast_S_S1 (constantI S_ 32 0#32))
          (m ((c : Thread nD τ).loc main_arg1)) := by
    dsimp only [Gen.V, Gen.hostOps0]; after_results
  have hidx : ∀ i : S1.Idx, broadcastInDim S1 ![] bcast_S_S1 (constantI S_ 32 0#32) i = 0#32 := fun i =>
    broadcastInDim_apply ![] bcast_S_S1 (constantI S_ 32 0#32) i (fun a => a.elim0) (fun a => a.elim0)
  rw [e, Cert.LibScatterSet.scatter_set_apply scatter_S128x128_S1_S10x128_01_n_0_0 rfl rfl rfl rfl (by decide) _ _ hidx]
  unfold padW
  by_cases hl : l.val < 10
  · rw [dif_pos hl, dif_pos hl]
  · rw [dif_neg hl, dif_neg hl]
    refine (broadcastInDim_apply ![] bcast_S_S128x128 (constant (F := Ideal) S_ .f32 0x00000000#32) (ix2 l j)
      (fun a => a.elim0) (fun a => a.elim0)).trans ?_
    show Ideal.ofBits .f32 0x00000000#32 = 0
    exact Ideal.ofBits_zero_f32

/-- A vector of 128 laid out as one row, read at an element of that row. -/
theorem row_of_vector {α : Type} (x : S128.Idx → α) (h : S128.ShapeCasts S1x128) (j : Fin 128) :
    shapeCast S1x128 x h (ix2 (0 : Fin 1) j) = x (ix1 j) :=
  shapeCast_apply x h (ix2 (0 : Fin 1) j) (ix1 j)
    (by rw [Shape.rowMajor_val_one, Shape.rowMajor_val_two]; show j.val = 0 * 128 + j.val; omega)

/-- Each vector argument laid out as one row of 128. -/
theorem V_v3_apply (c : Dev nD) (j : Fin 128) :
    V m c main_v3 (ix2 (0 : Fin 1) j : S1x128.Idx) = m ((c : Thread nD τ).loc main_arg2) (ix1 j : S128.Idx) := by
  have e : (V m c main_v3 : S1x128.Idx → EReal)
      = shapeCast S1x128 (m ((c : Thread nD τ).loc main_arg2)) shapeCasts_S128_S1x128 := by
    dsimp only [Gen.V, Gen.hostOps0]; after_results; rfl
  rw [e]
  exact row_of_vector _ shapeCasts_S128_S1x128 j
theorem V_v4_apply (c : Dev nD) (j : Fin 128) :
    V m c main_v4 (ix2 (0 : Fin 1) j : S1x128.Idx) = m ((c : Thread nD τ).loc main_arg3) (ix1 j : S128.Idx) := by
  have e : (V m c main_v4 : S1x128.Idx → EReal)
      = shapeCast S1x128 (m ((c : Thread nD τ).loc main_arg3)) shapeCasts_S128_S1x128 := by
    dsimp only [Gen.V, Gen.hostOps0]; after_results; rfl
  rw [e]
  exact row_of_vector _ shapeCasts_S128_S1x128 j
theorem V_v5_apply (c : Dev nD) (j : Fin 128) :
    V m c main_v5 (ix2 (0 : Fin 1) j : S1x128.Idx) = m ((c : Thread nD τ).loc main_arg4) (ix1 j : S128.Idx) := by
  have e : (V m c main_v5 : S1x128.Idx → EReal)
      = shapeCast S1x128 (m ((c : Thread nD τ).loc main_arg4)) shapeCasts_S128_S1x128 := by
    dsimp only [Gen.V, Gen.hostOps0]; after_results; rfl
  rw [e]
  exact row_of_vector _ shapeCasts_S128_S1x128 j
theorem V_v6_apply (c : Dev nD) (j : Fin 128) :
    V m c main_v6 (ix2 (0 : Fin 1) j : S1x128.Idx) = m ((c : Thread nD τ).loc main_arg6) (ix1 j : S128.Idx) := by
  have e : (V m c main_v6 : S1x128.Idx → EReal)
      = shapeCast S1x128 (m ((c : Thread nD τ).loc main_arg6)) shapeCasts_S128_S1x128 := by
    dsimp only [Gen.V, Gen.hostOps0]; after_results; rfl
  rw [e]
  exact row_of_vector _ shapeCasts_S128_S1x128 j
theorem V_v7_apply (c : Dev nD) (j : Fin 128) :
    V m c main_v7 (ix2 (0 : Fin 1) j : S1x128.Idx) = m ((c : Thread nD τ).loc main_arg7) (ix1 j : S128.Idx) := by
  have e : (V m c main_v7 : S1x128.Idx → EReal)
      = shapeCast S1x128 (m ((c : Thread nD τ).loc main_arg7)) shapeCasts_S128_S1x128 := by
    dsimp only [Gen.V, Gen.hostOps0]; after_results; rfl
  rw [e]
  exact row_of_vector _ shapeCasts_S128_S1x128 j
theorem V_v8_apply (c : Dev nD) (j : Fin 128) :
    V m c main_v8 (ix2 (0 : Fin 1) j : S1x128.Idx) = m ((c : Thread nD τ).loc main_arg8) (ix1 j : S128.Idx) := by
  have e : (V m c main_v8 : S1x128.Idx → EReal)
      = shapeCast S1x128 (m ((c : Thread nD τ).loc main_arg8)) shapeCasts_S128_S1x128 := by
    dsimp only [Gen.V, Gen.hostOps0]; after_results; rfl
  rw [e]
  exact row_of_vector _ shapeCasts_S128_S1x128 j

end Cert.KernelIdeal.HistValue

end
-- ==== Proof.Consts.lean ====
/-
  The float constants the specification spells, as the extended reals their patterns denote: zero, 128, the small
  positive constant added to a variance, and the eleven thresholds 0, 1, … 10.
-/
import proofs.«126141_j10033043603497_2_alg».proof.Proof.Spec

noncomputable section

namespace Cert.HistMlp

open Idealize.ShloMosaic
open scoped BigOperators

/-- The zero pattern denotes `0`. -/
theorem z32_eq : z32 = 0 := Ideal.ofBits_zero_f32

/-- The pattern of `128.0` denotes the real `128`. -/
theorem c128_eq : c128 = ((128 : ℝ) : EReal) := by
  simp [Ideal.ofBits, Ideal.ieee, -EReal.coe_mul]; norm_num

/-- The constant added to a variance denotes `10995116 / 2 ^ 40`, a positive real. -/
theorem eps5_eq : eps5 = ((10995116 / 2 ^ 40 : ℝ) : EReal) := by
  simp [Ideal.ofBits, Ideal.ieee, -EReal.coe_mul]; norm_num

theorem eps5_pos : ∃ e : ℝ, 0 < e ∧ eps5 = (e : EReal) :=
  ⟨10995116 / 2 ^ 40, by positivity, eps5_eq⟩

theorem ofBits_f32_1 : Ideal.ofBits .f32 0x3F800000#32 = ((1 : ℝ) : EReal) := by
  simp [Ideal.ofBits, Ideal.ieee, -EReal.coe_mul]; norm_num
theorem ofBits_f32_2 : Ideal.ofBits .f32 0x40000000#32 = ((2 : ℝ) : EReal) := by
  simp [Ideal.ofBits, Ideal.ieee, -EReal.coe_mul]; norm_num
theorem ofBits_f32_3 : Ideal.ofBits .f32 0x40400000#32 = ((3 : ℝ) : EReal) := by
  simp [Ideal.ofBits, Ideal.ieee, -EReal.coe_mul]; norm_num
theorem ofBits_f32_4 : Ideal.ofBits .f32 0x40800000#32 = ((4 : ℝ) : EReal) := by
  simp [Ideal.ofBits, Ideal.ieee, -EReal.coe_mul]; norm_num
theorem ofBits_f32_5 : Ideal.ofBits .f32 0x40A00000#32 = ((5 : ℝ) : EReal) := by
  simp [Ideal.ofBits, Ideal.ieee, -EReal.coe_mul]; norm_num
theorem ofBits_f32_6 : Ideal.ofBits .f32 0x40C00000#32 = ((6 : ℝ) : EReal) := by
  simp [Ideal.ofBits, Ideal.ieee, -EReal.coe_mul]; norm_num
theorem ofBits_f32_7 : Ideal.ofBits .f32 0x40E00000#32 = ((7 : ℝ) : EReal) := by
  simp [Ideal.ofBits, Ideal.ieee, -EReal.coe_mul]; norm_num
theorem ofBits_f32_8 : Ideal.ofBits .f32 0x41000000#32 = ((8 : ℝ) : EReal) := by
  simp [Ideal.ofBits, Ideal.ieee, -EReal.coe_mul]; norm_num
theorem ofBits_f32_9 : Ideal.ofBits .f32 0x41100000#32 = ((9 : ℝ) : EReal) := by
  simp [Ideal.ofBits, Ideal.ieee, -EReal.coe_mul]; norm_num
theorem ofBits_f32_10 : Ideal.ofBits .f32 0x41200000#32 = ((10 : ℝ) : EReal) := by
  simp [Ideal.ofBits, Ideal.ieee, -EReal.coe_mul]; norm_num

/-- Threshold `n` denotes the real `n`. -/
theorem thr_eq : ∀ n : Fin 11, thr n = ((n.val : ℝ) : EReal)
  | ⟨0, _⟩ => by
    show Ideal.ofBits .f32 0x00000000#32 = (((0 : ℕ) : ℝ) : EReal)
    rw [Ideal.ofBits_zero_f32]; simp
  | ⟨1, _⟩ => by
    show Ideal.ofBits .f32 0x3F800000#32 = (((1 : ℕ) : ℝ) : EReal)
    rw [ofBits_f32_1]; norm_num
  | ⟨2, _⟩ => by
    show Ideal.ofBits .f32 0x40000000#32 = (((2 : ℕ) : ℝ) : EReal)
    rw [ofBits_f32_2]; norm_num
  | ⟨3, _⟩ => by
    show Ideal.ofBits .f32 0x40400000#32 = (((3 : ℕ) : ℝ) : EReal)
    rw [ofBits_f32_3]; norm_num
  | ⟨4, _⟩ => by
    show Ideal.ofBits .f32 0x40800000#32 = (((4 : ℕ) : ℝ) : EReal)
    rw [ofBits_f32_4]; norm_num
  | ⟨5, _⟩ => by
    show Ideal.ofBits .f32 0x40A00000#32 = (((5 : ℕ) : ℝ) : EReal)
    rw [ofBits_f32_5]; norm_num
  | ⟨6, _⟩ => by
    show Ideal.ofBits .f32 0x40C00000#32 = (((6 : ℕ) : ℝ) : EReal)
    rw [ofBits_f32_6]; norm_num
  | ⟨7, _⟩ => by
    show Ideal.ofBits .f32 0x40E00000#32 = (((7 : ℕ) : ℝ) : EReal)
    rw [ofBits_f32_7]; norm_num
  | ⟨8, _⟩ => by
    show Ideal.ofBits .f32 0x41000000#32 = (((8 : ℕ) : ℝ) : EReal)
    rw [ofBits_f32_8]; norm_num
  | ⟨9, _⟩ => by
    show Ideal.ofBits .f32 0x41100000#32 = (((9 : ℕ) : ℝ) : EReal)
    rw [ofBits_f32_9]; norm_num
  | ⟨10, _⟩ => by
    show Ideal.ofBits .f32 0x41200000#32 = (((10 : ℕ) : ℝ) : EReal)
    rw [ofBits_f32_10]; norm_num

theorem thr_zero : thr 0 = ((0 : ℝ) : EReal) := by
  rw [thr_eq]; norm_num
theorem thr_nine : thr 9 = ((9 : ℝ) : EReal) := by
  rw [thr_eq]; norm_num
theorem thr_ten : thr 10 = ((10 : ℝ) : EReal) := by
  rw [thr_eq]; norm_num

end Cert.HistMlp

end
-- ==== Proof.Algebra.lean ====
/-
  The algebra that joins the two programs, over the extended reals, with no program in sight.
-/
import proofs.«126141_j10033043603497_2_alg».proof.Proof.Spec
import proofs.«126141_j10033043603497_2_alg».proof.Proof.Consts

noncomputable section

namespace Cert.HistMlp

open Idealize.ShloMosaic
open scoped BigOperators

/-! ### The reciprocal square root and the two spellings of the normalisation -/

/-- A product with the reciprocal square root of a positive extended real is the quotient by its square root
    (at `⊤` both are `0`). -/
theorem mul_rsqrt_eq_div_sqrt {y : EReal} (hy : 0 < y) (a : EReal) :
    a * Ideal.rsqrt y = Ideal.div a (Ideal.sqrt y) := by
  induction y using EReal.rec with
  | bot => exact absurd hy (not_lt.mpr bot_le)
  | top => rw [Ideal.rsqrt_top, Ideal.sqrt_top, Ideal.div, if_neg EReal.top_ne_zero, EReal.inv_top]
  | coe r =>
    have hr : 0 < r := EReal.coe_pos.mp hy
    have hs : 0 < Real.sqrt r := Real.sqrt_pos.mpr hr
    have hs' : ((Real.sqrt r : ℝ) : EReal) ≠ 0 := by exact_mod_cast hs.ne'
    rw [Ideal.rsqrt_coe, Ideal.sqrt_coe, if_neg (not_lt.mpr hr.le), if_neg hr.ne', if_neg (not_lt.mpr hr.le),
      Ideal.div, if_neg hs', EReal.coe_inv]

/-- A square is not negative, at the infinities too. -/
theorem mul_self_nonneg_ereal (d : EReal) : 0 ≤ d * d := by
  rcases le_total 0 d with h | h
  · exact EReal.mul_nonneg h h
  · exact EReal.mul_nonneg_iff.mpr (Or.inr ⟨h, h⟩)

/-- A variance is a sum of squares divided by 128, hence not negative. -/
theorem var_nonneg (z : Fin 128 → EReal) : 0 ≤ var z := by
  unfold var
  rw [z32_eq, zero_add, c128_eq, Ideal.div_coe (by norm_num)]
  refine EReal.mul_nonneg (Finset.sum_nonneg fun k _ => mul_self_nonneg_ereal _) ?_
  exact_mod_cast (by norm_num : (0 : ℝ) ≤ 1 / 128)

/-- A variance plus the small positive constant is positive. -/
theorem var_add_eps_pos (z : Fin 128 → EReal) : 0 < var z + eps5 := by
  obtain ⟨e, he, hE⟩ := eps5_pos
  rw [hE]
  have h1 : (0 : EReal) < (e : EReal) := by exact_mod_cast he
  exact lt_of_lt_of_le h1 (le_add_of_nonneg_left (var_nonneg z))

/-- The two spellings of the normalisation agree: the variance is a sum of squares over 128, hence not negative,
    and the constant added to it is positive. -/
theorem lnRsqrt_eq_lnDiv (z g b : Fin 128 → EReal) : lnRsqrt z g b = lnDiv z g b := by
  funext j
  unfold lnRsqrt lnDiv
  rw [mul_rsqrt_eq_div_sqrt (var_add_eps_pos z)]

/-! ### Padding with zeros -/

/-- A sum over 128 lanes of a function that vanishes from the tenth lane on is the sum over the first ten. -/
theorem sum_pad (f : Fin 128 → EReal) (g : Fin 10 → EReal)
    (h1 : ∀ (l : Fin 128) (hl : l.val < 10), f l = g ⟨l.val, hl⟩) (h0 : ∀ l : Fin 128, 10 ≤ l.val → f l = 0) :
    ∑ l, f l = ∑ b, g b := by
  have hsplit : ∑ l, f l = ∑ i : Fin 10, f (Fin.castAdd 118 i) + ∑ i : Fin 118, f (Fin.natAdd 10 i) :=
    Fin.sum_univ_add (a := 10) (b := 118) f
  have hz : ∑ i : Fin 118, f (Fin.natAdd 10 i) = 0 :=
    Finset.sum_eq_zero fun i _ => h0 _ (Nat.le_add_right 10 i.val)
  rw [hsplit, hz, add_zero]
  exact Finset.sum_congr rfl fun i _ => h1 (Fin.castAdd 118 i) i.isLt

/-- Padding the ten counts with zeros against weights padded with zero rows changes neither the total nor any
    product sum, so the 128-lane network on the padded row is the ten-bin network. -/
theorem netK_pad (h : Fin 10 → EReal) (w1 : Fin 10 → Fin 128 → EReal) (b1 g1 be1 : Fin 128 → EReal)
    (w2 : Fin 128 → Fin 128 → EReal) (b2 g2 be2 : Fin 128 → EReal) :
    netK (padRow h) (padW w1) b1 g1 be1 w2 b2 g2 be2 = netR h w1 b1 g1 be1 w2 b2 g2 be2 := by
  have htot : ∑ l' : Fin 128, padRow h l' = ∑ b' : Fin 10, h b' :=
    sum_pad _ _ (fun l hl => dif_pos hl) (fun l hl => dif_neg (not_lt.mpr hl))
  have hsum : ∀ j' : Fin 128,
      ∑ l : Fin 128, Ideal.div (padRow h l) ((z32 + ∑ l' : Fin 128, padRow h l') + eps8) * padW w1 l j'
        = ∑ b : Fin 10, Ideal.div (h b) ((z32 + ∑ b' : Fin 10, h b') + eps8) * w1 b j' := by
    intro j'
    rw [htot]
    refine sum_pad _ _ (fun l hl => ?_) (fun l hl => ?_)
    · simp only [padRow, padW, dif_pos hl]
    · simp only [padW, dif_neg (not_lt.mpr hl), mul_zero]
  unfold netK netR
  simp only [lnRsqrt_eq_lnDiv, hsum]

/-! ### Counting: indicators as real numbers -/

/-- The indicator of a proposition, as a real number. -/
def indR (p : Prop) : ℝ := by classical exact if p then 1 else 0

theorem indR_pos {p : Prop} (h : p) : indR p = 1 := by unfold indR; exact if_pos h
theorem indR_neg {p : Prop} (h : ¬p) : indR p = 0 := by unfold indR; exact if_neg h

theorem ind_eq_coe (p : Prop) : ind p = ((indR p : ℝ) : EReal) := by
  by_cases h : p
  · rw [ind_pos h, indR_pos h, EReal.coe_one]
  · rw [ind_neg h, indR_neg h, EReal.coe_zero]

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of indicators is the coercion of a real number. -/
theorem sum_ind_eq_coe {ι : Type} [Fintype ι] (p : ι → Prop) :
    ∑ i, ind (p i) = ((∑ i, indR (p i) : ℝ) : EReal) := by
  rw [coe_sum]; exact Finset.sum_congr rfl fun i _ => ind_eq_coe _

theorem below_eq_coe (tile : Fin 2048 → EReal) (t : EReal) :
    below tile t = ((∑ s, indR (tile s < t) : ℝ) : EReal) := by
  unfold below; rw [z32_eq, zero_add, sum_ind_eq_coe]

theorem nvalid_eq_coe (tile : Fin 2048 → EReal) :
    nvalid tile = ((∑ s, indR (((0 : ℝ) : EReal) ≤ tile s ∧ tile s ≤ ((10 : ℝ) : EReal)) : ℝ) : EReal) := by
  unfold nvalid; rw [z32_eq, zero_add, thr_zero, thr_ten, sum_ind_eq_coe]

/-- Below `b` but not below `a ≤ b` is: in `[a, b)`. -/
theorem indR_sub_lt (x : EReal) {a b : ℝ} (hab : a ≤ b) :
    indR (x < (b : EReal)) - indR (x < (a : EReal)) = indR ((a : EReal) ≤ x ∧ x < (b : EReal)) := by
  by_cases ha : x < (a : EReal)
  · have hb : x < (b : EReal) := lt_of_lt_of_le ha (EReal.coe_le_coe_iff.mpr hab)
    rw [indR_pos ha, indR_pos hb, indR_neg (fun h => absurd ha (not_lt.mpr h.1)), sub_self]
  · by_cases hb : x < (b : EReal)
    · rw [indR_neg ha, indR_pos hb, indR_pos ⟨not_lt.mp ha, hb⟩, sub_zero]
    · rw [indR_neg ha, indR_neg hb, indR_neg (fun h => hb h.2), sub_zero]

/-- In `[0, 10]`, not below `9`, or else below `0`, is: in `[9, 10]`. -/
theorem indR_last (x : EReal) :
    indR (((0 : ℝ) : EReal) ≤ x ∧ x ≤ ((10 : ℝ) : EReal)) - indR (x < ((9 : ℝ) : EReal)) + indR (x < ((0 : ℝ) : EReal))
      = indR (((9 : ℝ) : EReal) ≤ x ∧ x ≤ ((10 : ℝ) : EReal)) := by
  have h09 : ((0 : ℝ) : EReal) ≤ ((9 : ℝ) : EReal) := EReal.coe_le_coe_iff.mpr (by norm_num)
  have h910 : ((9 : ℝ) : EReal) ≤ ((10 : ℝ) : EReal) := EReal.coe_le_coe_iff.mpr (by norm_num)
  by_cases h0 : x < ((0 : ℝ) : EReal)
  · have h9 : x < ((9 : ℝ) : EReal) := lt_of_lt_of_le h0 h09
    rw [indR_neg (fun h => absurd h0 (not_lt.mpr h.1)), indR_pos h9, indR_pos h0,
      indR_neg (fun h => absurd h9 (not_lt.mpr h.1))]
    norm_num
  · by_cases h9 : x < ((9 : ℝ) : EReal)
    · have h10 : x ≤ ((10 : ℝ) : EReal) := le_of_lt (lt_of_lt_of_le h9 h910)
      rw [indR_pos ⟨not_lt.mp h0, h10⟩, indR_pos h9, indR_neg h0, indR_neg (fun h => absurd h9 (not_lt.mpr h.1))]
      norm_num
    · have h0' : ((0 : ℝ) : EReal) ≤ x := le_trans h09 (not_lt.mp h9)
      by_cases h10 : x ≤ ((10 : ℝ) : EReal)
      · rw [indR_pos ⟨h0', h10⟩, indR_neg h9, indR_neg h0, indR_pos ⟨not_lt.mp h9, h10⟩]
        norm_num
      · rw [indR_neg (fun h => h10 h.2), indR_neg h9, indR_neg h0, indR_neg (fun h => h10 h.2)]
        norm_num

theorem inBin_of_lt {b : Fin 10} (hb : b.val < 9) (x : EReal) :
    inBin b x = (((b.val : ℝ) : EReal) ≤ x ∧ x < (((b.val + 1 : ℕ) : ℝ) : EReal)) := by
  unfold inBin; rw [if_neg (Nat.ne_of_lt hb), Nat.cast_add_one]

theorem inBin_of_eq {b : Fin 10} (hb : b.val = 9) (x : EReal) :
    inBin b x = (((9 : ℝ) : EReal) ≤ x ∧ x ≤ ((10 : ℝ) : EReal)) := by
  unfold inBin; rw [if_pos hb, hb, Nat.cast_ofNat]

/-- One tile's contribution to a lane, as a real number: how many of the tile's entries lie in the lane's bin. -/
def kR (tile : Fin 2048 → EReal) (l : Fin 128) : ℝ :=
  if hl : l.val < 10 then ∑ s, indR (inBin ⟨l.val, hl⟩ (tile s)) else 0

theorem kTile_eq_coe (tile : Fin 2048 → EReal) (l : Fin 128) : kTile tile l = ((kR tile l : ℝ) : EReal) := by
  unfold kTile kR
  by_cases h9 : l.val < 9
  · have hl : l.val < 10 := Nat.lt_succ_of_lt h9
    rw [dif_pos h9, dif_pos hl, below_eq_coe, below_eq_coe, thr_eq, thr_eq, ← EReal.coe_sub,
      ← Finset.sum_sub_distrib]
    refine congrArg _ (Finset.sum_congr rfl fun s _ => ?_)
    exact (indR_sub_lt (tile s) (Nat.cast_le.mpr (Nat.le_succ l.val))).trans
      (congrArg indR (inBin_of_lt (b := ⟨l.val, hl⟩) h9 (tile s)).symm)
  · by_cases h9' : l.val = 9
    · have hl : l.val < 10 := by omega
      rw [dif_neg h9, if_pos h9', dif_pos hl, nvalid_eq_coe, below_eq_coe, below_eq_coe, thr_nine, thr_zero,
        ← EReal.coe_sub, ← EReal.coe_add, ← Finset.sum_sub_distrib, ← Finset.sum_add_distrib]
      refine congrArg _ (Finset.sum_congr rfl fun s _ => ?_)
      exact (indR_last (tile s)).trans (congrArg indR (inBin_of_eq (b := ⟨l.val, hl⟩) h9' (tile s)).symm)
    · rw [dif_neg h9, if_neg h9', dif_neg (by omega), z32_eq, EReal.coe_zero]

/-- The accumulation over the tiles `0 … k`, as the coercion of a real sum. -/
theorem accK_eq_coe (tiles : ℕ → Fin 2048 → EReal) (l : Fin 128) :
    ∀ k : ℕ, accK tiles k l = ((∑ i ∈ Finset.range (k + 1), kR (tiles i) l : ℝ) : EReal)
  | 0 => by
    rw [accK, z32_eq, zero_add, kTile_eq_coe, Finset.sum_range_one]
  | k + 1 => by
    rw [accK, accK_eq_coe tiles l k, kTile_eq_coe, ← EReal.coe_add, ← Finset.sum_range_succ]

/-- Differences of threshold counts, accumulated tile by tile over the eight tiles of a row, are the bin counts of
    the whole row (lanes from the tenth on stay zero). -/
theorem accK_eq_cnt (tiles : ℕ → Fin 2048 → EReal) (row : Fin 16384 → EReal)
    (h : ∀ (k : ℕ) (hk : k < 8) (s : Fin 2048), tiles k s = row ⟨2048 * k + s.val, by have := s.isLt; omega⟩)
    (l : Fin 128) : accK tiles 7 l = padRow (cnt row) l := by
  rw [accK_eq_coe]
  unfold padRow
  by_cases hl : l.val < 10
  · rw [dif_pos hl]
    unfold cnt
    rw [sum_ind_eq_coe]
    refine congrArg _ ?_
    have e1 : ∑ i ∈ Finset.range (7 + 1), kR (tiles i) l = ∑ k : Fin 8, kR (tiles k.val) l :=
      (Fin.sum_univ_eq_sum_range (fun i => kR (tiles i) l) 8).symm
    have e2 : ∑ t : Fin 16384, indR (inBin ⟨l.val, hl⟩ (row t))
        = ∑ k : Fin 8, ∑ s : Fin 2048, indR (inBin ⟨l.val, hl⟩ (row (finProdFinEquiv (k, s)))) :=
      ((Equiv.sum_comp (finProdFinEquiv (m := 8) (n := 2048))
        (fun t : Fin 16384 => indR (inBin ⟨l.val, hl⟩ (row t)))).symm).trans (Fintype.sum_prod_type _)
    rw [e1, e2]
    refine Finset.sum_congr rfl fun k _ => ?_
    unfold kR
    rw [dif_pos hl]
    refine Finset.sum_congr rfl fun s _ => ?_
    rw [h k.val k.isLt s]
    exact congrArg (fun t => indR (inBin ⟨l.val, hl⟩ (row t))) (Fin.ext (Nat.add_comm _ _))
  · rw [dif_neg hl]
    have hz : ∀ i, kR (tiles i) l = 0 := fun i => by unfold kR; exact dif_neg hl
    simp only [hz, Finset.sum_const_zero, EReal.coe_zero]

end Cert.HistMlp

end
-- ==== Proof.KernelValue.lean ====
/-
  The kernel's result array, entry by entry, is the specification. Row `512 I + p` of the result is the 128-lane
  network of the counts accumulated for that row over the eight tiles; the accumulated counts are the bin counts of the
  whole row padded with zeros, the first-layer weights are padded with zero rows, and the padded network is the ten-bin
  network.
-/
import proofs.«126141_j10033043603497_2_alg».proof.Proof.KernelBlocks
import proofs.«126141_j10033043603497_2_alg».proof.Proof.PayloadIdx
import proofs.«126141_j10033043603497_2_alg».proof.Proof.HostPrelude
import proofs.«126141_j10033043603497_2_alg».proof.Proof.Algebra

noncomputable section

namespace Cert.KernelIdeal.HistValue

open Cert.KernelIdeal Cert.KernelIdeal.Gen Cert.HistMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Row `p` of the tiles of row block `I`, as the counting lemmas take them: tile `k` for `k < 8`. -/
def rowTiles (c : Dev nD) (I : Fin 8) (p : Fin 512) : ℕ → Fin 2048 → EReal :=
  fun k s => if h : k < 8 then (iblk m c 0 (pt I k h) : Vec Ideal S512x2048 .f32) (ix2 p s) else 0

theorem rowTiles_of_lt (c : Dev nD) (I : Fin 8) (p : Fin 512) (k : ℕ) (hk : k < 8) :
    rowTiles m c I p k = fun s => (iblk m c 0 (pt I k hk) : Vec Ideal S512x2048 .f32) (ix2 p s) :=
  funext fun s => dif_pos hk

/-- The scratch lanes after tile `k`, at row `p`, lane `l`: the accumulation of the row's tile counts. -/
theorem accBlk_apply (c : Dev nD) (I : Fin 8) (p : Fin 512) (l : Fin 128) :
    ∀ (k : ℕ) (hk : k < 8), accBlk m c I k hk (ix2 p l) = accK (rowTiles m c I p) k l
  | 0, hk => by
    unfold accBlk accK
    refine (pay1_apply _ _ _).trans ?_
    rw [pay6_apply, rowTiles_of_lt m c I p 0 hk]
    exact congrArg (z32 + ·) (tileCounts_apply (iblk m c 0 (pt I 0 hk)) p l)
  | k + 1, hk => by
    unfold accBlk accK
    refine (pay1_apply _ _ _).trans ?_
    rw [accBlk_apply c I p l k (Nat.lt_of_succ_lt hk), rowTiles_of_lt m c I p (k + 1) hk]
    exact congrArg (accK (rowTiles m c I p) k l + ·) (tileCounts_apply (iblk m c 0 (pt I (k + 1) hk)) p l)

/-- The result array after the run is the specification of the argument arrays. -/
theorem final_eq_G (c : Dev nD) :
    (dats m 0 c).arrAt 9 cfg0.N
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  funext i
  obtain ⟨r, j, rfl⟩ : ∃ (r : Fin 4096) (j : Fin 128), i = ix2 r j := ⟨i 0, i 1, eq_ix2 i⟩
  obtain ⟨I, p, rfl⟩ : ∃ (I : Fin 8) (p : Fin 512),
      r = ⟨512 * I.val + p.val, by have := I.isLt; have := p.isLt; omega⟩ :=
    ⟨⟨r.val / 512, by have := r.isLt; omega⟩, ⟨r.val % 512, Nat.mod_lt _ (by norm_num)⟩,
      Fin.ext (by show r.val = 512 * (r.val / 512) + r.val % 512; omega)⟩
  refine (final9_apply m c I p j).trans ?_
  refine (mlp_apply _ _ _ _ _ _ _ _ _ p j).trans ?_
  have hacc : (fun l => accBlk m c I 7 (by omega) (ix2 p l))
      = padRow (cnt (fun s => m ((c : Thread nD τ).loc main_arg0)
          (ix2 (⟨512 * I.val + p.val, by have := I.isLt; have := p.isLt; omega⟩ : Fin 4096) s))) :=
    funext fun l => (accBlk_apply m c I p l 7 (by omega)).trans
      (accK_eq_cnt _ _ (fun k hk s => by
        rw [rowTiles_of_lt m c I p k hk]
        exact (iblk0_apply m c I k hk p s).trans (congrFun (V_main_arg0 m c) _)) l)
  have hw1 : (fun l j' => (iblk m c 1 (pt I 7 (by omega)) : Vec Ideal S128x128 .f32) (ix2 l j'))
      = padW (fun b j' => m ((c : Thread nD τ).loc main_arg1) (ix2 b j' : S10x128.Idx)) :=
    funext fun l => funext fun j' => (iblk1_apply m c _ l j').trans (V_v2_apply m c l j')
  have hb1 : (fun j' => (iblk m c 2 (pt I 7 (by omega)) : Vec Ideal S1x128 .f32) (ix2 (0 : Fin 1) j'))
      = fun j' => m ((c : Thread nD τ).loc main_arg2) (ix1 j' : S128.Idx) :=
    funext fun j' => (iblk2_apply m c _ j').trans (V_v3_apply m c j')
  have hg1 : (fun j' => (iblk m c 3 (pt I 7 (by omega)) : Vec Ideal S1x128 .f32) (ix2 (0 : Fin 1) j'))
      = fun j' => m ((c : Thread nD τ).loc main_arg3) (ix1 j' : S128.Idx) :=
    funext fun j' => (iblk3_apply m c _ j').trans (V_v4_apply m c j')
  have hbe1 : (fun j' => (iblk m c 4 (pt I 7 (by omega)) : Vec Ideal S1x128 .f32) (ix2 (0 : Fin 1) j'))
      = fun j' => m ((c : Thread nD τ).loc main_arg4) (ix1 j' : S128.Idx) :=
    funext fun j' => (iblk4_apply m c _ j').trans (V_v5_apply m c j')
  have hw2 : (fun k j' => (iblk m c 5 (pt I 7 (by omega)) : Vec Ideal S128x128 .f32) (ix2 k j'))
      = fun k j' => m ((c : Thread nD τ).loc main_arg5) (ix2 k j' : S128x128.Idx) :=
    funext fun k => funext fun j' => (iblk5_apply m c _ k j').trans (congrFun (V_main_arg5 m c) _)
  have hb2 : (fun j' => (iblk m c 6 (pt I 7 (by omega)) : Vec Ideal S1x128 .f32) (ix2 (0 : Fin 1) j'))
      = fun j' => m ((c : Thread nD τ).loc main_arg6) (ix1 j' : S128.Idx) :=
    funext fun j' => (iblk6_apply m c _ j').trans (V_v6_apply m c j')
  have hg2 : (fun j' => (iblk m c 7 (pt I 7 (by omega)) : Vec Ideal S1x128 .f32) (ix2 (0 : Fin 1) j'))
      = fun j' => m ((c : Thread nD τ).loc main_arg7) (ix1 j' : S128.Idx) :=
    funext fun j' => (iblk7_apply m c _ j').trans (V_v7_apply m c j')
  have hbe2 : (fun j' => (iblk m c 8 (pt I 7 (by omega)) : Vec Ideal S1x128 .f32) (ix2 (0 : Fin 1) j'))
      = fun j' => m ((c : Thread nD τ).loc main_arg8) (ix1 j' : S128.Idx) :=
    funext fun j' => (iblk8_apply m c _ j').trans (V_v8_apply m c j')
  rw [hacc, hw1, hb1, hg1, hbe1, hw2, hb2, hg2, hbe2]
  exact congrFun (netK_pad _ _ _ _ _ _ _ _ _) j

end Cert.KernelIdeal.HistValue

end
-- ==== Proof.LibScatterRows.lean ====
/-
  The host's accumulating float scatter (`.at[idx].add`, a segment sum) read at one element, at the ideal instance:
  rows of a matrix scattered by row number, and a vector scattered by element number.

  The dimension numbers are the ones such a scatter is written with: the scatter indices are an `[N, 1]` array whose
  second axis holds the one-component index vector, that component names the operand's axis 0, which is an inserted
  window axis; the update's remaining axis (the columns, for rows) is the window axis. Update element `(p, c)` then
  lands at operand element `(idx[p, 0], c)` (the index read signed, NOT clamped), or nowhere when `idx[p, 0]` is
  outside `[0, R)`; so element `(r, k)` of the result collects exactly the update elements `(p, k)` with
  `idx[p, 0] = r`.
-/
import Idealize.ShloMosaic.PureOps.Ideal
import Idealize.ShloMosaic.Lib.ValueIdx

noncomputable section

namespace Cert.LibScatterRows

open Idealize.ShloMosaic Idealize.ShloMosaic.ValueIdx
open scoped BigOperators

section Rows
variable {R N K : Nat}

/-- The dimension numbers of a scatter of rows by row number. -/
abbrev rowsDims (wf : ScatterDims.WF (⟨2, ![R, K]⟩ : Shape) (⟨2, ![N, 1]⟩ : Shape) (⟨2, ![N, K]⟩ : Shape) [1] [0] [0] 1) :
    ScatterDims (⟨2, ![R, K]⟩ : Shape) (⟨2, ![N, 1]⟩ : Shape) (⟨2, ![N, K]⟩ : Shape) where
  updateWindowDims := [1]
  insertedWindowDims := [0]
  scatterDimsToOperandDims := [0]
  indexVectorDim := 1
  wf := wf

set_option maxHeartbeats 400000 in
/-- The start of update element `(p, c)`'s window on the operand's row axis is the `p`-th scatter index, read signed. -/
theorem rows_start_zero (wf) {w : Nat} (idx : IVec (⟨2, ![N, 1]⟩ : Shape) w) (p : Fin N) (c : Fin K) :
    (rowsDims (R := R) wf).start (ix2 p c) idx 0 = (idx (ix2 p (0 : Fin 1))).toInt := by
  unfold ScatterDims.start
  rw [dif_pos (show (0 : Fin 2) ∈ (rowsDims (R := R) (N := N) (K := K) wf).scatterDimsToOperandDims from List.mem_singleton.mpr rfl)]
  congr 2
  funext b
  refine Fin.ext ?_
  match b with
  | ⟨0, _⟩ => rfl
  | ⟨1, _⟩ => rfl

set_option maxHeartbeats 400000 in
/-- The scatter indices do not name the operand's column axis: the window starts at `0` on it. -/
theorem rows_start_one (wf) {w : Nat} (idx : IVec (⟨2, ![N, 1]⟩ : Shape) w) (j : (⟨2, ![N, K]⟩ : Shape).Idx) :
    (rowsDims (R := R) wf).start j idx 1 = 0 := by
  unfold ScatterDims.start
  rw [dif_neg (show (1 : Fin 2) ∉ [(0 : Fin 2)] from by decide)]

set_option maxHeartbeats 400000 in
/-- The operand's row axis is an inserted window axis: the window coordinate on it is `0`. -/
theorem rows_window_zero (wf) (j : (⟨2, ![N, K]⟩ : Shape).Idx) :
    (rowsDims (R := R) wf).window j 0 = 0 := by
  unfold ScatterDims.window
  exact dif_neg (show (0 : Fin 2) ∉ (List.finRange 2).filter (fun a => a ∉ [(0 : Fin 2)]) from by decide)

set_option maxHeartbeats 400000 in
/-- The window coordinate on the operand's column axis is the update element's column. -/
theorem rows_window_one (wf) (j : (⟨2, ![N, K]⟩ : Shape).Idx) :
    (rowsDims (R := R) wf).window j 1 = (j 1).val := by
  unfold ScatterDims.window
  exact (dif_pos (show (1 : Fin 2) ∈ (List.finRange 2).filter (fun a => a ∉ [(0 : Fin 2)]) from by decide)).trans rfl

set_option maxHeartbeats 400000 in
/-- The landing place of update element `(p, c)` is operand element `(r, k)` exactly when the `p`-th scatter index,
    read signed, is `r` and the column is the same (`c = k`); an index outside `[0, R)` lands nowhere. -/
theorem rows_resultIdx?_eq_some_iff
    (wf : ScatterDims.WF (⟨2, ![R, K]⟩ : Shape) (⟨2, ![N, 1]⟩ : Shape) (⟨2, ![N, K]⟩ : Shape) [1] [0] [0] 1)
    {w : Nat} (idx : IVec (⟨2, ![N, 1]⟩ : Shape) w) (p : Fin N) (c : Fin K) (r : Fin R) (k : Fin K) :
    (rowsDims (R := R) wf).resultIdx? (ix2 p c) idx = some (ix2 r k)
      ↔ (idx (ix2 p (0 : Fin 1))).toInt = (r.val : Int) ∧ c = k := by
  have h0 : (rowsDims (R := R) wf).start (ix2 p c) idx 0 + ((rowsDims (R := R) wf).window (ix2 p c) 0 : Int)
      = (idx (ix2 p (0 : Fin 1))).toInt := by
    rw [rows_start_zero, rows_window_zero]; exact Int.add_zero _
  have h1 : (rowsDims (R := R) wf).start (ix2 p c) idx 1 + ((rowsDims (R := R) wf).window (ix2 p c) 1 : Int)
      = (c.val : Int) := by
    rw [rows_start_one, rows_window_one]; exact Int.zero_add _
  unfold ScatterDims.resultIdx?
  split
  · rename_i h
    rw [Option.some.injEq]
    constructor
    · intro e
      have e0 : ((rowsDims (R := R) wf).start (ix2 p c) idx 0
          + ((rowsDims (R := R) wf).window (ix2 p c) 0 : Int)).toNat = r.val :=
        congrArg (fun f : (⟨2, ![R, K]⟩ : Shape).Idx => (f 0).val) e
      have e1 : ((rowsDims (R := R) wf).start (ix2 p c) idx 1
          + ((rowsDims (R := R) wf).window (ix2 p c) 1 : Int)).toNat = k.val :=
        congrArg (fun f : (⟨2, ![R, K]⟩ : Shape).Idx => (f 1).val) e
      have g0 := (h 0).1
      rw [h0] at e0 g0
      rw [h1] at e1
      exact ⟨by omega, Fin.ext (by omega)⟩
    · rintro ⟨ht, hc⟩
      funext a
      refine Fin.ext ?_
      match a with
      | ⟨0, _⟩ =>
        show ((rowsDims (R := R) wf).start (ix2 p c) idx 0
          + ((rowsDims (R := R) wf).window (ix2 p c) 0 : Int)).toNat = r.val
        rw [h0, ht]; exact Int.toNat_natCast _
      | ⟨1, _⟩ =>
        show ((rowsDims (R := R) wf).start (ix2 p c) idx 1
          + ((rowsDims (R := R) wf).window (ix2 p c) 1 : Int)).toNat = k.val
        rw [h1, hc]; exact Int.toNat_natCast _
  · rename_i h
    constructor
    · intro e; cases e
    · rintro ⟨ht, hc⟩
      exfalso; apply h
      intro a
      match a with
      | ⟨0, _⟩ =>
        show 0 ≤ (rowsDims (R := R) wf).start (ix2 p c) idx 0 + ((rowsDims (R := R) wf).window (ix2 p c) 0 : Int)
          ∧ (rowsDims (R := R) wf).start (ix2 p c) idx 0 + ((rowsDims (R := R) wf).window (ix2 p c) 0 : Int) < (R : Int)
        rw [h0, ht]; have := r.isLt; omega
      | ⟨1, _⟩ =>
        show 0 ≤ (rowsDims (R := R) wf).start (ix2 p c) idx 1 + ((rowsDims (R := R) wf).window (ix2 p c) 1 : Int)
          ∧ (rowsDims (R := R) wf).start (ix2 p c) idx 1 + ((rowsDims (R := R) wf).window (ix2 p c) 1 : Int) < (K : Int)
        rw [h1]; have := c.isLt; omega

set_option maxHeartbeats 400000 in
/-- Rows scattered by row number, read at one element, for the literal dimension numbers: element `(r, k)` of the
    result is the operand's element plus the sum, over the update rows `p` whose scatter index is `r`, of the update's
    element `(p, k)`. -/
theorem hostScatterAdd_rowsDims_apply
    (wf : ScatterDims.WF (⟨2, ![R, K]⟩ : Shape) (⟨2, ![N, 1]⟩ : Shape) (⟨2, ![N, K]⟩ : Shape) [1] [0] [0] 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd (rowsDims wf) x idx upd (ix2 r k)
      = x (ix2 r k) + ∑ p ∈ Finset.univ.filter (fun p : Fin N => (idx (ix2 p (0 : Fin 1))).toInt = (r.val : Int)),
          upd (ix2 p k) := by
  unfold Ideal.hostScatterAdd
  congr 1
  symm
  refine Finset.sum_bij (fun p _ => ix2 p k) ?_ ?_ ?_ ?_
  · intro p hp
    rw [Finset.mem_filter] at hp ⊢
    exact ⟨Finset.mem_univ _, (rows_resultIdx?_eq_some_iff wf idx p k r k).mpr ⟨hp.2, rfl⟩⟩
  · intro p _ q _ e
    exact congrArg (fun f : (⟨2, ![N, K]⟩ : Shape).Idx => f 0) e
  · intro j hj
    rw [Finset.mem_filter] at hj
    obtain ⟨p, c, rfl⟩ : ∃ p c, j = ix2 p c := ⟨j 0, j 1, eq_ix2 j⟩
    have hpc := (rows_resultIdx?_eq_some_iff wf idx p c r k).mp hj.2
    refine ⟨p, Finset.mem_filter.mpr ⟨Finset.mem_univ _, hpc.1⟩, ?_⟩
    rw [hpc.2]
  · intro p _; rfl

/-- Rows of width `K` scattered by row number (`x.at[idx].add(upd)` over rows), read at one element: element
    `(r, k)` of the result is `x (r, k)` plus the sum of `upd (p, k)` over the update rows `p` whose scatter index, read
    signed, is `r`. Update rows whose index is outside `[0, R)` contribute nothing. -/
theorem hostScatterAdd_rows_apply
    (d : ScatterDims (⟨2, ![R, K]⟩ : Shape) (⟨2, ![N, 1]⟩ : Shape) (⟨2, ![N, K]⟩ : Shape))
    (huw : d.updateWindowDims = [1]) (hiw : d.insertedWindowDims = [0]) (hsd : d.scatterDimsToOperandDims = [0])
    (hiv : d.indexVectorDim = 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd d x idx upd (ix2 r k)
      = x (ix2 r k) + ∑ p ∈ Finset.univ.filter (fun p : Fin N => (idx (ix2 p (0 : Fin 1))).toInt = (r.val : Int)),
          upd (ix2 p k) := by
  obtain ⟨uw, iw, sd, iv, wf⟩ := d
  dsimp only at huw hiw hsd hiv
  subst huw hiw hsd hiv
  exact hostScatterAdd_rowsDims_apply wf x idx upd r k

end Rows

section Vec
variable {R N : Nat}

/-- The dimension numbers of a scatter of a vector's elements by element number. -/
abbrev vecDims (wf : ScatterDims.WF (⟨1, ![R]⟩ : Shape) (⟨2, ![N, 1]⟩ : Shape) (⟨1, ![N]⟩ : Shape) [] [0] [0] 1) :
    ScatterDims (⟨1, ![R]⟩ : Shape) (⟨2, ![N, 1]⟩ : Shape) (⟨1, ![N]⟩ : Shape) where
  updateWindowDims := []
  insertedWindowDims := [0]
  scatterDimsToOperandDims := [0]
  indexVectorDim := 1
  wf := wf

set_option maxHeartbeats 400000 in
/-- The start of update element `p`'s window on the operand's one axis is the `p`-th scatter index, read signed. -/
theorem vec_start_zero (wf) {w : Nat} (idx : IVec (⟨2, ![N, 1]⟩ : Shape) w) (p : Fin N) :
    (vecDims (R := R) wf).start (ix1 p) idx 0 = (idx (ix2 p (0 : Fin 1))).toInt := by
  unfold ScatterDims.start
  rw [dif_pos (show (0 : Fin 1) ∈ (vecDims (R := R) (N := N) wf).scatterDimsToOperandDims from List.mem_singleton.mpr rfl)]
  congr 2
  funext b
  refine Fin.ext ?_
  match b with
  | ⟨0, _⟩ => rfl
  | ⟨1, _⟩ => rfl

set_option maxHeartbeats 400000 in
/-- The operand's one axis is an inserted window axis: the window coordinate on it is `0`. -/
theorem vec_window_zero (wf) (j : (⟨1, ![N]⟩ : Shape).Idx) :
    (vecDims (R := R) wf).window j 0 = 0 := by
  unfold ScatterDims.window
  exact dif_neg (show (0 : Fin 1) ∉ (List.finRange 1).filter (fun a => a ∉ [(0 : Fin 1)]) from by decide)

set_option maxHeartbeats 400000 in
/-- The landing place of update element `p` is operand element `r` exactly when the `p`-th scatter index, read
    signed, is `r`; an index outside `[0, R)` lands nowhere. -/
theorem vec_resultIdx?_eq_some_iff
    (wf : ScatterDims.WF (⟨1, ![R]⟩ : Shape) (⟨2, ![N, 1]⟩ : Shape) (⟨1, ![N]⟩ : Shape) [] [0] [0] 1)
    {w : Nat} (idx : IVec (⟨2, ![N, 1]⟩ : Shape) w) (p : Fin N) (r : Fin R) :
    (vecDims (R := R) wf).resultIdx? (ix1 p) idx = some (ix1 r)
      ↔ (idx (ix2 p (0 : Fin 1))).toInt = (r.val : Int) := by
  have h0 : (vecDims (R := R) wf).start (ix1 p) idx 0 + ((vecDims (R := R) wf).window (ix1 p) 0 : Int)
      = (idx (ix2 p (0 : Fin 1))).toInt := by
    rw [vec_start_zero, vec_window_zero]; exact Int.add_zero _
  unfold ScatterDims.resultIdx?
  split
  · rename_i h
    rw [Option.some.injEq]
    constructor
    · intro e
      have e0 : ((vecDims (R := R) wf).start (ix1 p) idx 0
          + ((vecDims (R := R) wf).window (ix1 p) 0 : Int)).toNat = r.val :=
        congrArg (fun f : (⟨1, ![R]⟩ : Shape).Idx => (f 0).val) e
      have g0 := (h 0).1
      rw [h0] at e0 g0
      omega
    · intro ht
      funext a
      refine Fin.ext ?_
      match a with
      | ⟨0, _⟩ =>
        show ((vecDims (R := R) wf).start (ix1 p) idx 0
          + ((vecDims (R := R) wf).window (ix1 p) 0 : Int)).toNat = r.val
        rw [h0, ht]; exact Int.toNat_natCast _
  · rename_i h
    constructor
    · intro e; cases e
    · intro ht
      exfalso; apply h
      intro a
      match a with
      | ⟨0, _⟩ =>
        show 0 ≤ (vecDims (R := R) wf).start (ix1 p) idx 0 + ((vecDims (R := R) wf).window (ix1 p) 0 : Int)
          ∧ (vecDims (R := R) wf).start (ix1 p) idx 0 + ((vecDims (R := R) wf).window (ix1 p) 0 : Int) < (R : Int)
        rw [h0, ht]; have := r.isLt; omega

set_option maxHeartbeats 400000 in
/-- A vector scattered by element number, read at one element, for the literal dimension numbers: element `r` of the
    result is the operand's element plus the sum of the update elements `p` whose scatter index is `r`. -/
theorem hostScatterAdd_vecDims_apply
    (wf : ScatterDims.WF (⟨1, ![R]⟩ : Shape) (⟨2, ![N, 1]⟩ : Shape) (⟨1, ![N]⟩ : Shape) [] [0] [0] 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd (vecDims wf) x idx upd (ix1 r)
      = x (ix1 r) + ∑ p ∈ Finset.univ.filter (fun p : Fin N => (idx (ix2 p (0 : Fin 1))).toInt = (r.val : Int)),
          upd (ix1 p) := by
  unfold Ideal.hostScatterAdd
  congr 1
  symm
  refine Finset.sum_bij (fun p _ => ix1 p) ?_ ?_ ?_ ?_
  · intro p hp
    rw [Finset.mem_filter] at hp ⊢
    exact ⟨Finset.mem_univ _, (vec_resultIdx?_eq_some_iff wf idx p r).mpr hp.2⟩
  · intro p _ q _ e
    exact congrArg (fun f : (⟨1, ![N]⟩ : Shape).Idx => f 0) e
  · intro j hj
    rw [Finset.mem_filter] at hj
    obtain ⟨p, rfl⟩ : ∃ p, j = ix1 p := ⟨j 0, eq_ix1 j⟩
    exact ⟨p, Finset.mem_filter.mpr ⟨Finset.mem_univ _, (vec_resultIdx?_eq_some_iff wf idx p r).mp hj.2⟩, rfl⟩
  · intro p _; rfl

/-- A vector scattered by element number (`x.at[idx].add(upd)`, a segment sum), read at one element: element `r` of
    the result is `x r` plus the sum of `upd p` over the update elements `p` whose scatter index, read signed, is `r`.
    Update elements whose index is outside `[0, R)` contribute nothing. -/
theorem hostScatterAdd_vec_apply
    (d : ScatterDims (⟨1, ![R]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd d x idx upd (ix1 r)
      = x (ix1 r) + ∑ p ∈ Finset.univ.filter (fun p : Fin N => (idx (ix2 p (0 : Fin 1))).toInt = (r.val : Int)),
          upd (ix1 p) := by
  obtain ⟨uw, iw, sd, iv, wf⟩ := d
  dsimp only at huw hiw hsd hiv
  subst huw hiw hsd hiv
  exact hostScatterAdd_vecDims_apply wf x idx upd r

end Vec

end Cert.LibScatterRows

end
-- ==== Proof.RefHistSum.lean ====
/-
  A sum over the 67108864 flat positions of a 4096 by 16384 array is the double sum over rows and columns:
  the flat position of the entry `(r', s)` is `16384 r' + s`, and every flat position is of that form exactly once.
-/
import proofs.«126141_j10033043603497_2_alg».proof.Proof.Spec

noncomputable section

namespace Cert.ReferenceIdeal.HistSum

open scoped BigOperators

/-- A sum over `Fin (m * n)` is the double sum over the pairs `(a, b)`, through the bijection
    `(a, b) ↦ b + n a` of `Fin m × Fin n` with `Fin (m * n)`. -/
theorem sum_prod_flat (m n : ℕ) (f : Fin (m * n) → EReal) :
    ∑ p : Fin (m * n), f p = ∑ a : Fin m, ∑ b : Fin n, f (finProdFinEquiv (a, b)) := by
  rw [← Fintype.sum_prod_type (f := fun x : Fin m × Fin n => f (finProdFinEquiv x))]
  exact (Fintype.sum_equiv finProdFinEquiv _ _ (fun _ => rfl)).symm

/-- The sum over the flat positions of a 4096 by 16384 array, row by row. -/
theorem sum_flat (f : Fin 67108864 → EReal) :
    ∑ p : Fin 67108864, f p = ∑ r' : Fin 4096, ∑ s : Fin 16384, f ⟨r'.val * 16384 + s.val, by have := r'.isLt; have := s.isLt; omega⟩ := by
  refine (sum_prod_flat 4096 16384 f).trans ?_
  refine Finset.sum_congr rfl fun a _ => Finset.sum_congr rfl fun b _ => congrArg f (Fin.ext ?_)
  show b.val + 16384 * a.val = a.val * 16384 + b.val
  omega

end Cert.ReferenceIdeal.HistSum

end
-- ==== Proof.RefHist.lean ====
/-
  The reference's histogram read at one entry, at the ideal instance: the scattered sum of validity flags at flat
  position `10 r + b` collects exactly the entries of row `r` whose clipped integer part is `b`; an entry outside
  `[0, 10]` carries the flag zero, and an entry of `[0, 10]` has clipped integer part `b` exactly when it lies in bin `b`.
-/
import proofs.«126141_j10033043603497_2_alg».proof.Proof.Gen.ReferenceIdeal.Read
import proofs.«126141_j10033043603497_2_alg».proof.Proof.Spec
import proofs.«126141_j10033043603497_2_alg».proof.Proof.LibScatterRows
import proofs.«126141_j10033043603497_2_alg».proof.Proof.RefHistSum
import Idealize.ShloMosaic.Lib.ValueIdx
import Idealize.ShloMosaic.Lib.Pipeline.Value
import Idealize.ShloMosaic.PureOps.Ideal.Laws

noncomputable section

namespace Cert.ReferenceIdeal.HistValue

open Cert.ReferenceIdeal Cert.ReferenceIdeal.Read Cert.HistMlp
open Idealize.ShloMosaic Idealize.ShloMosaic.ValueIdx
open scoped BigOperators

/-- The clipped integer part of an entry, as the program computes it. -/
def cidx (x : EReal) : BitVec 32 :=
  IntOp.minsi 9#32 (IntOp.maxsi 0#32 (Ideal.fptosi 32 (Ideal.liftRound Int.floor x)))

/-- The validity flag of an entry, as the program computes it. -/
def flag (x : EReal) : EReal :=
  (((IntOp.andi (Ideal.cmp .oge x (Ideal.ofBits .f32 0x00000000#32))
      (Ideal.cmp .ole x (Ideal.ofBits .f32 0x41200000#32))).toNat : ℝ) : EReal)

theorem ofInt_toInt (n : Int) (h1 : -2147483648 ≤ n) (h2 : n < 2147483648) :
    (BitVec.ofInt 32 n).toInt = n := by
  rw [BitVec.toInt_ofInt, Int.bmod_def]
  norm_num
  omega

theorem clip_toInt (n : Int) (h1 : -2147483648 ≤ n) (h2 : n < 2147483648) :
    (IntOp.minsi 9#32 (IntOp.maxsi 0#32 (BitVec.ofInt 32 n))).toInt = min 9 (max 0 n) := by
  have hn := ofInt_toInt n h1 h2
  unfold IntOp.minsi IntOp.maxsi
  simp only [BitVec.slt, hn]
  have h0 : (0#32).toInt = 0 := by decide
  have h9 : (9#32).toInt = 9 := by decide
  by_cases c0 : n < 0
  · simp [c0, h0, h9]
    omega
  · simp [c0, h0, h9, hn]
    by_cases c9 : 9 < n
    · simp [c9]; omega
    · simp [c9, hn]; omega

theorem toIntClamped_mem (lo hi : Int) (h : lo ≤ hi) (x : EReal) :
    lo ≤ Ideal.toIntClamped lo hi x ∧ Ideal.toIntClamped lo hi x ≤ hi := by
  induction x using EReal.rec with
  | bot => simp [h]
  | top => simp [h]
  | coe r => rw [Ideal.toIntClamped_coe]; omega

private theorem ten_eq : Ideal.ofBits .f32 0x41200000#32 = ((10 : ℝ) : EReal) := by
  simp [Ideal.ofBits, Ideal.ieee, -EReal.coe_mul]; norm_num

theorem cidx_toInt (x : EReal) :
    (cidx x).toInt = min 9 (max 0 (Ideal.toIntClamped (-2147483648) 2147483647 (Ideal.liftRound Int.floor x))) := by
  unfold cidx Ideal.fptosi
  have e1 : (-((2 ^ (32 - 1) : Nat) : Int)) = -2147483648 := by norm_num
  have e2 : (((2 ^ (32 - 1) : Nat) : Int) - 1) = 2147483647 := by norm_num
  rw [e1, e2]
  have hm := toIntClamped_mem (-2147483648) 2147483647 (by norm_num) (Ideal.liftRound Int.floor x)
  exact clip_toInt _ hm.1 (by omega)

theorem cidx_bounds (x : EReal) : 0 ≤ (cidx x).toInt ∧ (cidx x).toInt ≤ 9 := by
  rw [cidx_toInt]; omega

theorem flag_eq (x : EReal) : flag x = ind ((0 : EReal) ≤ x ∧ x ≤ ((10 : ℝ) : EReal)) := by
  unfold flag
  rw [Ideal.ofBits_zero_f32, ten_eq]
  unfold Ideal.cmp IntOp.andi
  by_cases h1 : (0 : EReal) ≤ x <;> by_cases h2 : x ≤ ((10 : ℝ) : EReal) <;> simp [h1, h2, ind]

theorem inBin_valid (b : Fin 10) (x : EReal) (h : inBin b x) : (0 : EReal) ≤ x ∧ x ≤ ((10 : ℝ) : EReal) := by
  obtain ⟨h1, h2⟩ := h
  constructor
  · refine le_trans ?_ h1
    exact_mod_cast (Nat.cast_nonneg b.val : (0:ℝ) ≤ (b.val : ℝ))
  · split_ifs at h2 with hb
    · exact h2
    · refine le_trans h2.le ?_
      have : b.val + 1 ≤ 10 := by omega
      exact_mod_cast (by exact_mod_cast this : ((b.val : ℝ) + 1) ≤ 10)

/-- The per-entry fact: the flag of an entry counted at its clipped integer part is the indicator of its bin. -/
theorem elem (x : EReal) (b : Fin 10) :
    (if (cidx x).toInt = (b.val : Int) then flag x else 0) = ind (inBin b x) := by
  rw [flag_eq]
  by_cases hv : (0 : EReal) ≤ x ∧ x ≤ ((10 : ℝ) : EReal)
  · rw [ind_pos hv, cidx_toInt]
    induction x using EReal.rec with
    | bot => exact absurd hv.1 (by simp)
    | top => exact absurd hv.2 (by simp)
    | coe r =>
      have h0 : (0:ℝ) ≤ r := by exact_mod_cast hv.1
      have h10 : r ≤ 10 := by exact_mod_cast hv.2
      have f0 : 0 ≤ ⌊r⌋ := Int.floor_nonneg.mpr h0
      have f10 : ⌊r⌋ ≤ 10 := by
        have : ⌊r⌋ ≤ ⌊(10:ℝ)⌋ := Int.floor_le_floor h10
        simpa using this
      rw [Ideal.liftRound_coe, Ideal.toIntClamped_coe]
      simp only [Int.floor_intCast, Int.ceil_intCast, ite_self]
      unfold inBin
      by_cases hb : b.val = 9
      · have hi : (((b.val : ℝ) : EReal) ≤ (r : EReal) ∧ (if b.val = 9 then (r : EReal) ≤ ((10 : ℝ) : EReal) else (r:EReal) < (((b.val : ℝ) + 1 : ℝ) : EReal))) ↔ 9 ≤ ⌊r⌋ := by
          rw [if_pos hb, hb, EReal.coe_le_coe_iff, EReal.coe_le_coe_iff, Int.le_floor]
          push_cast
          exact ⟨fun h => h.1, fun h => ⟨h, h10⟩⟩
        by_cases h9 : 9 ≤ ⌊r⌋
        · rw [ind_pos (hi.mpr h9), if_pos (by omega)]
        · rw [ind_neg (fun h => h9 (hi.mp h)), if_neg (by omega)]
      · have hi : (((b.val : ℝ) : EReal) ≤ (r : EReal) ∧ (if b.val = 9 then (r : EReal) ≤ ((10 : ℝ) : EReal) else (r:EReal) < (((b.val : ℝ) + 1 : ℝ) : EReal))) ↔ ⌊r⌋ = (b.val : Int) := by
          rw [if_neg hb, EReal.coe_le_coe_iff, EReal.coe_lt_coe_iff, Int.floor_eq_iff]
          push_cast
          exact Iff.rfl
        have hb9 : b.val < 9 := by omega
        by_cases h9 : ⌊r⌋ = (b.val : Int)
        · rw [ind_pos (hi.mpr h9), if_pos (by omega)]
        · rw [ind_neg (fun h => h9 (hi.mp h)), if_neg (by omega)]
  · rw [ind_neg hv, ite_self, ind_neg (fun h => hv (inBin_valid b x h))]

theorem bmod_small (n : Int) (h1 : -2147483648 ≤ n) (h2 : n < 2147483648) : n.bmod (2 ^ 32) = n := by
  rw [Int.bmod_def]
  norm_num
  omega

/-- The flat scatter position `clip + 10 r'` (32-bit arithmetic, no overflow) is `10 r + b` exactly when the row is
    `r` and the clipped integer part is `b`. -/
theorem flat_iff (x : EReal) (r' r : Fin 4096) (b : Fin 10) :
    (IntOp.addi (cidx x) (IntOp.muli (BitVec.ofNat 32 r'.val) 10#32)).toInt = (((r.val * 10 + b.val : Nat)) : Int)
      ↔ (r' = r ∧ (cidx x).toInt = (b.val : Int)) := by
  obtain ⟨c0, c9⟩ := cidx_bounds x
  have hr' := r'.isLt
  have hr := r.isLt
  have hb := b.isLt
  have h10 : (10#32).toInt = 10 := by decide
  unfold IntOp.addi IntOp.muli
  rw [BitVec.toInt_add, BitVec.toInt_mul, BitVec.toInt_ofNat', h10,
    bmod_small (r'.val : Int) (by omega) (by omega),
    bmod_small ((r'.val : Int) * 10) (by omega) (by omega),
    bmod_small ((cidx x).toInt + (r'.val : Int) * 10) (by omega) (by omega), Fin.ext_iff]
  push_cast
  omega

/-- The scatter read at one element: the operand's element plus the updates whose index, read signed, is that element. -/
theorem scatter_open (Z : S40960.Idx → EReal) (I : IVec S67108864x1 32) (Uu : S67108864.Idx → EReal) (e : Fin 40960) :
    Host.scatterAdd (F := Ideal) (φ := .f32) scatter_S40960_S67108864x1_S67108864_n_0_0_1 Z I Uu (ix1 e)
      = Z (ix1 e) + ∑ p ∈ Finset.univ.filter (fun p : Fin 67108864 => (I (ix2 p (0 : Fin 1))).toInt = (e.val : Int)),
          Uu (ix1 p) :=
  (congrFun (rfl : Host.scatterAdd (F := Ideal) (φ := .f32) scatter_S40960_S67108864x1_S67108864_n_0_0_1 Z I Uu
      = Ideal.hostScatterAdd scatter_S40960_S67108864x1_S67108864_n_0_0_1 Z I Uu) (ix1 e)).trans
    (Cert.LibScatterRows.hostScatterAdd_vec_apply scatter_S40960_S67108864x1_S67108864_n_0_0_1 rfl rfl rfl rfl Z I Uu e)

/-- Flat position `16384 r' + s` of the reshaped arrays is entry `(r', s)`. -/
theorem flat_idx (r' : Fin 4096) (s : Fin 16384) (h : r'.val * 16384 + s.val < 67108864) :
    idx_main_v14 (ix1 (⟨r'.val * 16384 + s.val, h⟩ : Fin 67108864)) = ix2 r' s := by
  funext a
  refine Fin.ext ?_
  have h1 := r'.isLt
  have h2 := s.isLt
  match a with
  | ⟨0, _⟩ => show (r'.val * 16384 + s.val) / 16384 = r'.val; omega
  | ⟨1, _⟩ => show (r'.val * 16384 + s.val) % 16384 = s.val; omega

/-- The scatter index at flat position `16384 r' + s`: the clipped integer part of entry `(r', s)` plus `10 r'`. -/
theorem read_idx (x0 : (⟨S4096x16384, .f32⟩ : BufTy).Contents (Elt Ideal)) (r' : Fin 4096) (s : Fin 16384)
    (h : r'.val * 16384 + s.val < 67108864) :
    val_main_v18 (F := Ideal) x0 (ix2 (⟨r'.val * 16384 + s.val, h⟩ : Fin 67108864) (0 : Fin 1))
      = IntOp.addi (cidx (x0 (ix2 r' s))) (IntOp.muli (BitVec.ofNat 32 r'.val) 10#32) := by
  rw [val_main_v18_apply]
  have e18 : idx_main_v18 (ix2 (⟨r'.val * 16384 + s.val, h⟩ : Fin 67108864) (0 : Fin 1))
      = ix1 (⟨r'.val * 16384 + s.val, h⟩ : Fin 67108864) := by
    funext a
    refine Fin.ext ?_
    match a with
    | ⟨0, _⟩ => rfl
  rw [e18, val_main_v14_apply, flat_idx, val_main_v13_apply, val_main_v7_apply, val_main_call0_v2_apply,
    val_main_v6_apply, val_main_v5_apply, val_main_call0_v4_apply, val_main_call0_v3_apply, val_main_c_1_apply,
    val_main_call0_v1_apply, val_main_call0_v0_apply, val_main_c_apply, val_main_v12_apply, val_main_v11_apply,
    val_main_v9_apply, val_main_v8_apply, val_main_v10_apply, val_main_c_2_apply]
  rfl

/-- The update at flat position `16384 r' + s`: the validity flag of entry `(r', s)`. -/
theorem read_upd (x0 : (⟨S4096x16384, .f32⟩ : BufTy).Contents (Elt Ideal)) (r' : Fin 4096) (s : Fin 16384)
    (h : r'.val * 16384 + s.val < 67108864) :
    val_main_v16 (F := Ideal) x0 (ix1 (⟨r'.val * 16384 + s.val, h⟩ : Fin 67108864)) = flag (x0 (ix2 r' s)) := by
  rw [val_main_v16_apply]
  have e16 : idx_main_v16 (ix1 (⟨r'.val * 16384 + s.val, h⟩ : Fin 67108864)) = ix2 r' s := flat_idx r' s h
  rw [e16, val_main_v15_apply, val_main_v4_apply, val_main_v1_apply, val_main_v3_apply, val_main_v0_apply,
    val_main_v2_apply, val_main_cst_apply, val_main_cst_0_apply]
  rfl

/-- The operand of the scatter is zero everywhere. -/
theorem read_zero (e : Fin 40960) : val_main_v17 (F := Ideal) (ix1 e) = 0 := by
  rw [val_main_v17_apply, val_main_cst_3_apply]
  exact Ideal.ofBits_zero_f32

/-- Of a double sum whose terms vanish off row `r`, only row `r` remains. -/
theorem collapse (g : Fin 4096 → Fin 16384 → EReal) (P : Fin 4096 → Fin 16384 → Prop)
    [∀ r' s, Decidable (P r' s)] (r : Fin 4096) :
    ∑ r' : Fin 4096, ∑ s : Fin 16384, (if r' = r ∧ P r' s then g r' s else 0)
      = ∑ s : Fin 16384, if P r s then g r s else 0 := by
  rw [Finset.sum_eq_single r]
  · refine Finset.sum_congr rfl fun s _ => ?_
    exact if_congr ⟨fun h => h.2, fun h => ⟨rfl, h⟩⟩ rfl rfl
  · intro r' _ hne
    refine Finset.sum_eq_zero fun s _ => ?_
    exact if_neg (fun h => hne h.1)
  · intro h; exact absurd (Finset.mem_univ r) h

/-- Entry `(r, b)` of the reference's histogram is the number of entries of row `r` in bin `b`. -/
theorem hist_apply (x0 : (⟨S4096x16384, .f32⟩ : BufTy).Contents (Elt Ideal)) (r : Fin 4096) (b : Fin 10) :
    val_main_v20 (F := Ideal) x0 (ix2 r b) = cnt (fun s => x0 (ix2 r s)) b := by
  rw [val_main_v20_apply]
  have he : idx_main_v20 (ix2 r b) = ix1 (⟨r.val * 10 + b.val, by omega⟩ : Fin 40960) := by
    funext a
    refine Fin.ext ?_
    match a with
    | ⟨0, _⟩ => rfl
  rw [he]
  unfold val_main_v19
  refine (scatter_open _ _ _ _).trans ?_
  rw [read_zero, zero_add, Finset.sum_filter, Cert.ReferenceIdeal.HistSum.sum_flat]
  refine (Finset.sum_congr rfl fun r' _ => Finset.sum_congr rfl fun s _ =>
    (?_ : _ = if r' = r ∧ (cidx (x0 (ix2 r' s))).toInt = (b.val : Int) then flag (x0 (ix2 r' s)) else 0)).trans ?_
  · rw [read_idx, read_upd]
    exact if_congr (flat_iff _ r' r b) rfl rfl
  · refine (collapse (fun r' s => flag (x0 (ix2 r' s)))
      (fun r' s => (cidx (x0 (ix2 r' s))).toInt = (b.val : Int)) r).trans ?_
    exact Finset.sum_congr rfl fun s _ => elem _ b

end Cert.ReferenceIdeal.HistValue

end
-- ==== Proof.RefValue.lean ====
/-
  The reference program's result, read index by index at the ideal instance, is the specification: after the
  histogram (read in the module this one imports) the program is the ten-bin network, operation by operation.

  Each layer is read in the same order: the affine map and the clamp at zero; the mean of the 128 lanes (a sum from
  zero divided by 128); the centred lanes; the variance (the sum from zero of the squared centred lanes divided by 128);
  the quotient by the square root of the variance plus a small constant; the scale and the shift per lane.
  A broadcast is read by composing its index map, and every composed index map at the entry `(r, j)` is an
  explicit pair or singleton of coordinates.
-/
import proofs.«126141_j10033043603497_2_alg».proof.Proof.Gen.ReferenceIdeal.Read
import proofs.«126141_j10033043603497_2_alg».proof.Proof.Spec
import proofs.«126141_j10033043603497_2_alg».proof.Proof.RefHist
import Idealize.ShloMosaic.Lib.ValueIdx
import Idealize.ShloMosaic.Lib.Pipeline.Value
import Idealize.ShloMosaic.PureOps.Ideal.Laws

noncomputable section

namespace Cert.ReferenceIdeal.HistValue

open Cert.ReferenceIdeal Cert.ReferenceIdeal.Read Cert.HistMlp
open Idealize.ShloMosaic Idealize.ShloMosaic.ValueIdx
open scoped BigOperators

namespace Net

/-- The total of the ten counts of row `r`, summed from zero. -/
theorem v21_at (x0 : (⟨S4096x16384, .f32⟩ : BufTy).Contents (Elt Ideal)) (r : Fin 4096) :
    val_main_v21 (F := Ideal) x0 (ix1 r) = z32 + ∑ b : Fin 10, cnt (fun s => x0 (ix2 r s)) b := by
  rw [val_main_v21_apply]
  refine congrArg₂ (· + ·) rfl (Finset.sum_congr rfl fun b _ => ?_)
  refine Eq.trans (congrArg _ ?_) (hist_apply x0 r b)
  exact funext fun a => Fin.ext (by match a with | ⟨0, _⟩ => rfl | ⟨1, _⟩ => rfl)

/-- Count `b` of row `r` divided by the row's total plus the small constant. -/
theorem v26_at (x0 : (⟨S4096x16384, .f32⟩ : BufTy).Contents (Elt Ideal)) (r : Fin 4096) (b : Fin 10) :
    val_main_v26 (F := Ideal) x0 (ix2 r b) =
      Ideal.div (cnt (fun s => x0 (ix2 r s)) b) ((z32 + ∑ b' : Fin 10, cnt (fun s => x0 (ix2 r s)) b') + eps8) := by
  rw [val_main_v26_apply, hist_apply, val_main_v25_apply, val_main_v24_apply, val_main_v22_apply, val_main_v23_apply]
  have e : idx_main_v22 (idx_main_v25 (ix2 r b)) = ix1 r :=
    funext fun a => Fin.ext (by match a with | ⟨0, _⟩ => rfl)
  rw [e, v21_at]
  rfl

/-- The first layer before normalisation: the affine map of the normalised counts, clamped below at zero. -/
def hid1 (x0 : (⟨S4096x16384, .f32⟩ : BufTy).Contents (Elt Ideal)) (x1 : (⟨S10x128, .f32⟩ : BufTy).Contents (Elt Ideal)) (x2 : (⟨S128, .f32⟩ : BufTy).Contents (Elt Ideal)) (r : Fin 4096) (j : Fin 128) : EReal :=
  max ((∑ b : Fin 10, Ideal.div (cnt (fun s => x0 (ix2 r s)) b)
      ((z32 + ∑ b' : Fin 10, cnt (fun s => x0 (ix2 r s)) b') + eps8) * x1 (ix2 b j)) + x2 (ix1 j)) z32

/-- Entry `(r, j)` of the first clamp. -/
theorem v31_at (x0 : (⟨S4096x16384, .f32⟩ : BufTy).Contents (Elt Ideal)) (x1 : (⟨S10x128, .f32⟩ : BufTy).Contents (Elt Ideal)) (x2 : (⟨S128, .f32⟩ : BufTy).Contents (Elt Ideal)) (r : Fin 4096) (j : Fin 128) :
    val_main_v31 (F := Ideal) x0 x1 x2 (ix2 r j) = hid1 x0 x1 x2 r j := by
  rw [val_main_v31_apply, val_main_v30_apply, val_main_v27_apply, val_main_v29_apply, val_main_v28_apply,
    val_main_call1_v0_apply, val_main_call1_cst_apply]
  have e1 : idx_main_v28 (idx_main_v29 (ix2 r j)) = ix1 j :=
    funext fun a => Fin.ext (by match a with | ⟨0, _⟩ => rfl)
  have e2 : ∀ k : Fin 10, lidx_main_v27 (ix2 r j) k = ix2 r k := fun k =>
    funext fun a => Fin.ext (by match a with | ⟨0, _⟩ => rfl | ⟨1, _⟩ => rfl)
  have e3 : ∀ k : Fin 10, ridx_main_v27 (ix2 r j) k = ix2 k j := fun k =>
    funext fun a => Fin.ext (by match a with | ⟨0, _⟩ => rfl | ⟨1, _⟩ => rfl)
  rw [e1]
  simp only [e2, e3, v26_at]
  rfl

/-- The mean of the 128 lanes of row `r` of the first clamp. -/
theorem mean1_at (x0 : (⟨S4096x16384, .f32⟩ : BufTy).Contents (Elt Ideal)) (x1 : (⟨S10x128, .f32⟩ : BufTy).Contents (Elt Ideal)) (x2 : (⟨S128, .f32⟩ : BufTy).Contents (Elt Ideal)) (r : Fin 4096) (q : Fin 1) :
    val_main_v35 (F := Ideal) x0 x1 x2 (ix2 r q) = mean (fun k => val_main_v31 (F := Ideal) x0 x1 x2 (ix2 r k)) := by
  rw [val_main_v35_apply, val_main_v33_apply, val_main_v34_apply, val_main_cst_7_apply, val_main_v32_apply, val_main_cst_6_apply]
  have e : ∀ k : Fin 128, idx_main_v32 (idx_main_v33 (ix2 r q)) k = ix2 r k := fun k =>
    funext fun a => Fin.ext (by match a with | ⟨0, _⟩ => rfl | ⟨1, _⟩ => rfl)
  simp only [e]
  rfl

/-- Lane `j` of row `r` of the first clamp, minus the row's mean. -/
theorem cen1_at (x0 : (⟨S4096x16384, .f32⟩ : BufTy).Contents (Elt Ideal)) (x1 : (⟨S10x128, .f32⟩ : BufTy).Contents (Elt Ideal)) (x2 : (⟨S128, .f32⟩ : BufTy).Contents (Elt Ideal)) (r : Fin 4096) (j : Fin 128) :
    val_main_v37 (F := Ideal) x0 x1 x2 (ix2 r j) = val_main_v31 (F := Ideal) x0 x1 x2 (ix2 r j) - mean (fun k => val_main_v31 (F := Ideal) x0 x1 x2 (ix2 r k)) := by
  rw [val_main_v37_apply, val_main_v36_apply]
  have e : idx_main_v36 (ix2 r j) = ix2 r (0 : Fin 1) :=
    funext fun a => Fin.ext (by match a with | ⟨0, _⟩ => rfl | ⟨1, _⟩ => rfl)
  rw [e, mean1_at]
  rfl

/-- The variance of the 128 lanes of row `r` of the first clamp. -/
theorem var1_at (x0 : (⟨S4096x16384, .f32⟩ : BufTy).Contents (Elt Ideal)) (x1 : (⟨S10x128, .f32⟩ : BufTy).Contents (Elt Ideal)) (x2 : (⟨S128, .f32⟩ : BufTy).Contents (Elt Ideal)) (r : Fin 4096) (q : Fin 1) :
    val_main_v42 (F := Ideal) x0 x1 x2 (ix2 r q) = var (fun k => val_main_v31 (F := Ideal) x0 x1 x2 (ix2 r k)) := by
  rw [val_main_v42_apply, val_main_v40_apply, val_main_v41_apply, val_main_cst_9_apply, val_main_v39_apply, val_main_cst_8_apply]
  have e : ∀ k : Fin 128, idx_main_v39 (idx_main_v40 (ix2 r q)) k = ix2 r k := fun k =>
    funext fun a => Fin.ext (by match a with | ⟨0, _⟩ => rfl | ⟨1, _⟩ => rfl)
  simp only [e, val_main_v38_apply, cen1_at]
  rfl

/-- The centred lane divided by the square root of the variance plus the small constant. -/
theorem nrm1_at (x0 : (⟨S4096x16384, .f32⟩ : BufTy).Contents (Elt Ideal)) (x1 : (⟨S10x128, .f32⟩ : BufTy).Contents (Elt Ideal)) (x2 : (⟨S128, .f32⟩ : BufTy).Contents (Elt Ideal)) (r : Fin 4096) (j : Fin 128) :
    val_main_v49 (F := Ideal) x0 x1 x2 (ix2 r j) =
      Ideal.div (val_main_v31 (F := Ideal) x0 x1 x2 (ix2 r j) - mean (fun k => val_main_v31 (F := Ideal) x0 x1 x2 (ix2 r k))) (Ideal.sqrt (var (fun k => val_main_v31 (F := Ideal) x0 x1 x2 (ix2 r k)) + eps5)) := by
  rw [val_main_v49_apply, val_main_v44_apply, val_main_v43_apply, val_main_v48_apply, val_main_v47_apply, val_main_v46_apply, val_main_v45_apply, val_main_cst_10_apply]
  have e1 : idx_main_v43 (ix2 r j) = ix2 r (0 : Fin 1) :=
    funext fun a => Fin.ext (by match a with | ⟨0, _⟩ => rfl | ⟨1, _⟩ => rfl)
  have e2 : idx_main_v48 (ix2 r j) = ix2 r (0 : Fin 1) :=
    funext fun a => Fin.ext (by match a with | ⟨0, _⟩ => rfl | ⟨1, _⟩ => rfl)
  rw [e1, e2, mean1_at, var1_at]
  rfl

/-- The normalised lane scaled and shifted: the normalisation of row `r` of the first clamp at lane `j`. -/
theorem ln1_at (x0 : (⟨S4096x16384, .f32⟩ : BufTy).Contents (Elt Ideal)) (x1 : (⟨S10x128, .f32⟩ : BufTy).Contents (Elt Ideal)) (x2 : (⟨S128, .f32⟩ : BufTy).Contents (Elt Ideal)) (x3 : (⟨S128, .f32⟩ : BufTy).Contents (Elt Ideal)) (x4 : (⟨S128, .f32⟩ : BufTy).Contents (Elt Ideal)) (r : Fin 4096) (j : Fin 128) :
    val_main_v55 (F := Ideal) x0 x1 x2 x3 x4 (ix2 r j) =
      lnDiv (fun k => val_main_v31 (F := Ideal) x0 x1 x2 (ix2 r k)) (fun k => x3 (ix1 k)) (fun k => x4 (ix1 k)) j := by
  rw [val_main_v55_apply, val_main_v52_apply, nrm1_at, val_main_v51_apply, val_main_v50_apply, val_main_v54_apply, val_main_v53_apply]
  have e1 : idx_main_v50 (idx_main_v51 (ix2 r j)) = ix1 j :=
    funext fun a => Fin.ext (by match a with | ⟨0, _⟩ => rfl)
  have e2 : idx_main_v53 (idx_main_v54 (ix2 r j)) = ix1 j :=
    funext fun a => Fin.ext (by match a with | ⟨0, _⟩ => rfl)
  rw [e1, e2]
  rfl

/-- The first layer's result on row `r`: the normalised clamp, scaled and shifted lane by lane. -/
def out1 (x0 : (⟨S4096x16384, .f32⟩ : BufTy).Contents (Elt Ideal)) (x1 : (⟨S10x128, .f32⟩ : BufTy).Contents (Elt Ideal)) (x2 : (⟨S128, .f32⟩ : BufTy).Contents (Elt Ideal)) (x3 x4 : (⟨S128, .f32⟩ : BufTy).Contents (Elt Ideal)) (r : Fin 4096) (k : Fin 128) : EReal :=
  lnDiv (hid1 x0 x1 x2 r) (fun k => x3 (ix1 k)) (fun k => x4 (ix1 k)) k

/-- Entry `(r, k)` of the first layer's result. -/
theorem v55_at (x0 : (⟨S4096x16384, .f32⟩ : BufTy).Contents (Elt Ideal)) (x1 : (⟨S10x128, .f32⟩ : BufTy).Contents (Elt Ideal)) (x2 : (⟨S128, .f32⟩ : BufTy).Contents (Elt Ideal)) (x3 x4 : (⟨S128, .f32⟩ : BufTy).Contents (Elt Ideal)) (r : Fin 4096) (k : Fin 128) :
    val_main_v55 (F := Ideal) x0 x1 x2 x3 x4 (ix2 r k) = out1 x0 x1 x2 x3 x4 r k := by
  rw [ln1_at]
  simp only [v31_at]
  rfl

/-- The second layer before normalisation. -/
def hid2 (x0 : (⟨S4096x16384, .f32⟩ : BufTy).Contents (Elt Ideal)) (x1 : (⟨S10x128, .f32⟩ : BufTy).Contents (Elt Ideal)) (x2 : (⟨S128, .f32⟩ : BufTy).Contents (Elt Ideal)) (x3 x4 : (⟨S128, .f32⟩ : BufTy).Contents (Elt Ideal)) (x5 : (⟨S128x128, .f32⟩ : BufTy).Contents (Elt Ideal)) (x6 : (⟨S128, .f32⟩ : BufTy).Contents (Elt Ideal)) (r : Fin 4096) (j : Fin 128) : EReal :=
  max ((∑ k : Fin 128, out1 x0 x1 x2 x3 x4 r k * x5 (ix2 k j)) + x6 (ix1 j)) z32

/-- Entry `(r, j)` of the second clamp. -/
theorem v60_at (x0 : (⟨S4096x16384, .f32⟩ : BufTy).Contents (Elt Ideal)) (x1 : (⟨S10x128, .f32⟩ : BufTy).Contents (Elt Ideal)) (x2 : (⟨S128, .f32⟩ : BufTy).Contents (Elt Ideal)) (x3 x4 : (⟨S128, .f32⟩ : BufTy).Contents (Elt Ideal)) (x5 : (⟨S128x128, .f32⟩ : BufTy).Contents (Elt Ideal)) (x6 : (⟨S128, .f32⟩ : BufTy).Contents (Elt Ideal)) (r : Fin 4096) (j : Fin 128) :
    val_main_v60 (F := Ideal) x0 x1 x2 x3 x4 x5 x6 (ix2 r j) = hid2 x0 x1 x2 x3 x4 x5 x6 r j := by
  rw [val_main_v60_apply, val_main_v59_apply, val_main_v56_apply, val_main_v58_apply, val_main_v57_apply,
    val_main_call2_v0_apply, val_main_call2_cst_apply]
  have e1 : idx_main_v57 (idx_main_v58 (ix2 r j)) = ix1 j :=
    funext fun a => Fin.ext (by match a with | ⟨0, _⟩ => rfl)
  have e2 : ∀ k : Fin 128, lidx_main_v56 (ix2 r j) k = ix2 r k := fun k =>
    funext fun a => Fin.ext (by match a with | ⟨0, _⟩ => rfl | ⟨1, _⟩ => rfl)
  have e3 : ∀ k : Fin 128, ridx_main_v56 (ix2 r j) k = ix2 k j := fun k =>
    funext fun a => Fin.ext (by match a with | ⟨0, _⟩ => rfl | ⟨1, _⟩ => rfl)
  rw [e1]
  simp only [e2, e3, v55_at]
  rfl

/-- The mean of the 128 lanes of row `r` of the second clamp. -/
theorem mean2_at (x0 : (⟨S4096x16384, .f32⟩ : BufTy).Contents (Elt Ideal)) (x1 : (⟨S10x128, .f32⟩ : BufTy).Contents (Elt Ideal)) (x2 : (⟨S128, .f32⟩ : BufTy).Contents (Elt Ideal)) (x3 x4 : (⟨S128, .f32⟩ : BufTy).Contents (Elt Ideal)) (x5 : (⟨S128x128, .f32⟩ : BufTy).Contents (Elt Ideal)) (x6 : (⟨S128, .f32⟩ : BufTy).Contents (Elt Ideal)) (r : Fin 4096) (q : Fin 1) :
    val_main_v64 (F := Ideal) x0 x1 x2 x3 x4 x5 x6 (ix2 r q) = mean (fun k => val_main_v60 (F := Ideal) x0 x1 x2 x3 x4 x5 x6 (ix2 r k)) := by
  rw [val_main_v64_apply, val_main_v62_apply, val_main_v63_apply, val_main_cst_12_apply, val_main_v61_apply, val_main_cst_11_apply]
  have e : ∀ k : Fin 128, idx_main_v61 (idx_main_v62 (ix2 r q)) k = ix2 r k := fun k =>
    funext fun a => Fin.ext (by match a with | ⟨0, _⟩ => rfl | ⟨1, _⟩ => rfl)
  simp only [e]
  rfl

/-- Lane `j` of row `r` of the second clamp, minus the row's mean. -/
theorem cen2_at (x0 : (⟨S4096x16384, .f32⟩ : BufTy).Contents (Elt Ideal)) (x1 : (⟨S10x128, .f32⟩ : BufTy).Contents (Elt Ideal)) (x2 : (⟨S128, .f32⟩ : BufTy).Contents (Elt Ideal)) (x3 x4 : (⟨S128, .f32⟩ : BufTy).Contents (Elt Ideal)) (x5 : (⟨S128x128, .f32⟩ : BufTy).Contents (Elt Ideal)) (x6 : (⟨S128, .f32⟩ : BufTy).Contents (Elt Ideal)) (r : Fin 4096) (j : Fin 128) :
    val_main_v66 (F := Ideal) x0 x1 x2 x3 x4 x5 x6 (ix2 r j) = val_main_v60 (F := Ideal) x0 x1 x2 x3 x4 x5 x6 (ix2 r j) - mean (fun k => val_main_v60 (F := Ideal) x0 x1 x2 x3 x4 x5 x6 (ix2 r k)) := by
  rw [val_main_v66_apply, val_main_v65_apply]
  have e : idx_main_v65 (ix2 r j) = ix2 r (0 : Fin 1) :=
    funext fun a => Fin.ext (by match a with | ⟨0, _⟩ => rfl | ⟨1, _⟩ => rfl)
  rw [e, mean2_at]
  rfl

/-- The variance of the 128 lanes of row `r` of the second clamp. -/
theorem var2_at (x0 : (⟨S4096x16384, .f32⟩ : BufTy).Contents (Elt Ideal)) (x1 : (⟨S10x128, .f32⟩ : BufTy).Contents (Elt Ideal)) (x2 : (⟨S128, .f32⟩ : BufTy).Contents (Elt Ideal)) (x3 x4 : (⟨S128, .f32⟩ : BufTy).Contents (Elt Ideal)) (x5 : (⟨S128x128, .f32⟩ : BufTy).Contents (Elt Ideal)) (x6 : (⟨S128, .f32⟩ : BufTy).Contents (Elt Ideal)) (r : Fin 4096) (q : Fin 1) :
    val_main_v71 (F := Ideal) x0 x1 x2 x3 x4 x5 x6 (ix2 r q) = var (fun k => val_main_v60 (F := Ideal) x0 x1 x2 x3 x4 x5 x6 (ix2 r k)) := by
  rw [val_main_v71_apply, val_main_v69_apply, val_main_v70_apply, val_main_cst_14_apply, val_main_v68_apply, val_main_cst_13_apply]
  have e : ∀ k : Fin 128, idx_main_v68 (idx_main_v69 (ix2 r q)) k = ix2 r k := fun k =>
    funext fun a => Fin.ext (by match a with | ⟨0, _⟩ => rfl | ⟨1, _⟩ => rfl)
  simp only [e, val_main_v67_apply, cen2_at]
  rfl

/-- The centred lane divided by the square root of the variance plus the small constant. -/
theorem nrm2_at (x0 : (⟨S4096x16384, .f32⟩ : BufTy).Contents (Elt Ideal)) (x1 : (⟨S10x128, .f32⟩ : BufTy).Contents (Elt Ideal)) (x2 : (⟨S128, .f32⟩ : BufTy).Contents (Elt Ideal)) (x3 x4 : (⟨S128, .f32⟩ : BufTy).Contents (Elt Ideal)) (x5 : (⟨S128x128, .f32⟩ : BufTy).Contents (Elt Ideal)) (x6 : (⟨S128, .f32⟩ : BufTy).Contents (Elt Ideal)) (r : Fin 4096) (j : Fin 128) :
    val_main_v78 (F := Ideal) x0 x1 x2 x3 x4 x5 x6 (ix2 r j) =
      Ideal.div (val_main_v60 (F := Ideal) x0 x1 x2 x3 x4 x5 x6 (ix2 r j) - mean (fun k => val_main_v60 (F := Ideal) x0 x1 x2 x3 x4 x5 x6 (ix2 r k))) (Ideal.sqrt (var (fun k => val_main_v60 (F := Ideal) x0 x1 x2 x3 x4 x5 x6 (ix2 r k)) + eps5)) := by
  rw [val_main_v78_apply, val_main_v73_apply, val_main_v72_apply, val_main_v77_apply, val_main_v76_apply, val_main_v75_apply, val_main_v74_apply, val_main_cst_15_apply]
  have e1 : idx_main_v72 (ix2 r j) = ix2 r (0 : Fin 1) :=
    funext fun a => Fin.ext (by match a with | ⟨0, _⟩ => rfl | ⟨1, _⟩ => rfl)
  have e2 : idx_main_v77 (ix2 r j) = ix2 r (0 : Fin 1) :=
    funext fun a => Fin.ext (by match a with | ⟨0, _⟩ => rfl | ⟨1, _⟩ => rfl)
  rw [e1, e2, mean2_at, var2_at]
  rfl

/-- The normalised lane scaled and shifted: the normalisation of row `r` of the second clamp at lane `j`. -/
theorem ln2_at (x0 : (⟨S4096x16384, .f32⟩ : BufTy).Contents (Elt Ideal)) (x1 : (⟨S10x128, .f32⟩ : BufTy).Contents (Elt Ideal)) (x2 : (⟨S128, .f32⟩ : BufTy).Contents (Elt Ideal)) (x3 x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (r : Fin 4096) (j : Fin 128) :
    val_main_v84 (F := Ideal) x0 x1 x2 x3 x4 x5 x6 x7 x8 (ix2 r j) =
      lnDiv (fun k => val_main_v60 (F := Ideal) x0 x1 x2 x3 x4 x5 x6 (ix2 r k)) (fun k => x7 (ix1 k)) (fun k => x8 (ix1 k)) j := by
  rw [val_main_v84_apply, val_main_v81_apply, nrm2_at, val_main_v80_apply, val_main_v79_apply, val_main_v83_apply, val_main_v82_apply]
  have e1 : idx_main_v79 (idx_main_v80 (ix2 r j)) = ix1 j :=
    funext fun a => Fin.ext (by match a with | ⟨0, _⟩ => rfl)
  have e2 : idx_main_v82 (idx_main_v83 (ix2 r j)) = ix1 j :=
    funext fun a => Fin.ext (by match a with | ⟨0, _⟩ => rfl)
  rw [e1, e2]
  rfl

end Net

/-- The reference's result is the specification, as one function of the nine arguments. -/
theorem ref_eq_G (x0 : (⟨S4096x16384, .f32⟩ : BufTy).Contents (Elt Ideal)) (x1 : (⟨S10x128, .f32⟩ : BufTy).Contents (Elt Ideal))
    (x2 x3 x4 : (⟨S128, .f32⟩ : BufTy).Contents (Elt Ideal)) (x5 : (⟨S128x128, .f32⟩ : BufTy).Contents (Elt Ideal))
    (x6 x7 x8 : (⟨S128, .f32⟩ : BufTy).Contents (Elt Ideal)) :
    val_main_v84 (F := Ideal) x0 x1 x2 x3 x4 x5 x6 x7 x8 = G x0 x1 x2 x3 x4 x5 x6 x7 x8 := by
  funext i
  obtain ⟨r, j, rfl⟩ : ∃ (r : Fin 4096) (j : Fin 128), i = ix2 r j := ⟨i 0, i 1, eq_ix2 i⟩
  rw [Net.ln2_at]
  simp only [Net.v60_at]
  rfl

end Cert.ReferenceIdeal.HistValue

end
-- ==== Proof.lean ====
/-
  The kernel builds, row by row, a ten-bin histogram of a 4096 × 16384 array from threshold counts accumulated over
  eight column tiles, divides the counts by their total, and sends them through two layers (affine map, clamp at zero,
  normalisation of the 128 lanes by the reciprocal square root of the variance); the reference bins each entry by its
  clipped integer part with a scattered sum, and normalises by dividing by the square root. Over the extended reals both
  results are one function `Cert.HistMlp.G` of the nine arguments:

    * the reference's run ends with its composed term, which is `G` entry by entry (Proof/RefValue.lean, the histogram
      in Proof/RefHist.lean);
    * the kernel's run ends with the result array at what its last visit of each row block wrote, the network of the
      accumulated counts, which is `G` entry by entry (Proof/KernelValue.lean over Proof/KernelBlocks.lean,
      Proof/PayloadIdx.lean, Proof/KernelReads.lean, Proof/HostPrelude.lean);
    * the two meet by pure algebra (Proof/Algebra.lean): differences of threshold counts are bin counts, zero padding
      changes no sum, and a product with the reciprocal square root of a positive number is the quotient by its root.

  No rewrite was applied when the kernel was idealized, so the preservation claim is trivial; the three frame claims are
  the generated frames (the reference's frame is its run with the result dropped). The precondition is never opened:
  the equality holds for every extended-real input.
-/
import proofs.«126141_j10033043603497_2_alg».proof.Defs
import proofs.«126141_j10033043603497_2_alg».proof.Proof.Gen.Kernel
import proofs.«126141_j10033043603497_2_alg».proof.Proof.Gen.Kernel.Frame
import proofs.«126141_j10033043603497_2_alg».proof.Proof.Gen.KernelIdeal
import proofs.«126141_j10033043603497_2_alg».proof.Proof.Gen.KernelIdeal.Frame
import proofs.«126141_j10033043603497_2_alg».proof.Proof.Gen.KernelIdeal.Value
import proofs.«126141_j10033043603497_2_alg».proof.Proof.Gen.ReferenceIdeal
import proofs.«126141_j10033043603497_2_alg».proof.Proof.Gen.ReferenceIdeal.Run
import proofs.«126141_j10033043603497_2_alg».proof.Proof.Gen.ReferenceIdeal.Read
import proofs.«126141_j10033043603497_2_alg».proof.Proof.Gen.Pre_finite_inputs
import proofs.«126141_j10033043603497_2_alg».proof.Proof.KernelValue
import proofs.«126141_j10033043603497_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `G` of the arguments, which agree. -/
theorem algebraic : Cert.algebraic_KernelIdeal_ReferenceIdeal := by
  intro m ρ m' ρ' _ hagree
  refine ⟨fun c => Cert.HistMlp.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.HistValue.final_eq_G m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v84_eq, Cert.ReferenceIdeal.HistValue.ref_eq_G,
      (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
